-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S2x800000 : Shape := ⟨2, ![2, 800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x256 .f32) (main_arg1 : FVec F S256x256 .f32) (main_arg2 : FVec F S256 .f32) (main_arg3 : FVec F S256x256 .f32) (main_arg4 : FVec F S256 .f32) (main_arg5 : IVec S2x800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S50000x256 : Shape := ⟨2, ![50000, 256]⟩
abbrev S256x256 : Shape := ⟨2, ![256, 256]⟩
abbrev S256 : Shape := ⟨1, ![256]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S10000 : Shape := ⟨1, ![10000]⟩
abbrev S10000x1 : Shape := ⟨2, ![10000, 1]⟩
abbrev S800000x256 : Shape := ⟨2, ![800000, 256]⟩
abbrev S10000x256 : Shape := ⟨2, ![10000, 256]⟩
abbrev S1000x256 : Shape := ⟨2, ![1000, 256]⟩
abbrev S1000x1 : Shape := ⟨2, ![1000, 1]⟩
abbrev S1x256 : Shape := ⟨2, ![1, 256]⟩
abbrev S2x256x256 : Shape := ⟨3, ![2, 256, 256]⟩
abbrev S5000x256 : Shape := ⟨2, ![5000, 256]⟩
abbrev S5000x1 : Shape := ⟨2, ![5000, 1]⟩
abbrev S1x256x256 : Shape := ⟨3, ![1, 256, 256]⟩

abbrev nBuf : Space → Nat
  | .hbm => 73
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .i1⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S10000, .f32⟩
  | .hbm, ⟨29, _⟩ => ⟨S800000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .i1⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S_, .f32⟩
  | .hbm, ⟨38, _⟩ => ⟨S_, .f32⟩
  | .hbm, ⟨39, _⟩ => ⟨S10000, .f32⟩
  | .hbm, ⟨40, _⟩ => ⟨S10000, .f32⟩
  | .hbm, ⟨41, _⟩ => ⟨S10000x1, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S10000x256, .f32⟩
  | .hbm, ⟨53, _⟩ => ⟨S800000x1, .i32⟩
  | .hbm, ⟨54, _⟩ => ⟨S10000x256, .f32⟩
  | .hbm, ⟨55, _⟩ => ⟨S10000x256, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x256, .f32⟩
  | .hbm, ⟨65, _⟩ => ⟨S_, .f32⟩
  | .hbm, ⟨66, _⟩ => ⟨S50000x256, .f32⟩
  | .hbm, ⟨67, _⟩ => ⟨S800000x1, .i32⟩
  | .hbm, ⟨68, _⟩ => ⟨S50000x256, .f32⟩
  | .hbm, ⟨69, _⟩ => ⟨S1x256, .f32⟩
  | .hbm, ⟨70, _⟩ => ⟨S2x256x256, .f32⟩
  | .hbm, ⟨71, _⟩ => ⟨S1x256, .f32⟩
  | .hbm, ⟨72, _⟩ => ⟨S256x256, .f32⟩
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1000x1, .f32⟩
  | .local _ .vmem, ⟨4, _⟩ => ⟨S1000x1, .f32⟩
  | .local _ .vmem, ⟨5, _⟩ => ⟨S1000x256, .f32⟩
  | .local _ .vmem, ⟨6, _⟩ => ⟨S1000x256, .f32⟩
  | .local _ .vmem, ⟨7, _⟩ => ⟨S5000x256, .f32⟩
  | .local _ .vmem, ⟨8, _⟩ => ⟨S5000x256, .f32⟩
  | .local _ .vmem, ⟨9, _⟩ => ⟨S5000x1, .f32⟩
  | .local _ .vmem, ⟨10, _⟩ => ⟨S5000x1, .f32⟩
  | .local _ .vmem, ⟨11, _⟩ => ⟨S1x256, .f32⟩
  | .local _ .vmem, ⟨12, _⟩ => ⟨S1x256x256, .f32⟩
  | .local _ .vmem, ⟨13, _⟩ => ⟨S1x256x256, .f32⟩
  | .local _ .vmem, ⟨14, _⟩ => ⟨S2x256x256, .f32⟩
  | .local _ .vmem, ⟨15, _⟩ => ⟨S256x256, .f32⟩
  | .local _ .vmem, ⟨16, _⟩ => ⟨S1x256, .f32⟩
  | .local _ .vmem, ⟨17, _⟩ => ⟨S256x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_10 : Ref sig .tc := ⟨.hbm, 56, rfl⟩
abbrev main_v34 : Ref sig .tc := ⟨.hbm, 57, rfl⟩
abbrev main_v35 : Ref sig .tc := ⟨.hbm, 58, rfl⟩
abbrev main_c_11 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_12 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem2_0 : DmaSem sig := 16
abbrev cc2_sem3_0 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 5], ![false, false]⟩

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2x256x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S10000 : S_.BroadcastsInDim S10000 (![] : Fin 0 → Fin S10000.rank)
  shapeCasts_S10000_S10000x1 : S10000.ShapeCasts S10000x1
  bcast_S_S10000x256 : S_.BroadcastsInDim S10000x256 (![] : Fin 0 → Fin S10000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x256 : S1000x1.Broadcasts S1000x256
  bcast_S_S50000x256 : S_.BroadcastsInDim S50000x256 (![] : Fin 0 → Fin S50000x256.rank)
  shapeCasts_S256_S1x256 : S256.ShapeCasts S1x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S2x256x256_S1x256x256_0_0_0 : ∀ a, (![0, 0, 0] : Fin 3 → Nat) a + S1x256x256.size a ≤ S2x256x256.size a
  inb_S2x256x256_S1x256x256_1_0_0 : ∀ a, (![1, 0, 0] : Fin 3 → Nat) a + S1x256x256.size a ≤ S2x256x256.size a
  broadcasts_S1x256_S256x256 : S1x256.Broadcasts S256x256
  scatter_S50000_S800000x1_S800000_n_0_0_1_wf : ScatterDims.WF S50000 S800000x1 S800000 [] [0] [0] 1
  scatter_S10000_S800000x1_S800000_n_0_0_1_wf : ScatterDims.WF S10000 S800000x1 S800000 [] [0] [0] 1
  gather_S50000x256_S800000x1_S800000x256_1_0_n_n_0_1_1256_wf : GatherDims.WF S50000x256 S800000x1 S800000x256 [1] [0] [] [0] [] 1 ![1, 256]
  scatter_S10000x256_S800000x1_S800000x256_1_0_0_1_wf : ScatterDims.WF S10000x256 S800000x1 S800000x256 [1] [0] [0] 1
  dot_S1000x256_S256x256_S1000x256_1_1_0_0_n_n_wf : DotDims.WF S1000x256 S256x256 S1000x256 [1] [1] [0] [0] [] []
  gather_S10000x256_S800000x1_S800000x256_1_0_n_n_0_1_1256_wf : GatherDims.WF S10000x256 S800000x1 S800000x256 [1] [0] [] [0] [] 1 ![1, 256]
  scatter_S50000x256_S800000x1_S800000x256_1_0_0_1_wf : ScatterDims.WF S50000x256 S800000x1 S800000x256 [1] [0] [0] 1
  dot_S5000x256_S5000x256_S256x256_0_0_1_1_n_n_wf : DotDims.WF S5000x256 S5000x256 S256x256 [0] [0] [1] [1] [] []
  dot_S256x256_S256x256_S256x256_1_1_0_0_n_n_wf : DotDims.WF S256x256 S256x256 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S10000x1.size a
  hwx0_2 : ∀ i : grid0.Coords, EltTy.bits .f32 = 32 ∨ (Rect.block (s := S10000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x256.size a ≤ S2x256x256.size a
  hwx1_3 : ∀ i : grid1.Coords, EltTy.bits .f32 = 32 ∨ (Rect.block (s := S2x256x256) S1x256x256.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2x256x256.size a ≤ S2x256x256.size a
  hwx2_0 : ∀ i : grid2.Coords, EltTy.bits .f32 = 32 ∨ (Rect.block (s := S2x256x256) S2x256x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S10000x256_S800000x1_S800000x256_1_0_0_1 : ScatterDims S10000x256 S800000x1 S800000x256 where
  updateWindowDims := [1]
  insertedWindowDims := [0]
  scatterDimsToOperandDims := [0]
  indexVectorDim := 1
  wf := scatter_S10000x256_S800000x1_S800000x256_1_0_0_1_wf
def dot_S1000x256_S256x256_S1000x256_1_1_0_0_n_n : DotDims S1000x256 S256x256 S1000x256 where
  lhsContracting := [1]
  rhsContracting := [1]
  lhsNonContracting := [0]
  rhsNonContracting := [0]
  lhsBatch := []
  rhsBatch := []
  wf := dot_S1000x256_S256x256_S1000x256_1_1_0_0_n_n_wf
def gather_S10000x256_S800000x1_S800000x256_1_0_n_n_0_1_1256 : GatherDims S10000x256 S800000x1 S800000x256 where
  offsetDims := [1]
  collapsedSliceDims := [0]
  operandBatchingDims := []
  startIndicesBatchingDims := []
  startIndexMap := [0]
  indexVectorDim := 1
  sliceSizes := ![1, 256]
  wf := gather_S10000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S5000x256_S256x256_0_0_1_1_n_n : DotDims S5000x256 S5000x256 S256x256 where
  lhsContracting := [0]
  rhsContracting := [0]
  lhsNonContracting := [1]
  rhsNonContracting := [1]
  lhsBatch := []
  rhsBatch := []
  wf := dot_S5000x256_S5000x256_S256x256_0_0_1_1_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf

abbrev win0_0 : Pipeline.Window sig grid0 :=
  Pipeline.Window.ofSpec (Memref.whole main_v32) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v43) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S2x256x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S256x256.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S10000 : Shape := ⟨1, ![10000]⟩
abbrev S800000x256 : Shape := ⟨2, ![800000, 256]⟩
abbrev S10000x256 : Shape := ⟨2, ![10000, 256]⟩
abbrev S10000x1 : Shape := ⟨2, ![10000, 1]⟩
abbrev S50000x1 : Shape := ⟨2, ![50000, 1]⟩
abbrev S1x256 : Shape := ⟨2, ![1, 256]⟩
abbrev S256x50000 : Shape := ⟨2, ![256, 50000]⟩

abbrev nBuf : Space → Nat
  | .hbm => 100
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S2x800000, .i32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S256x256, .f32⟩
  | .hbm, ⟨11, _⟩ => ⟨S50000x256, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S10000, .f32⟩
  | .hbm, ⟨30, _⟩ => ⟨S800000x1, .i32⟩
  | .hbm, ⟨31, _⟩ => ⟨S10000, .f32⟩
  | .hbm, ⟨32, _⟩ => ⟨S_, .f32⟩
  | .hbm, ⟨33, _⟩ => ⟨S10000, .f32⟩
  | .hbm, ⟨34, _⟩ => ⟨S10000, .i1⟩
  | .hbm, ⟨35, _⟩ => ⟨S_, .f32⟩
  | .hbm, ⟨36, _⟩ => ⟨S10000, .f32⟩
  | .hbm, ⟨37, _⟩ => ⟨S10000, .f32⟩
  | .hbm, ⟨38, _⟩ => ⟨S_, .f32⟩
  | .hbm, ⟨39, _⟩ => ⟨S_, .f32⟩
  | .hbm, ⟨40, _⟩ => ⟨S10000, .f32⟩
  | .hbm, ⟨41, _⟩ => ⟨S10000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x256, .f32⟩
  | .hbm, ⟨51, _⟩ => ⟨S_, .f32⟩
  | .hbm, ⟨52, _⟩ => ⟨S10000x256, .f32⟩
  | .hbm, ⟨53, _⟩ => ⟨S800000x1, .i32⟩
  | .hbm, ⟨54, _⟩ => ⟨S10000x256, .f32⟩
  | .hbm, ⟨55, _⟩ => ⟨S10000x1, .f32⟩
  | .hbm, ⟨56, _⟩ => ⟨S10000x256, .f32⟩
  | .hbm, ⟨57, _⟩ => ⟨S10000x256, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x256, .f32⟩
  | .hbm, ⟨67, _⟩ => ⟨S_, .f32⟩
  | .hbm, ⟨68, _⟩ => ⟨S50000x256, .f32⟩
  | .hbm, ⟨69, _⟩ => ⟨S800000x1, .i32⟩
  | .hbm, ⟨70, _⟩ => ⟨S50000x256, .f32⟩
  | .hbm, ⟨71, _⟩ => ⟨S50000x1, .f32⟩
  | .hbm, ⟨72, _⟩ => ⟨S50000x256, .f32⟩
  | .hbm, ⟨73, _⟩ => ⟨S50000x256, .f32⟩
  | .hbm, ⟨74, _⟩ => ⟨S1x256, .f32⟩
  | .hbm, ⟨75, _⟩ => ⟨S50000x256, .f32⟩
  | .hbm, ⟨76, _⟩ => ⟨S50000x256, .f32⟩
  | .hbm, ⟨77, _⟩ => ⟨S_, .f32⟩
  | .hbm, ⟨78, _⟩ => ⟨S_, .f32⟩
  | .hbm, ⟨79, _⟩ => ⟨S50000x256, .f32⟩
  | .hbm, ⟨80, _⟩ => ⟨S50000x256, .i1⟩
  | .hbm, ⟨81, _⟩ => ⟨S_, .f32⟩
  | .hbm, ⟨82, _⟩ => ⟨S50000x256, .f32⟩
  | .hbm, ⟨83, _⟩ => ⟨S50000x256, .f32⟩
  | .hbm, ⟨84, _⟩ => ⟨S50000x256, .f32⟩
  | .hbm, ⟨85, _⟩ => ⟨S256x50000, .f32⟩
  | .hbm, ⟨86, _⟩ => ⟨S256x256, .f32⟩
  | .hbm, ⟨87, _⟩ => ⟨S256x256, .f32⟩
  | .hbm, ⟨88, _⟩ => ⟨S256x256, .f32⟩
  | .hbm, ⟨89, _⟩ => ⟨S1x256, .f32⟩
  | .hbm, ⟨90, _⟩ => ⟨S256x256, .f32⟩
  | .hbm, ⟨91, _⟩ => ⟨S256x256, .f32⟩
  | .hbm, ⟨92, _⟩ => ⟨S_, .f32⟩
  | .hbm, ⟨93, _⟩ => ⟨S_, .f32⟩
  | .hbm, ⟨94, _⟩ => ⟨S256x256, .f32⟩
  | .hbm, ⟨95, _⟩ => ⟨S256x256, .i1⟩
  | .hbm, ⟨96, _⟩ => ⟨S_, .f32⟩
  | .hbm, ⟨97, _⟩ => ⟨S256x256, .f32⟩
  | .hbm, ⟨98, _⟩ => ⟨S256x256, .f32⟩
  | .hbm, ⟨99, _⟩ => ⟨S256x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_c_8 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_10 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_14 : Ref sig .tc := ⟨.hbm, 92, rfl⟩
abbrev main_call3_cst : Ref sig .tc := ⟨.hbm, 93, rfl⟩
abbrev main_call3_v0 : Ref sig .tc := ⟨.hbm, 94, rfl⟩
abbrev main_call3_v1 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_v60 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S256x256_S256x256_1_0 : S256x256.Transposes [1, 0] S256x256
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S10000 : S_.BroadcastsInDim S10000 (![] : Fin 0 → Fin S10000.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S50000x256_S256x50000_1_0 : S50000x256.Transposes [1, 0] S256x50000
  bcast_S1x256_S256x256_0_1 : S1x256.BroadcastsInDim S256x256 (![0, 1] : Fin 2 → Fin S256x256.rank)
  bcast_S_S256x256 : S_.BroadcastsInDim S256x256 (![] : Fin 0 → Fin S256x256.rank)
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  scatter_S10000_S800000x1_S800000_n_0_0_1_wf : ScatterDims.WF S10000 S800000x1 S800000 [] [0] [0] 1
  gather_S50000x256_S800000x1_S800000x256_1_0_n_n_0_1_1256_wf : GatherDims.WF S50000x256 S800000x1 S800000x256 [1] [0] [] [0] [] 1 ![1, 256]
  scatter_S10000x256_S800000x1_S800000x256_1_0_0_1_wf : ScatterDims.WF S10000x256 S800000x1 S800000x256 [1] [0] [0] 1
  gather_S10000x256_S800000x1_S800000x256_1_0_n_n_0_1_1256_wf : GatherDims.WF S10000x256 S800000x1 S800000x256 [1] [0] [] [0] [] 1 ![1, 256]
  scatter_S50000x256_S800000x1_S800000x256_1_0_0_1_wf : ScatterDims.WF S50000x256 S800000x1 S800000x256 [1] [0] [0] 1
  dot_S256x50000_S50000x256_S256x256_1_0_0_1_n_n_wf : DotDims.WF S256x50000 S50000x256 S256x256 [1] [0] [0] [1] [] []
  dot_S256x256_S256x256_S256x256_1_0_0_1_n_n_wf : DotDims.WF S256x256 S256x256 S256x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S10000_S800000x1_S800000_n_0_0_1 : ScatterDims S10000 S800000x1 S800000 where
  updateWindowDims := []
  insertedWindowDims := [0]
  scatterDimsToOperandDims := [0]
  indexVectorDim := 1
  wf := scatter_S10000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S10000x256_S800000x1_S800000x256_1_0_0_1 : ScatterDims S10000x256 S800000x1 S800000x256 where
  updateWindowDims := [1]
  insertedWindowDims := [0]
  scatterDimsToOperandDims := [0]
  indexVectorDim := 1
  wf := scatter_S10000x256_S800000x1_S800000x256_1_0_0_1_wf
def gather_S10000x256_S800000x1_S800000x256_1_0_n_n_0_1_1256 : GatherDims S10000x256 S800000x1 S800000x256 where
  offsetDims := [1]
  collapsedSliceDims := [0]
  operandBatchingDims := []
  startIndicesBatchingDims := []
  startIndexMap := [0]
  indexVectorDim := 1
  sliceSizes := ![1, 256]
  wf := gather_S10000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S256x50000_S50000x256_S256x256_1_0_0_1_n_n : DotDims S256x50000 S50000x256 S256x256 where
  lhsContracting := [1]
  rhsContracting := [0]
  lhsNonContracting := [0]
  rhsNonContracting := [1]
  lhsBatch := []
  rhsBatch := []
  wf := dot_S256x50000_S50000x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

class Facts : Prop extends Facts₀ where

variable [Facts]
-- ==== Proof.KerRun.lean ====
/-
  The idealized kernel program's run, with its result named.

  @main is five stretches of host operations, the first kernel region, a stretch, the second region, a stretch
  and the third region. The buffer contents at every boundary are a fold from the launch memory: a stretch
  applies its operations, a region replaces its arrays by what its write-backs leave. Every weakly fair
  execution terminates without a fault in a state whose unscoped buffers hold the last boundary's contents;
  so the result buffer holds the third region's output array, and the six arguments hold what they were
  launched with.
-/
import proofs.«176856_j40638980555154_2_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the arguments as launched. -/
theorem run_final : θ_run defs (onTc (τ := τ) (main (F := F))) ⟨m, fun _ => 0, ρ⟩ (fun r => ∀ c : Dev nD,
      r.2.mem ((c.tc : Thread nD τ).loc main_v47) = W10 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v47 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.KerRun

end
-- ==== Proof.Spec.lean ====
/-
  The mathematics of one hypergraph convolution layer followed by a Gram matrix and a dense layer.

  A hypergraph has 50000 nodes, 10000 hyperedges and 800000 incidences; incidence e joins node nodeW e to
  hyperedge edgeW e (two rows of signed words). Aggregating a node table along the incidences gives a
  hyperedge table (aggE: row h is the sum of the node rows of the incidences of h), and aggregating a
  hyperedge table gives a node table (aggN). The degree of a node (of a hyperedge) is its number of
  incidences, and invDegN (invDegE) is its reciprocal, 0 where the degree is 0.

  The layer is  n = aggN (aggE (X Wᵀ) · invDegE) · invDegN + b,  y = leaky n,  G = yᵀ y,
  out = leaky (G Lᵀ + l).  Here it is stated twice: refMath applies Wᵀ to every node row before the first
  aggregation and takes the Gram matrix as one sum over the 50000 nodes; kerMath aggregates the raw node rows
  first, applies Wᵀ to the 10000 aggregated rows, and takes the Gram matrix as two halves of 25000 nodes, each
  accumulated in five blocks of 5000 rows.
-/
import proofs.«176856_j40638980555154_2_alg».proof.Proof.Gen.ReferenceIdeal
import Idealize.ShloMosaic.PureOps.Ideal
import Idealize.ShloMosaic.Lib.ValueIdx

noncomputable section

open scoped BigOperators

namespace Cert.Hyper

open Idealize.ShloMosaic Idealize.ShloMosaic.ValueIdx
open Cert.ReferenceIdeal Cert.ReferenceIdeal.Facts₀

/-- Two 256×256 matrices stacked. -/
abbrev S2x256x256 : Shape := ⟨3, ![2, 256, 256]⟩

/-! ## The incidence words and what both programs compute from them alone -/

/-- The node word of every incidence: row 0 of the incidence list. -/
def nodeW (ei : IVec S2x800000 32) : IVec S800000 32 :=
  shapeCast S800000 (extractStridedSlice S1x800000 ![0, 0] ei slices_S2x800000_S1x800000_0_0) shapeCasts_S1x800000_S800000

/-- The hyperedge word of every incidence: row 1 of the incidence list. -/
def edgeW (ei : IVec S2x800000 32) : IVec S800000 32 :=
  shapeCast S800000 (extractStridedSlice S1x800000 ![1, 0] ei slices_S2x800000_S1x800000_1_0) shapeCasts_S1x800000_S800000

/-- A vector of words as a column of scatter (or gather) indices. -/
def col (w : IVec S800000 32) : IVec S800000x1 32 :=
  broadcastInDim S800000x1 ![0] bcast_S800000_S800000x1_0 w

/-- A negative word counted from the end of an axis of extent n, as numpy indexing reads it. -/
def wrap (n : BitVec 32) (w : IVec S800000 32) : IVec S800000 32 :=
  select (cmpi .slt w (broadcastInDim S800000 ![] bcast_S_S800000 (constantI S_ 32 0#32)))
    (addi w (broadcastInDim S800000 ![] bcast_S_S800000 (constantI S_ 32 n))) w

/-- One unit per incidence. -/
def onesI : FVec Ideal S800000 .f32 :=
  broadcastInDim S800000 ![] bcast_S_S800000 (constant (F := Ideal) S_ .f32 0x3F800000#32)

/-- The number of incidences of every node. -/
def degN (ei : IVec S2x800000 32) : FVec Ideal S50000 .f32 :=
  Host.scatterAdd (F := Ideal) scatter_S50000_S800000x1_S800000_n_0_0_1
    (broadcastInDim S50000 ![] bcast_S_S50000 (constant (F := Ideal) S_ .f32 0x00000000#32)) (col (nodeW ei)) onesI

/-- The number of incidences of every hyperedge. -/
def degE (ei : IVec S2x800000 32) : FVec Ideal S10000 .f32 :=
  Host.scatterAdd (F := Ideal) scatter_S10000_S800000x1_S800000_n_0_0_1
    (broadcastInDim S10000 ![] bcast_S_S10000 (constant (F := Ideal) S_ .f32 0x00000000#32)) (col (edgeW ei)) onesI

/-- The reciprocal of a node's degree, 0 where the degree is not positive. -/
def invDegN (ei : IVec S2x800000 32) : FVec Ideal S50000 .f32 :=
  select (cmpf .ogt (degN ei) (broadcastInDim S50000 ![] bcast_S_S50000 (constant (F := Ideal) S_ .f32 0x00000000#32)))
    (Host.divf (F := Ideal) (broadcastInDim S50000 ![] bcast_S_S50000 (constant (F := Ideal) S_ .f32 0x3F800000#32)) (degN ei))
    (broadcastInDim S50000 ![] bcast_S_S50000 (id (constant (F := Ideal) S_ .f32 0x00000000#32)))

/-- The reciprocal of a hyperedge's degree, 0 where the degree is not positive. -/
def invDegE (ei : IVec S2x800000 32) : FVec Ideal S10000 .f32 :=
  select (cmpf .ogt (degE ei) (broadcastInDim S10000 ![] bcast_S_S10000 (constant (F := Ideal) S_ .f32 0x00000000#32)))
    (Host.divf (F := Ideal) (broadcastInDim S10000 ![] bcast_S_S10000 (constant (F := Ideal) S_ .f32 0x3F800000#32)) (degE ei))
    (broadcastInDim S10000 ![] bcast_S_S10000 (id (constant (F := Ideal) S_ .f32 0x00000000#32)))

/-- Node table to hyperedge table: every hyperedge's row is the sum of the node rows of its incidences (a
    node word outside the table is clamped into it, a hyperedge word outside the table contributes nowhere). -/
def aggE (ei : IVec S2x800000 32) (tbl : FVec Ideal S50000x256 .f32) : FVec Ideal S10000x256 .f32 :=
  Host.scatterAdd (F := Ideal) scatter_S10000x256_S800000x1_S800000x256_1_0_0_1
    (broadcastInDim S10000x256 ![] bcast_S_S10000x256 (constant (F := Ideal) S_ .f32 0x00000000#32)) (col (edgeW ei))
    (Host.gather gather_S50000x256_S800000x1_S800000x256_1_0_n_n_0_1_1256 tbl (col (wrap 50000#32 (nodeW ei))))

/-- Hyperedge table to node table: every node's row is the sum of the hyperedge rows of its incidences. -/
def aggN (ei : IVec S2x800000 32) (tbl : FVec Ideal S10000x256 .f32) : FVec Ideal S50000x256 .f32 :=
  Host.scatterAdd (F := Ideal) scatter_S50000x256_S800000x1_S800000x256_1_0_0_1
    (broadcastInDim S50000x256 ![] bcast_S_S50000x256 (constant (F := Ideal) S_ .f32 0x00000000#32)) (col (nodeW ei))
    (Host.gather gather_S10000x256_S800000x1_S800000x256_1_0_n_n_0_1_1256 tbl (col (wrap 10000#32 (edgeW ei))))

/-! ## The pointwise pieces -/

/-- The leaky rectifier with slope f32(0.01) on the negative side: x where x ≥ 0, slope · x elsewhere. -/
def leaky (x : EReal) : EReal :=
  Scalar.select (FloatOps.cmpf (F := Ideal) (φ := .f32) .oge x (Ideal.ofBits .f32 0x00000000#32)) x
    ((Ideal.ofBits .f32 0x3C23D70A#32 : EReal) * x)

/-! ## The three kernels, each as one function of the arrays it is launched on -/

/-- Projection of the aggregated rows: row h of A times Wᵀ, scaled by the h-th entry of a column. -/
def edgeProject (A : S10000x256.Idx → EReal) (W : S256x256.Idx → EReal) (s : S10000x1.Idx → EReal) :
    S10000x256.Idx → EReal :=
  fun j => (∑ k : Fin 256, A (ix2 (j 0) k) * W (ix2 (j 1) k)) * s (ix2 (j 0) 0)

/-- The activation of the node table: leaky (n · d + b), d a column over the nodes, b a row over the channels. -/
def act (n : S50000x256.Idx → EReal) (d : S50000x1.Idx → EReal) (b : S1x256.Idx → EReal) : S50000x256.Idx → EReal :=
  fun j => leaky (n j * d (ix2 (j 0) 0) + b (ix2 0 (j 1)))

/-- Row number of the r-th row of the k-th block of half p: ((5 p + k) · 5000 + r). -/
def blockRow (p : Fin 2) (k : Fin 5) (r : Fin 5000) : Fin 50000 :=
  ⟨(p.val * 5 + k.val) * 5000 + r.val, by have := p.isLt; have := k.isLt; have := r.isLt; omega⟩

/-- The two half Gram matrices of the activation: half p sums yᵀ y over its five blocks of 5000 node rows,
    starting from 0 and adding block after block. -/
def gramHalves (n : S50000x256.Idx → EReal) (d : S50000x1.Idx → EReal) (b : S1x256.Idx → EReal) :
    S2x256x256.Idx → EReal :=
  fun j => ∑ k : Fin 5, ∑ r : Fin 5000,
    act n d b (ix2 (blockRow (j 0) k r) (j 1)) * act n d b (ix2 (blockRow (j 0) k r) (j 2))

/-- The last layer on the sum of the two halves: leaky ((P₀ + P₁) Lᵀ + l). -/
def finalDense (P : S2x256x256.Idx → EReal) (L : S256x256.Idx → EReal) (l : S1x256.Idx → EReal) :
    S256x256.Idx → EReal :=
  fun j => leaky ((∑ k : Fin 256, (P (ix3 0 (j 0) k) + P (ix3 1 (j 0) k)) * L (ix2 (j 1) k)) + l (ix2 0 (j 1)))

/-- A vector over n entries as an n×1 column. -/
def asCol {n : Nat} (v : (⟨1, ![n]⟩ : Shape).Idx → EReal) : (⟨2, ![n, 1]⟩ : Shape).Idx → EReal := fun j => v (ix1 (j 0))

/-- A vector over n entries as a 1×n row. -/
def asRow {n : Nat} (v : (⟨1, ![n]⟩ : Shape).Idx → EReal) : (⟨2, ![1, n]⟩ : Shape).Idx → EReal := fun j => v (ix1 (j 1))

/-- The layer as the three kernels compute it, among the two aggregations. -/
def kerMath (emb : S50000x256.Idx → EReal) (W : S256x256.Idx → EReal) (b : S256.Idx → EReal)
    (L : S256x256.Idx → EReal) (l : S256.Idx → EReal) (ei : IVec S2x800000 32) : S256x256.Idx → EReal :=
  finalDense (gramHalves (aggN ei (edgeProject (aggE ei emb) W (asCol (invDegE ei)))) (asCol (invDegN ei)) (asRow b)) L (asRow l)

/-! ## The same layer in the reference's arrangement -/

/-- Every node row times Wᵀ. -/
def project (emb : S50000x256.Idx → EReal) (W : S256x256.Idx → EReal) : S50000x256.Idx → EReal :=
  fun j => ∑ k : Fin 256, emb (ix2 (j 0) k) * W (ix2 (j 1) k)

/-- Every row of a table scaled by the matching entry of a vector. -/
def scaleRows {n : Nat} (t : (⟨2, ![n, 256]⟩ : Shape).Idx → EReal) (d : (⟨1, ![n]⟩ : Shape).Idx → EReal) :
    (⟨2, ![n, 256]⟩ : Shape).Idx → EReal :=
  fun j => t j * d (ix1 (j 0))

/-- The Gram matrix of a node table: one sum over the 50000 nodes. -/
def gramFull (y : S50000x256.Idx → EReal) : S256x256.Idx → EReal :=
  fun j => ∑ v : Fin 50000, y (ix2 v (j 0)) * y (ix2 v (j 1))

/-- The last layer: leaky (G Lᵀ + l). -/
def dense (G : S256x256.Idx → EReal) (L : S256x256.Idx → EReal) (l : S256.Idx → EReal) : S256x256.Idx → EReal :=
  fun j => leaky ((∑ k : Fin 256, G (ix2 (j 0) k) * L (ix2 (j 1) k)) + l (ix1 (j 1)))

/-- The layer as the reference computes it. -/
def refMath (emb : S50000x256.Idx → EReal) (W : S256x256.Idx → EReal) (b : S256.Idx → EReal)
    (L : S256x256.Idx → EReal) (l : S256.Idx → EReal) (ei : IVec S2x800000 32) : S256x256.Idx → EReal :=
  dense (gramFull (fun j => leaky (scaleRows (aggN ei (scaleRows (aggE ei (project emb W)) (invDegE ei))) (invDegN ei) j + b (ix1 (j 1))))) L l

end Cert.Hyper

end
-- ==== Proof.LibKeepdims.lean ====
/-
  A vector kept as a column, and a column laid along every column of a matrix, read at an index.

  A row reduction that keeps its axis (a row's maximum or sum, then subtracted from or divided into every entry of the
  row) is printed as a shape cast of the reduced vector [a] to a column [a, 1] followed by a broadcast of that column to
  [a, b]. At (p, c) the broadcast reads the column at (p, 0), which reads the vector at p.
-/
import Idealize.ShloMosaic.Lib.Pipeline.Value
import Idealize.ShloMosaic.Lib.ValueIdx

namespace Idealize.ShloMosaic.Keepdims

open Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid along every column of a matrix reads, at `(p, c)`, the vector at `p`. -/
theorem column_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

end Idealize.ShloMosaic.Keepdims
-- ==== Proof.HostStretch.lean ====
/-
  The host operations before the first region, read over any buffer contents.

  @main's host operations come in stretches. Over ANY contents V of the buffers when a stretch begins, each buffer it
  leaves is a function of the buffers it reads, and a buffer it does not write keeps its contents. The five stretches
  before the first region compute, from the incidence list alone: the node word and the hyperedge word of every
  incidence and one unit per incidence; the number of incidences of every node, where it is positive and one over
  it; the select between that quotient and zero, which is the reciprocal degree; the same for the hyperedges; the two
  reciprocal degrees cast to columns; and, from the node table, every hyperedge's row as the sum of the node rows of
  its incidences (a gather of the node rows at the node words, wrapped into the table, scattered at the hyperedge
  words). Each reading is stated with what the stretch reads named by hypotheses, so that its right side is the
  layer's own function of the incidence list.
-/
import proofs.«176856_j40638980555154_2_alg».proof.Proof.Gen.KernelIdeal.Launch
import proofs.«176856_j40638980555154_2_alg».proof.Proof.Spec
import Idealize.ShloMosaic.Lib.StableHlo.Run

set_option maxRecDepth 16384

noncomputable section

namespace Cert.KernelIdeal.HostStretch

open Idealize.ShloMosaic Idealize.ShloMosaic.TcCoe Idealize.SL.Sem Idealize.ShloMosaic.StableHlo
open Cert.KernelIdeal Cert.KernelIdeal.Gen

attribute [local irreducible] Host.scatterAdd Host.gather Host.divf

variable (V : Valuation τ sig (Elt Ideal))

set_option quotPrecheck false in
local notation "⟪" b "⟫" => (Proc.devRef Proc.tc b : DevRef τ sig)

/-! ## The words, the units and the node degrees -/

/-- The buffers the first stretch writes. -/
abbrev wordsWrites : List (Ref sig .tc) := [main_v0, main_v1, main_v2, main_v3, main_cst, main_v4, main_cst_0, main_v5, main_v6, main_v7, main_cst_1,
  main_v8, main_v9, main_cst_2, main_v10, main_v11, main_cst_3]

theorem words_writes : (hostOps0 : List (HloOp τ sig (Elt Ideal))).Forall fun op =>
    op.writes ⊆ (wordsWrites.map (Proc.devRef (τ := τ) .tc)).toFinset := by
  simp only [List.Forall, nullary_writes, unary_writes, binary_writes, ternary_writes, quaternary_writes, reshape_writes,
    binaryIndexed_writes, Finset.singleton_subset_iff, List.mem_toFinset]
  repeat' apply And.intro
  all_goals exact List.mem_map_of_mem (by decide)

/-- A buffer the first stretch does not write keeps its contents. -/
theorem words_kept {b : Ref sig .tc} (h : b ∉ wordsWrites) : after hostOps0 V ⟪b⟫ = V ⟪b⟫ :=
  after_of_writes_sub hostOps0 V words_writes h

/-- The node word of every incidence: row 0 of the incidence list. -/
theorem words_node : after hostOps0 V ⟪main_v1⟫ = Cert.Hyper.nodeW (V ⟪main_arg5⟫) := by
  after_results
  rfl

/-- The hyperedge word of every incidence: row 1 of the incidence list. -/
theorem words_edge : after hostOps0 V ⟪main_v3⟫ = Cert.Hyper.edgeW (V ⟪main_arg5⟫) := by
  after_results
  rfl

/-- One unit per incidence. -/
theorem words_ones : after hostOps0 V ⟪main_v4⟫ = Cert.Hyper.onesI := by
  after_results
  rfl

/-- Where a node's degree is positive. -/
theorem words_nodePositive : after hostOps0 V ⟪main_v9⟫
    = cmpf .ogt (Cert.Hyper.degN (V ⟪main_arg5⟫)) (broadcastInDim S50000 ![] Facts₀.bcast_S_S50000 (constant (F := Ideal) S_ .f32 0x00000000#32)) := by
  after_results
  rfl

/-- One over every node's degree. -/
theorem words_nodeQuotient : after hostOps0 V ⟪main_v11⟫
    = Host.divf (F := Ideal) (broadcastInDim S50000 ![] Facts₀.bcast_S_S50000 (constant (F := Ideal) S_ .f32 0x3F800000#32)) (Cert.Hyper.degN (V ⟪main_arg5⟫)) := by
  after_results
  rfl

/-- The zero the reciprocal falls back to. -/
theorem words_zero : after hostOps0 V ⟪main_cst_3⟫ = constant (F := Ideal) S_ .f32 0x00000000#32 := by
  after_results

/-! ## The reciprocal node degrees -/

/-- The buffers the second stretch writes. -/
abbrev nodeRecipWrites : List (Ref sig .tc) := [main_call0_v0, main_call0_v1, main_v12]

theorem nodeRecip_writes : (hostOps0_1 : List (HloOp τ sig (Elt Ideal))).Forall fun op =>
    op.writes ⊆ (nodeRecipWrites.map (Proc.devRef (τ := τ) .tc)).toFinset := by
  simp only [List.Forall, nullary_writes, unary_writes, binary_writes, ternary_writes, quaternary_writes, reshape_writes,
    binaryIndexed_writes, Finset.singleton_subset_iff, List.mem_toFinset]
  repeat' apply And.intro
  all_goals exact List.mem_map_of_mem (by decide)

/-- A buffer the second stretch does not write keeps its contents. -/
theorem nodeRecip_kept {b : Ref sig .tc} (h : b ∉ nodeRecipWrites) : after hostOps0_1 V ⟪b⟫ = V ⟪b⟫ :=
  after_of_writes_sub hostOps0_1 V nodeRecip_writes h

/-- The reciprocal of a node's degree where it is positive, zero elsewhere. -/
theorem nodeRecip_value (ei : IVec S2x800000 32)
    (h9 : V ⟪main_v9⟫ = cmpf .ogt (Cert.Hyper.degN ei) (broadcastInDim S50000 ![] Facts₀.bcast_S_S50000 (constant (F := Ideal) S_ .f32 0x00000000#32)))
    (h11 : V ⟪main_v11⟫ = Host.divf (F := Ideal) (broadcastInDim S50000 ![] Facts₀.bcast_S_S50000 (constant (F := Ideal) S_ .f32 0x3F800000#32)) (Cert.Hyper.degN ei))
    (hc : V ⟪main_cst_3⟫ = constant (F := Ideal) S_ .f32 0x00000000#32) :
    after hostOps0_1 V ⟪main_v12⟫ = Cert.Hyper.invDegN ei := by
  after_results
  show select (V ⟪main_v9⟫) (V ⟪main_v11⟫) (broadcastInDim S50000 ![] Facts₀.bcast_S_S50000 (id (V ⟪main_cst_3⟫))) = _
  rw [h9, h11, hc]
  unfold Cert.Hyper.invDegN
  rfl

/-! ## The node column and the hyperedge degrees -/

/-- The buffers the third stretch writes. -/
abbrev edgeDegWrites : List (Ref sig .tc) := [main_v13, main_cst_4, main_v14, main_v15, main_v16, main_cst_5, main_v17, main_v18, main_cst_6,
  main_v19, main_v20, main_cst_7]

theorem edgeDeg_writes : (hostOps0_2 : List (HloOp τ sig (Elt Ideal))).Forall fun op =>
    op.writes ⊆ (edgeDegWrites.map (Proc.devRef (τ := τ) .tc)).toFinset := by
  simp only [List.Forall, nullary_writes, unary_writes, binary_writes, ternary_writes, quaternary_writes, reshape_writes,
    binaryIndexed_writes, Finset.singleton_subset_iff, List.mem_toFinset]
  repeat' apply And.intro
  all_goals exact List.mem_map_of_mem (by decide)

/-- A buffer the third stretch does not write keeps its contents. -/
theorem edgeDeg_kept {b : Ref sig .tc} (h : b ∉ edgeDegWrites) : after hostOps0_2 V ⟪b⟫ = V ⟪b⟫ :=
  after_of_writes_sub hostOps0_2 V edgeDeg_writes h

/-- The reciprocal node degrees as a column. -/
theorem edgeDeg_nodeColumn (ei : IVec S2x800000 32) (h12 : V ⟪main_v12⟫ = Cert.Hyper.invDegN ei) :
    after hostOps0_2 V ⟪main_v13⟫ = shapeCast S50000x1 (Cert.Hyper.invDegN ei) Facts₀.shapeCasts_S50000_S50000x1 := by
  after_results
  rw [h12]
  rfl

/-- Where a hyperedge's degree is positive. -/
theorem edgeDeg_positive (ei : IVec S2x800000 32) (h3 : V ⟪main_v3⟫ = Cert.Hyper.edgeW ei)
    (h4 : V ⟪main_v4⟫ = Cert.Hyper.onesI) :
    after hostOps0_2 V ⟪main_v18⟫ = cmpf .ogt (Cert.Hyper.degE ei) (broadcastInDim S10000 ![] Facts₀.bcast_S_S10000 (constant (F := Ideal) S_ .f32 0x00000000#32)) := by
  after_results
  rw [h3, h4]
  unfold Cert.Hyper.degE Cert.Hyper.col
  rfl

/-- One over every hyperedge's degree. -/
theorem edgeDeg_quotient (ei : IVec S2x800000 32) (h3 : V ⟪main_v3⟫ = Cert.Hyper.edgeW ei)
    (h4 : V ⟪main_v4⟫ = Cert.Hyper.onesI) :
    after hostOps0_2 V ⟪main_v20⟫ = Host.divf (F := Ideal) (broadcastInDim S10000 ![] Facts₀.bcast_S_S10000 (constant (F := Ideal) S_ .f32 0x3F800000#32)) (Cert.Hyper.degE ei) := by
  after_results
  rw [h3, h4]
  unfold Cert.Hyper.degE Cert.Hyper.col
  rfl

/-- The zero the reciprocal falls back to. -/
theorem edgeDeg_zero : after hostOps0_2 V ⟪main_cst_7⟫ = constant (F := Ideal) S_ .f32 0x00000000#32 := by
  after_results

/-! ## The reciprocal hyperedge degrees -/

/-- The buffers the fourth stretch writes. -/
abbrev edgeRecipWrites : List (Ref sig .tc) := [main_call1_v0, main_call1_v1, main_v21]

theorem edgeRecip_writes : (hostOps0_3 : List (HloOp τ sig (Elt Ideal))).Forall fun op =>
    op.writes ⊆ (edgeRecipWrites.map (Proc.devRef (τ := τ) .tc)).toFinset := by
  simp only [List.Forall, nullary_writes, unary_writes, binary_writes, ternary_writes, quaternary_writes, reshape_writes,
    binaryIndexed_writes, Finset.singleton_subset_iff, List.mem_toFinset]
  repeat' apply And.intro
  all_goals exact List.mem_map_of_mem (by decide)

/-- A buffer the fourth stretch does not write keeps its contents. -/
theorem edgeRecip_kept {b : Ref sig .tc} (h : b ∉ edgeRecipWrites) : after hostOps0_3 V ⟪b⟫ = V ⟪b⟫ :=
  after_of_writes_sub hostOps0_3 V edgeRecip_writes h

/-- The reciprocal of a hyperedge's degree where it is positive, zero elsewhere. -/
theorem edgeRecip_value (ei : IVec S2x800000 32)
    (h18 : V ⟪main_v18⟫ = cmpf .ogt (Cert.Hyper.degE ei) (broadcastInDim S10000 ![] Facts₀.bcast_S_S10000 (constant (F := Ideal) S_ .f32 0x00000000#32)))
    (h20 : V ⟪main_v20⟫ = Host.divf (F := Ideal) (broadcastInDim S10000 ![] Facts₀.bcast_S_S10000 (constant (F := Ideal) S_ .f32 0x3F800000#32)) (Cert.Hyper.degE ei))
    (hc : V ⟪main_cst_7⟫ = constant (F := Ideal) S_ .f32 0x00000000#32) :
    after hostOps0_3 V ⟪main_v21⟫ = Cert.Hyper.invDegE ei := by
  after_results
  show select (V ⟪main_v18⟫) (V ⟪main_v20⟫) (broadcastInDim S10000 ![] Facts₀.bcast_S_S10000 (id (V ⟪main_cst_7⟫))) = _
  rw [h18, h20, hc]
  unfold Cert.Hyper.invDegE
  rfl

/-! ## The hyperedge column and the aggregation of the node rows over the hyperedges -/

/-- The buffers the fifth stretch writes. -/
abbrev aggEWrites : List (Ref sig .tc) := [main_v22, main_c, main_v23, main_v24, main_c_8, main_v25, main_v26, main_v27, main_v28, main_v29,
  main_cst_9, main_v30, main_v31, main_v32]

theorem aggE_writes : (hostOps0_4 : List (HloOp τ sig (Elt Ideal))).Forall fun op =>
    op.writes ⊆ (aggEWrites.map (Proc.devRef (τ := τ) .tc)).toFinset := by
  simp only [List.Forall, nullary_writes, unary_writes, binary_writes, ternary_writes, quaternary_writes, reshape_writes,
    binaryIndexed_writes, Finset.singleton_subset_iff, List.mem_toFinset]
  repeat' apply And.intro
  all_goals exact List.mem_map_of_mem (by decide)

/-- A buffer the fifth stretch does not write keeps its contents. -/
theorem aggE_kept {b : Ref sig .tc} (h : b ∉ aggEWrites) : after hostOps0_4 V ⟪b⟫ = V ⟪b⟫ :=
  after_of_writes_sub hostOps0_4 V aggE_writes h

/-- The reciprocal hyperedge degrees as a column. -/
theorem aggE_edgeColumn (ei : IVec S2x800000 32) (h21 : V ⟪main_v21⟫ = Cert.Hyper.invDegE ei) :
    after hostOps0_4 V ⟪main_v22⟫ = shapeCast S10000x1 (Cert.Hyper.invDegE ei) Facts₀.shapeCasts_S10000_S10000x1 := by
  after_results
  rw [h21]
  rfl

/-- Every hyperedge's row: the sum of the node rows of its incidences. -/
theorem aggE_table (ei : IVec S2x800000 32) (h1 : V ⟪main_v1⟫ = Cert.Hyper.nodeW ei)
    (h3 : V ⟪main_v3⟫ = Cert.Hyper.edgeW ei) :
    after hostOps0_4 V ⟪main_v32⟫ = Cert.Hyper.aggE ei (V ⟪main_arg0⟫) := by
  after_results
  rw [h1, h3]
  unfold Cert.Hyper.aggE Cert.Hyper.col Cert.Hyper.wrap
  rfl

end Cert.KernelIdeal.HostStretch

end
-- ==== Proof.HostEntry.lean ====
/-
  What the first region is entered with, over any launch contents.

  Running the five stretches before the first region one after the other from contents V: the second reads the first's
  comparison, quotient and zero; the third reads the first's hyperedge words and units (which the second does not
  write) and the second's reciprocal; the fourth reads the third's comparison, quotient and zero; the fifth reads the
  words (which the stretches between do not write), the fourth's reciprocal and the node table. So after the five the
  aggregated table is aggE of the incidence list and the node table, the two columns are the reciprocal degrees of the
  incidence list, the word vectors are its two rows, and a buffer none of the five writes is as in V.
-/
import proofs.«176856_j40638980555154_2_alg».proof.Proof.HostStretch

set_option maxRecDepth 16384

noncomputable section

namespace Cert.KernelIdeal.HostEntry

open Idealize.ShloMosaic Idealize.ShloMosaic.TcCoe Idealize.SL.Sem Idealize.ShloMosaic.StableHlo
open Cert.KernelIdeal Cert.KernelIdeal.Gen Cert.KernelIdeal.HostStretch

variable (V : Valuation τ sig (Elt Ideal))

set_option quotPrecheck false in
local notation "⟪" b "⟫" => (Proc.devRef Proc.tc b : DevRef τ sig)

/-- The contents after the first, …, the fifth stretch. -/
abbrev after1 : Valuation τ sig (Elt Ideal) := after hostOps0 V
abbrev after2 : Valuation τ sig (Elt Ideal) := after hostOps0_1 (after1 V)
abbrev after3 : Valuation τ sig (Elt Ideal) := after hostOps0_2 (after2 V)
abbrev after4 : Valuation τ sig (Elt Ideal) := after hostOps0_3 (after3 V)
abbrev after5 : Valuation τ sig (Elt Ideal) := after hostOps0_4 (after4 V)

/-- The reciprocal node degrees after the second stretch. -/
theorem nodeRecip_at2 : after2 V ⟪main_v12⟫ = Cert.Hyper.invDegN (V ⟪main_arg5⟫) :=
  nodeRecip_value (after1 V) (V ⟪main_arg5⟫) (words_nodePositive V) (words_nodeQuotient V) (words_zero V)

/-- The hyperedge words and the units pass the second stretch. -/
theorem edgeWords_at2 : after2 V ⟪main_v3⟫ = Cert.Hyper.edgeW (V ⟪main_arg5⟫) :=
  (nodeRecip_kept (after1 V) (by decide)).trans (words_edge V)
theorem ones_at2 : after2 V ⟪main_v4⟫ = Cert.Hyper.onesI :=
  (nodeRecip_kept (after1 V) (by decide)).trans (words_ones V)

/-- The node column after the third stretch. -/
theorem nodeColumn_at3 : after3 V ⟪main_v13⟫
    = shapeCast S50000x1 (Cert.Hyper.invDegN (V ⟪main_arg5⟫)) Facts₀.shapeCasts_S50000_S50000x1 :=
  edgeDeg_nodeColumn (after2 V) (V ⟪main_arg5⟫) (nodeRecip_at2 V)

/-- The reciprocal hyperedge degrees after the fourth stretch. -/
theorem edgeRecip_at4 : after4 V ⟪main_v21⟫ = Cert.Hyper.invDegE (V ⟪main_arg5⟫) :=
  edgeRecip_value (after3 V) (V ⟪main_arg5⟫)
    (edgeDeg_positive (after2 V) (V ⟪main_arg5⟫) (edgeWords_at2 V) (ones_at2 V))
    (edgeDeg_quotient (after2 V) (V ⟪main_arg5⟫) (edgeWords_at2 V) (ones_at2 V))
    (edgeDeg_zero (after2 V))

/-- The two word vectors pass the second, third and fourth stretch. -/
theorem nodeWords_at4 : after4 V ⟪main_v1⟫ = Cert.Hyper.nodeW (V ⟪main_arg5⟫) :=
  (edgeRecip_kept (after3 V) (by decide)).trans ((edgeDeg_kept (after2 V) (by decide)).trans
    ((nodeRecip_kept (after1 V) (by decide)).trans (words_node V)))
theorem edgeWords_at4 : after4 V ⟪main_v3⟫ = Cert.Hyper.edgeW (V ⟪main_arg5⟫) :=
  (edgeRecip_kept (after3 V) (by decide)).trans ((edgeDeg_kept (after2 V) (by decide)).trans (edgeWords_at2 V))

/-- A buffer none of the first four stretches writes is as in V after them, -/
theorem kept_at4 {b : Ref sig .tc} (h1 : b ∉ wordsWrites) (h2 : b ∉ nodeRecipWrites) (h3 : b ∉ edgeDegWrites)
    (h4 : b ∉ edgeRecipWrites) : after4 V ⟪b⟫ = V ⟪b⟫ :=
  (edgeRecip_kept (after3 V) h4).trans ((edgeDeg_kept (after2 V) h3).trans
    ((nodeRecip_kept (after1 V) h2).trans (words_kept V h1)))

/-- and one none of the five writes after all of them. -/
theorem kept_at5 {b : Ref sig .tc} (h1 : b ∉ wordsWrites) (h2 : b ∉ nodeRecipWrites) (h3 : b ∉ edgeDegWrites)
    (h4 : b ∉ edgeRecipWrites) (h5 : b ∉ aggEWrites) : after5 V ⟪b⟫ = V ⟪b⟫ :=
  (aggE_kept (after4 V) h5).trans (kept_at4 V h1 h2 h3 h4)

/-! ## The arrays the first region is launched on, and what the later stretches still read -/

/-- The aggregated table: every hyperedge's row is the sum of the node rows of its incidences. -/
theorem entry_table : after5 V ⟪main_v32⟫ = Cert.Hyper.aggE (V ⟪main_arg5⟫) (V ⟪main_arg0⟫) := by
  have h := aggE_table (after4 V) (V ⟪main_arg5⟫) (nodeWords_at4 V) (edgeWords_at4 V)
  rw [kept_at4 V (b := main_arg0) (by decide) (by decide) (by decide) (by decide)] at h
  exact h

/-- The scaling column: the reciprocal hyperedge degrees. -/
theorem entry_edgeColumn : after5 V ⟪main_v22⟫
    = shapeCast S10000x1 (Cert.Hyper.invDegE (V ⟪main_arg5⟫)) Facts₀.shapeCasts_S10000_S10000x1 :=
  aggE_edgeColumn (after4 V) (V ⟪main_arg5⟫) (edgeRecip_at4 V)

/-- The node column passes the fourth and the fifth stretch. -/
theorem entry_nodeColumn : after5 V ⟪main_v13⟫
    = shapeCast S50000x1 (Cert.Hyper.invDegN (V ⟪main_arg5⟫)) Facts₀.shapeCasts_S50000_S50000x1 :=
  (aggE_kept (after4 V) (by decide)).trans ((edgeRecip_kept (after3 V) (by decide)).trans (nodeColumn_at3 V))

/-- The two word vectors pass the fifth stretch. -/
theorem entry_nodeWords : after5 V ⟪main_v1⟫ = Cert.Hyper.nodeW (V ⟪main_arg5⟫) :=
  (aggE_kept (after4 V) (by decide)).trans (nodeWords_at4 V)
theorem entry_edgeWords : after5 V ⟪main_v3⟫ = Cert.Hyper.edgeW (V ⟪main_arg5⟫) :=
  (aggE_kept (after4 V) (by decide)).trans (edgeWords_at4 V)

/-- The weight matrix, the two biases and the last matrix are never written before the first region. -/
theorem entry_arg1 : after5 V ⟪main_arg1⟫ = V ⟪main_arg1⟫ :=
  kept_at5 V (by decide) (by decide) (by decide) (by decide) (by decide)
theorem entry_arg2 : after5 V ⟪main_arg2⟫ = V ⟪main_arg2⟫ :=
  kept_at5 V (by decide) (by decide) (by decide) (by decide) (by decide)
theorem entry_arg3 : after5 V ⟪main_arg3⟫ = V ⟪main_arg3⟫ :=
  kept_at5 V (by decide) (by decide) (by decide) (by decide) (by decide)
theorem entry_arg4 : after5 V ⟪main_arg4⟫ = V ⟪main_arg4⟫ :=
  kept_at5 V (by decide) (by decide) (by decide) (by decide) (by decide)

end Cert.KernelIdeal.HostEntry

end
-- ==== Proof.HostBetween.lean ====
/-
  The host operations between the regions, read over any buffer contents.

  Between the first and the second region one stretch aggregates the first region's hyperedge table over every node's
  incidences (a gather of the hyperedge rows at the hyperedge words, wrapped into the table, scattered at the node
  words) and casts the bias to a row. Between the second and the third region one operation casts the last bias to a
  row. Over ANY contents V of the buffers when the stretch begins, each buffer it leaves is a function of the buffers
  it reads, and a buffer it does not write keeps its contents.
-/
import proofs.«176856_j40638980555154_2_alg».proof.Proof.Gen.KernelIdeal.Launch
import proofs.«176856_j40638980555154_2_alg».proof.Proof.Spec
import Idealize.ShloMosaic.Lib.StableHlo.Run

set_option maxRecDepth 16384

noncomputable section

namespace Cert.KernelIdeal.HostBetween

open Idealize.ShloMosaic Idealize.ShloMosaic.TcCoe Idealize.SL.Sem Idealize.ShloMosaic.StableHlo
open Cert.KernelIdeal Cert.KernelIdeal.Gen

attribute [local irreducible] Host.scatterAdd Host.gather Host.divf

variable (V : Valuation τ sig (Elt Ideal))

set_option quotPrecheck false in
local notation "⟪" b "⟫" => (Proc.devRef Proc.tc b : DevRef τ sig)

/-! ## The aggregation of the hyperedge rows over the nodes, and the bias as a row -/

/-- The buffers the stretch between the first and the second region writes. -/
abbrev aggNWrites : List (Ref sig .tc) := [main_c_10, main_v34, main_v35, main_c_11, main_v36, main_v37, main_v38, main_v39, main_v40, main_cst_12,
  main_v41, main_v42, main_v43, main_v44]

theorem aggN_writes : (hostOps1 : List (HloOp τ sig (Elt Ideal))).Forall fun op =>
    op.writes ⊆ (aggNWrites.map (Proc.devRef (τ := τ) .tc)).toFinset := by
  simp only [List.Forall, nullary_writes, unary_writes, binary_writes, ternary_writes, quaternary_writes, reshape_writes,
    binaryIndexed_writes, Finset.singleton_subset_iff, List.mem_toFinset]
  repeat' apply And.intro
  all_goals exact List.mem_map_of_mem (by decide)

/-- A buffer the stretch between the first and the second region does not write keeps its contents. -/
theorem aggN_kept {b : Ref sig .tc} (h : b ∉ aggNWrites) : after hostOps1 V ⟪b⟫ = V ⟪b⟫ :=
  after_of_writes_sub hostOps1 V aggN_writes h

/-- Every node's row: the sum of the hyperedge rows of its incidences. -/
theorem aggN_table (ei : IVec S2x800000 32) (h1 : V ⟪main_v1⟫ = Cert.Hyper.nodeW ei)
    (h3 : V ⟪main_v3⟫ = Cert.Hyper.edgeW ei) :
    after hostOps1 V ⟪main_v43⟫ = Cert.Hyper.aggN ei (V ⟪main_v33⟫) := by
  after_results
  rw [h1, h3]
  unfold Cert.Hyper.aggN Cert.Hyper.col Cert.Hyper.wrap
  rfl

/-- The bias as a row. -/
theorem aggN_biasRow : after hostOps1 V ⟪main_v44⟫ = shapeCast S1x256 (V ⟪main_arg2⟫) Facts₀.shapeCasts_S256_S1x256 := by
  after_results
  rfl

/-! ## The last bias as a row -/

/-- The buffers the stretch between the second and the third region writes. -/
abbrev lastRowWrites : List (Ref sig .tc) := [main_v46]

theorem lastRow_writes : (hostOps2 : List (HloOp τ sig (Elt Ideal))).Forall fun op =>
    op.writes ⊆ (lastRowWrites.map (Proc.devRef (τ := τ) .tc)).toFinset := by
  simp only [List.Forall, nullary_writes, unary_writes, binary_writes, ternary_writes, quaternary_writes, reshape_writes,
    binaryIndexed_writes, Finset.singleton_subset_iff, List.mem_toFinset]
  repeat' apply And.intro
  all_goals exact List.mem_map_of_mem (by decide)

/-- A buffer the stretch between the second and the third region does not write keeps its contents. -/
theorem lastRow_kept {b : Ref sig .tc} (h : b ∉ lastRowWrites) : after hostOps2 V ⟪b⟫ = V ⟪b⟫ :=
  after_of_writes_sub hostOps2 V lastRow_writes h

/-- The last bias as a row. -/
theorem lastRow_value : after hostOps2 V ⟪main_v46⟫ = shapeCast S1x256 (V ⟪main_arg4⟫) Facts₀.shapeCasts_S256_S1x256 := by
  after_results
  rfl

end Cert.KernelIdeal.HostBetween

end
-- ==== Proof.EdgePayload.lean ====
/-
  One entry of a block of the edge projection.

  A block is 1000 aggregated rows A (1000×256), the whole weight matrix W (256×256) and the matching 1000 entries of
  the scaling column s (1000×1). The product contracts axis 1 of A with axis 1 of W, so its entry (p, q) is
  ∑ k, A (p, k) · W (q, k), row p of A against row q of W: that is (A Wᵀ) (p, q). The column s is then laid along
  the 256 columns and multiplied in entry by entry, so the block's entry (p, q) is (∑ k, A (p, k) · W (q, k)) · s (p, 0).
  The change of format before the product is the identity on extended reals, and the accumulator is the zero block.

  When the block of A is rows 1000 t … 1000 t + 999 of a 10000×256 table, the block of s the same rows of a 10000×1
  column, and the block of W all of W, entry (p, q) of the block is entry (1000 t + p, q) of the projection of the
  whole table: row 1000 t + p against row q of W, times the column's entry 1000 t + p.
-/
import proofs.«176856_j40638980555154_2_alg».proof.Proof.Gen.KernelIdeal.Skeleton
import proofs.«176856_j40638980555154_2_alg».proof.Proof.LibKeepdims
import proofs.«176856_j40638980555154_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.EdgePayload

open Idealize.ShloMosaic Idealize.ShloMosaic.ValueIdx
open Cert.KernelIdeal Cert.KernelIdeal.Gen

/-! ## Where the product reads its two operands

  At output entry i and contraction position z the left operand is read at (i 0, z) and the right operand at
  (i 1, z): axis 0 of each operand is its free axis, axis 1 the contracted one. -/

/-- The left operand's row is the output entry's row. -/
theorem lhs_free (i : S1000x256.Idx) (z : dot_S1000x256_S256x256_S1000x256_1_1_0_0_n_n.contr.Idx) :
    (dot_S1000x256_S256x256_S1000x256_1_1_0_0_n_n.lhsIdx i z 0).val = (i 0).val := by
  unfold DotDims.lhsIdx
  rw [dif_neg (show ¬(0 : Fin S1000x256.rank) ∈ dot_S1000x256_S256x256_S1000x256_1_1_0_0_n_n.lhsBatch by decide),
    dif_pos (show (0 : Fin S1000x256.rank) ∈ dot_S1000x256_S256x256_S1000x256_1_1_0_0_n_n.lhsNonContracting by decide)]
  rfl

/-- The left operand's column is the contraction position. -/
theorem lhs_contracted (i : S1000x256.Idx) (z : dot_S1000x256_S256x256_S1000x256_1_1_0_0_n_n.contr.Idx) :
    (dot_S1000x256_S256x256_S1000x256_1_1_0_0_n_n.lhsIdx i z 1).val = (z ⟨0, by decide⟩).val :=
  dot_S1000x256_S256x256_S1000x256_1_1_0_0_n_n.lhsIdx_val_of_single rfl i z

/-- The right operand's row is the output entry's column. -/
theorem rhs_free (i : S1000x256.Idx) (z : dot_S1000x256_S256x256_S1000x256_1_1_0_0_n_n.contr.Idx) :
    (dot_S1000x256_S256x256_S1000x256_1_1_0_0_n_n.rhsIdx i z 0).val = (i 1).val := by
  unfold DotDims.rhsIdx
  rw [dif_neg (show ¬(0 : Fin S256x256.rank) ∈ dot_S1000x256_S256x256_S1000x256_1_1_0_0_n_n.rhsBatch by decide),
    dif_pos (show (0 : Fin S256x256.rank) ∈ dot_S1000x256_S256x256_S1000x256_1_1_0_0_n_n.rhsNonContracting by decide)]
  rfl

/-- The right operand's column is the contraction position. -/
theorem rhs_contracted (i : S1000x256.Idx) (z : dot_S1000x256_S256x256_S1000x256_1_1_0_0_n_n.contr.Idx) :
    (dot_S1000x256_S256x256_S1000x256_1_1_0_0_n_n.rhsIdx i z 1).val = (z ⟨0, by decide⟩).val :=
  dot_S1000x256_S256x256_S1000x256_1_1_0_0_n_n.rhsIdx_val_of_single rfl i z

/-! ## The product and the block at an entry -/

/-- Entry (p, q) of the product into the zero accumulator: row p of the left operand against row q of the right
    one, the contraction's one axis re-indexed by its coordinate k < 256. -/
theorem matmul_entry (A : FVec Ideal S1000x256 .bf16) (W : FVec Ideal S256x256 .bf16) (p : Fin 1000) (q : Fin 256) :
    matmul dot_S1000x256_S256x256_S1000x256_1_1_0_0_n_n none A W (constant (F := Ideal) S1000x256 .f32 0x00000000#32) (ix2 p q)
      = ∑ k : Fin 256, A (ix2 p k) * W (ix2 q k) := by
  simp only [matmul]
  rw [Ideal.matmul_constant_zero_apply,
    ← Equiv.sum_comp (contrEquiv1 dot_S1000x256_S256x256_S1000x256_1_1_0_0_n_n 256 rfl rfl).symm]
  refine Finset.sum_congr rfl fun k _ => ?_
  have hk := contrEquiv1_symm_val dot_S1000x256_S256x256_S1000x256_1_1_0_0_n_n 256 rfl rfl k
  have el : dot_S1000x256_S256x256_S1000x256_1_1_0_0_n_n.lhsIdx (ix2 p q)
      ((contrEquiv1 dot_S1000x256_S256x256_S1000x256_1_1_0_0_n_n 256 rfl rfl).symm k) = ix2 p k :=
    funext fun a => Fin.ext (by
      match a with
      | ⟨0, _⟩ => exact lhs_free _ _
      | ⟨1, _⟩ => exact (lhs_contracted _ _).trans hk)
  have er : dot_S1000x256_S256x256_S1000x256_1_1_0_0_n_n.rhsIdx (ix2 p q)
      ((contrEquiv1 dot_S1000x256_S256x256_S1000x256_1_1_0_0_n_n 256 rfl rfl).symm k) = ix2 q k :=
    funext fun a => Fin.ext (by
      match a with
      | ⟨0, _⟩ => exact rhs_free _ _
      | ⟨1, _⟩ => exact (rhs_contracted _ _).trans hk)
  rw [el, er]

/-- Entry (p, q) of the block the body stores, from the three blocks it loads: (∑ k, x0 (p, k) · x1 (q, k)) · x2 (p, 0). -/
theorem payload_entry (x0 : Vec Ideal S1000x256 .f32) (x1 : Vec Ideal S256x256 .f32) (x2 : Vec Ideal S1000x1 .f32)
    (p : Fin 1000) (q : Fin 256) :
    k0_pay1 (F := Ideal) x0 x1 x2 (ix2 p q)
      = (∑ k : Fin 256, x0 (ix2 p k) * x1 (ix2 q k)) * x2 (ix2 p (0 : Fin 1)) := by
  unfold k0_pay1
  rw [mulf_apply, matmul_entry, Keepdims.broadcastTo_a1_ab_apply, shapeCast_self, shapeCast_self]
  rfl

/-- A block of the projection is the projection's rows: with x0 rows 1000 t … of A, x1 all of W and x2 rows 1000 t … of s,
    the block's entry x is the whole projection's entry i = (1000 t + x 0, x 1). Only row i 0 of A, row i 1 of W and
    entry i 0 of s enter. -/
theorem entry_of_blocks (A : S10000x256.Idx → EReal) (W : S256x256.Idx → EReal) (s : S10000x1.Idx → EReal)
    (x0 : Vec Ideal S1000x256 .f32) (x1 : Vec Ideal S256x256 .f32) (x2 : Vec Ideal S1000x1 .f32) (t : Nat)
    (hA : ∀ (y : S1000x256.Idx) (i : S10000x256.Idx), (i 0).val = 1000 * t + (y 0).val → (i 1).val = (y 1).val → x0 y = A i)
    (hW : ∀ y : S256x256.Idx, x1 y = W y)
    (hs : ∀ (y : S1000x1.Idx) (i : S10000x1.Idx), (i 0).val = 1000 * t + (y 0).val → (i 1).val = (y 1).val → x2 y = s i)
    (x : S1000x256.Idx) (i : S10000x256.Idx) (h0 : (i 0).val = 1000 * t + (x 0).val) (h1 : (i 1).val = (x 1).val) :
    k0_pay1 (F := Ideal) x0 x1 x2 x = Cert.Hyper.edgeProject A W s i := by
  obtain ⟨p, q, rfl⟩ : ∃ (p : Fin 1000) (q : Fin 256), x = ix2 p q := ⟨x 0, x 1, eq_ix2 x⟩
  rw [payload_entry]
  show _ = (∑ k : Fin 256, A (ix2 (i 0) k) * W (ix2 (i 1) k)) * s (ix2 (i 0) 0)
  rw [hs (ix2 p (0 : Fin 1)) (ix2 (i 0) 0) h0 rfl]
  congr 1
  refine Finset.sum_congr rfl fun k _ => ?_
  have hq : (ix2 q k : S256x256.Idx) = ix2 (i 1) k :=
    funext fun a => Fin.ext (by match a with | ⟨0, _⟩ => exact h1.symm | ⟨1, _⟩ => rfl)
  rw [hA (ix2 p k) (ix2 (i 0) k) h0 rfl, hW (ix2 q k), hq]
  rfl

end Cert.KernelIdeal.EdgePayload

end
-- ==== Proof.EdgeBlocks.lean ====
/-
  What one grid point of the edge projection writes back.

  The grid has 10 points. At point t the table's window and the scaling column's window sit at block (t, 0) — rows
  1000 t … 1000 t + 999 —, the weight matrix's window at block (0, 0) — all of it —, and the result's window at block
  (t, 0) again. An element of a block sits in its array, on each axis, at block index × block extent + its coordinate
  in the block. So the block the point computes from its three input blocks is rows 1000 t … 1000 t + 999 of the
  projection of the whole arrays, which is the result window's block at t read off that projection.
-/
import proofs.«176856_j40638980555154_2_alg».proof.Proof.Gen.KernelIdeal.Frame
import proofs.«176856_j40638980555154_2_alg».proof.Proof.Spec
import proofs.«176856_j40638980555154_2_alg».proof.Proof.EdgePayload
import Idealize.ShloMosaic.Lib.Pipeline.Value

set_option maxRecDepth 16384

noncomputable section

open scoped BigOperators

namespace Cert.KernelIdeal.EdgeBlocks

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The body's loads and its store start at the origin of their staging buffers. -/
theorem zero_offsets : (![0, 0] : Fin 2 → Nat) = fun _ => 0 := funext fun a => by fin_cases a <;> rfl

/-- The four index maps at every point of the grid: the table, the scaling column and the result move down their
    rows with the point, the weight matrix stays. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The table's block at point t is rows 1000 t … of the table: its entry x is the table's entry (1000 t + x 0, x 1). -/
theorem rows_block_apply (c : Dev nD) (t : Fin cfg0.N) (x : S1000x256.Idx) (i : S10000x256.Idx)
    (h0 : (i 0).val = 1000 * t.val + (x 0).val) (h1 : (i 1).val = (x 1).val) :
    (iblk0 V c 0 t : Vec Ideal S1000x256 .f32) x = (V c main_v32 : S10000x256.Idx → Elt Ideal .f32) i := by
  obtain ⟨e0, e1, -⟩ := block_indices t
  unfold iblk0
  rw [View.read_apply]
  show V c main_v32 _ = V c main_v32 _
  congr 1
  funext a
  apply Fin.ext
  match a with
  | ⟨0, _⟩ => show win0_0.index t (0 : Fin 2) * 1000 + 1 * (x 0).val = (i 0).val; rw [e0, h0]; omega
  | ⟨1, _⟩ => show win0_0.index t (1 : Fin 2) * 256 + 1 * (x 1).val = (i 1).val; rw [e1, h1]; omega

/-- The weight matrix's block at every point is the weight matrix. -/
theorem weights_block_apply (c : Dev nD) (t : Fin cfg0.N) (x : S256x256.Idx) :
    (iblk0 V c 1 t : Vec Ideal S256x256 .f32) x = (V c main_arg1 : S256x256.Idx → Elt Ideal .f32) x := by
  obtain ⟨-, -, e0, e1, -⟩ := block_indices t
  unfold iblk0
  rw [View.read_apply]
  show V c main_arg1 _ = V c main_arg1 _
  congr 1
  funext a
  apply Fin.ext
  match a with
  | ⟨0, _⟩ => show win0_1.index t (0 : Fin 2) * 256 + 1 * (x 0).val = (x 0).val; rw [e0]; omega
  | ⟨1, _⟩ => show win0_1.index t (1 : Fin 2) * 256 + 1 * (x 1).val = (x 1).val; rw [e1]; omega

/-- The scaling column's block at point t is entries 1000 t … of the column. -/
theorem scale_block_apply (c : Dev nD) (t : Fin cfg0.N) (x : S1000x1.Idx) (i : S10000x1.Idx)
    (h0 : (i 0).val = 1000 * t.val + (x 0).val) (h1 : (i 1).val = (x 1).val) :
    (iblk0 V c 2 t : Vec Ideal S1000x1 .f32) x = (V c main_v22 : S10000x1.Idx → Elt Ideal .f32) i := by
  obtain ⟨-, -, -, -, e0, e1, -⟩ := block_indices t
  unfold iblk0
  rw [View.read_apply]
  show V c main_v22 _ = V c main_v22 _
  congr 1
  funext a
  apply Fin.ext
  match a with
  | ⟨0, _⟩ => show win0_2.index t (0 : Fin 2) * 1000 + 1 * (x 0).val = (i 0).val; rw [e0, h0]; omega
  | ⟨1, _⟩ => show win0_2.index t (1 : Fin 2) * 1 + 1 * (x 1).val = (i 1).val; rw [e1, h1]; omega

/-- The block computed at point t, at its entry x, is the projection of the whole arrays at (1000 t + x 0, x 1). -/
theorem block_entry (c : Dev nD) (t : Fin cfg0.N) (x : S1000x256.Idx) (i : S10000x256.Idx)
    (h0 : (i 0).val = 1000 * t.val + (x 0).val) (h1 : (i 1).val = (x 1).val) :
    k0_pay1 (F := Ideal) (iblk0 V c 0 t) (iblk0 V c 1 t) (iblk0 V c 2 t) x
      = Cert.Hyper.edgeProject (V c main_v32) (V c main_arg1) (V c main_v22) i :=
  EdgePayload.entry_of_blocks (V c main_v32) (V c main_arg1) (V c main_v22)
    (iblk0 V c 0 t) (iblk0 V c 1 t) (iblk0 V c 2 t) t.val
    (rows_block_apply V c t) (weights_block_apply V c t) (scale_block_apply V c t) x i h0 h1

/-- What point t writes back is block t of the projection of the arrays as the region finds them: the body's one
    store fills its staging buffer with the computed block, and the result's block at t sits at rows 1000 t … . -/
theorem flushed_eq (c : Dev nD) (t : Fin cfg0.N) :
    (dat0 (F := Ideal) V c).flushed 3 t
      = ((cfg0.win 3).blk t).view.read (Elt Ideal)
          (Cert.Hyper.edgeProject (V c main_v32) (V c main_arg1) (V c main_v22)) := by
  show (cfg0.win 3).cut (grid0.coords t) ((dat0 V c).after 3 t) = _
  rw [after0_3]
  unfold out0_3
  rw [View.canon_unit_zero zero_offsets]
  simp only [View.ld_unit_zero (S := S1000x256) zero_offsets, View.ld_unit_zero (S := S256x256) zero_offsets,
    View.ld_unit_zero (S := S1000x1) zero_offsets]
  obtain ⟨-, -, -, -, -, -, e0, e1⟩ := block_indices t
  funext j
  rw [View.read_apply]
  refine block_entry V c t _ _ ?_ ?_
  · show win0_3.index t (0 : Fin 2) * 1000 + 1 * (j 0).val = 1000 * t.val + (j 0).val
    rw [e0]; omega
  · show win0_3.index t (1 : Fin 2) * 256 + 1 * (j 1).val = (j 1).val
    rw [e1]; omega

end Cert.KernelIdeal.EdgeBlocks

end
-- ==== Proof.EdgeValue.lean ====
/-
  The edge projection's result array after its ten grid points.

  Point t writes back rows 1000 t … 1000 t + 999 of the projection of the arrays the region is entered with. Row r of
  the 10000-row result lies in the block of point r / 1000, and every point writes back, so the ten blocks cover the
  array and it ends holding the projection: row h of the table times the transposed weight matrix, scaled by the
  h-th entry of the column.
-/
import proofs.«176856_j40638980555154_2_alg».proof.Proof.Gen.KernelIdeal.Frame
import proofs.«176856_j40638980555154_2_alg».proof.Proof.Spec
import proofs.«176856_j40638980555154_2_alg».proof.Proof.EdgeBlocks
import Idealize.ShloMosaic.Lib.Pipeline.Value

set_option maxRecDepth 16384

noncomputable section

open scoped BigOperators

namespace Cert.KernelIdeal.EdgeValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- An entry of the result is in point t's block exactly when, on each axis, its coordinate lies in the block's
    range: from block index × extent, for one extent. -/
theorem mem_block (t : Fin cfg0.N) (i : S10000x256.Idx) :
    i ∈ ((cfg0.win 3).blk t).view.set
      ↔ ∀ a : Fin 2, win0_3.index t a * S1000x256.size a ≤ (i a).val
          ∧ (i a).val < win0_3.index t a * S1000x256.size a + S1000x256.size a := by
  show i ∈ ((View.whole main_v33).slice (win0_3.rect t)).set ↔ _
  rw [View.set_slice_whole, Rect.mem_set_unit]
  exact Iff.rfl

/-- Every entry of the result is written back by some point: row r by point r / 1000. -/
theorem covered (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  refine ⟨⟨(i 0).val / 1000, by show (i 0).val / 1000 < 10; omega⟩, flush0_3 _, ?_⟩
  rw [mem_block]
  obtain ⟨-, -, -, -, -, -, e0, e1⟩ :=
    EdgeBlocks.block_indices ⟨(i 0).val / 1000, by show (i 0).val / 1000 < 10; omega⟩
  intro a
  match a with
  | ⟨0, _⟩ =>
    show win0_3.index _ (0 : Fin 2) * 1000 ≤ (i 0).val ∧ (i 0).val < win0_3.index _ (0 : Fin 2) * 1000 + 1000
    rw [e0]; show (i 0).val / 1000 * 1000 ≤ (i 0).val ∧ (i 0).val < (i 0).val / 1000 * 1000 + 1000; omega
  | ⟨1, _⟩ =>
    show win0_3.index _ (1 : Fin 2) * 256 ≤ (i 1).val ∧ (i 1).val < win0_3.index _ (1 : Fin 2) * 256 + 256
    rw [e1]; omega

/-- The result array after the region is the edge projection of the table, the weight matrix and the scaling column
    the region is entered with. -/
theorem region0_value (c : Dev nD) :
    (dat0 (F := Ideal) V c).arrAt 3 cfg0.N
      = Cert.Hyper.edgeProject (V c main_v32) (V c main_arg1) (V c main_v22) :=
  (dat0 (F := Ideal) V c).arrAt_eq_of_cover 3 (Cert.Hyper.edgeProject (V c main_v32) (V c main_arg1) (V c main_v22))
    (fun t _ => EdgeBlocks.flushed_eq V c t) covered

end Cert.KernelIdeal.EdgeValue

end
-- ==== Proof.GramBody.lean ====
/-
  The body of the Gram region, read as values.

  At a grid point the body holds a 5000×256 block n of node rows, the matching 5000×1 column d and the 1×256 row b.
  It forms y = leaky (n · d + b) and adds the 256×256 product yᵀ y, which contracts the 5000 rows, to its output
  block; at the first point of a half it first overwrites that block with zeros. The two lemmas on the cases say
  what the output block holds after the body, as a function of the blocks it loaded; the definitions after them
  name the pre-activation and the activation so that the accumulation is one visible term.
-/
import proofs.«176856_j40638980555154_2_alg».proof.Proof.Gen.KernelIdeal.Frame
import Idealize.ShloMosaic.Lib.Pipeline.Value
import Idealize.ShloMosaic.Lib.Tactic
noncomputable section
namespace Cert.KernelIdeal.GramBody
open Idealize.ShloMosaic Idealize.ShloMosaic.TcCoe Idealize.ShloMosaic.Tactic Idealize.SL.Sem
open Cert.KernelIdeal Cert.KernelIdeal.Gen

variable {F : FTy → Type} [FloatOps F]

/-- Zero offsets, as the printed rectangles spell them. -/
theorem hz3 : (![0, 0, 0] : Fin 3 → Nat) = fun _ => 0 := funext fun a => by fin_cases a <;> rfl
theorem hz2 : (![0, 0] : Fin 2 → Nat) = fun _ => 0 := funext fun a => by fin_cases a <;> rfl

/-! ## What each case of the body leaves in the output block -/

/-- Away from the first point of a half the body adds the block's product yᵀ y to the carried block. -/
theorem out_B (c : Dev nD) (i : grid1.Coords) (a2 : Memref sig .tc .vmem S5000x256 .f32) (h2 : a2.IsWhole)
    (a3 : Memref sig .tc .vmem S5000x1 .f32) (h3 : a3.IsWhole) (a4 : Memref sig .tc .vmem S1x256 .f32) (h4 : a4.IsWhole)
    (a5 : Memref sig .tc .vmem S1x256x256 .f32) (h5 : a5.IsWhole) (hc : ¬cond1_0 i)
    (x0 : Vec F S5000x256 .f32) (x1 : Vec F S5000x1 .f32) (x2 : Vec F S1x256 .f32) (xo3 : Vec F S1x256x256 .f32) :
    out1_B_3 c i a2 h2 a3 h3 a4 h4 a5 h5 hc x0 x1 x2 xo3 = k1_pay2 x0 x1 x2 xo3 := by
  unfold out1_B_3
  rw [View.read_writes_eq_canon _ _ _ (cover1_B_3 c i a2 h2 a3 h3 a4 h4 a5 h5 hc x0 x1 x2 xo3)]
  unfold kernelRun1_B
  dsimp only
  rw [View.canon_unit_zero (S := S1x256x256) hz3]
  simp only [View.readAt_eq_ld, h2.read_unread, h3.read_unread, h4.read_unread, h5.read_unread,
    View.ld_unit_zero (S := S5000x256) hz2, View.ld_unit_zero (S := S5000x1) hz2, View.ld_unit_zero (S := S1x256) hz2,
    View.ld_unit_zero (S := S1x256x256) hz3]

/-- At the first point of a half the body first stores the zero block, reads it back, and adds yᵀ y to it. -/
theorem out_A (c : Dev nD) (i : grid1.Coords) (a2 : Memref sig .tc .vmem S5000x256 .f32) (h2 : a2.IsWhole)
    (a3 : Memref sig .tc .vmem S5000x1 .f32) (h3 : a3.IsWhole) (a4 : Memref sig .tc .vmem S1x256 .f32) (h4 : a4.IsWhole)
    (a5 : Memref sig .tc .vmem S1x256x256 .f32) (h5 : a5.IsWhole) (hc : cond1_0 i)
    (x0 : Vec F S5000x256 .f32) (x1 : Vec F S5000x1 .f32) (x2 : Vec F S1x256 .f32) :
    out1_A_3 c i a2 h2 a3 h3 a4 h4 a5 h5 hc x0 x1 x2 = k1_pay2 x0 x1 x2 (k1_pay1 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S1x256x256) hz3, View.readCov_unit_zero (S := S1x256x256) _ hz3]
  simp only [View.readAt_eq_ld, h2.read_unread, h3.read_unread, h4.read_unread,
    View.ld_unit_zero (S := S5000x256) hz2, View.ld_unit_zero (S := S5000x1) hz2, View.ld_unit_zero (S := S1x256) hz2]

/-! ## The body's arithmetic, named -/

/-- The pre-activation n · d + b of a block: the column d laid along the rows' entries, the row b along the rows. -/
def pre (x0 : Vec F S5000x256 .f32) (x1 : Vec F S5000x1 .f32) (x2 : Vec F S1x256 .f32) : FVec F S5000x256 .f32 :=
  addf (mulf (shapeCast S5000x256 x0 shapeCasts_S5000x256_S5000x256)
      (broadcastTo S5000x256 (shapeCast S5000x1 x1 shapeCasts_S5000x1_S5000x1) broadcasts_S5000x1_S5000x256))
    (broadcastTo S5000x256 (shapeCast S1x256 x2 shapeCasts_S1x256_S1x256) broadcasts_S1x256_S5000x256)

/-- The activation y of a block, as the matmul receives it: the leaky rectifier written as a compare and a select,
    then the change of format. -/
def yblk (x0 : Vec F S5000x256 .f32) (x1 : Vec F S5000x1 .f32) (x2 : Vec F S1x256 .f32) : FVec F S5000x256 .bf16 :=
  truncf .bf16
    (select (cmpf .oge (pre x0 x1 x2) (broadcast S5000x256 (Scalar.ofBits .f32 0x00000000#32)))
      (pre x0 x1 x2) (mulf (broadcast S5000x256 (Scalar.ofBits .f32 0x3C23D70A#32)) (pre x0 x1 x2)))
    bitsLt_bf16_f32

/-- The accumulation is the carried block plus yᵀ y (a product contracting the 5000 rows, into zero). -/
theorem pay2_eq (x0 : Vec F S5000x256 .f32) (x1 : Vec F S5000x1 .f32) (x2 : Vec F S1x256 .f32) (xo : Vec F S1x256x256 .f32) :
    k1_pay2 x0 x1 x2 xo
      = shapeCast S1x256x256
          (addf (shapeCast S256x256 xo shapeCasts_S1x256x256_S256x256)
            (matmul dot_S5000x256_S5000x256_S256x256_0_0_1_1_n_n none (yblk x0 x1 x2) (yblk x0 x1 x2)
              (constant S256x256 .f32 0x00000000#32)))
          shapeCasts_S256x256_S1x256x256 := rfl

/-- The block stored at the first point of a half is the zero block. -/
theorem pay1_eq : k1_pay1 (F := F)
    = shapeCast S1x256x256 (broadcast S256x256 (Scalar.ofBits .f32 0x00000000#32)) shapeCasts_S256x256_S1x256x256 := rfl

end Cert.KernelIdeal.GramBody
end
-- ==== Proof.GramDot.lean ====
/-
  The product yᵀ y of a 5000×256 block with itself, contracting the rows, read at an entry.

  With the rows of both operands contracted and the columns free, entry (a, b) of the product into a zero
  accumulator is the sum over the 5000 rows r of y(r, a) · y(r, b).
-/
import proofs.«176856_j40638980555154_2_alg».proof.Proof.Gen.KernelIdeal
import Idealize.ShloMosaic.Lib.ValueIdx
import Idealize.ShloMosaic.PureOps.Ideal.Laws
noncomputable section
open scoped BigOperators
namespace Cert.KernelIdeal.GramDot
open Idealize.ShloMosaic Idealize.ShloMosaic.ValueIdx
open Cert.KernelIdeal Cert.KernelIdeal.Gen

/-! The operand indices of the product: with the rows contracted, the left operand is read at (row, first output
    coordinate) and the right operand at (row, second output coordinate). -/

theorem lhs_row (i : S256x256.Idx) (q : dot_S5000x256_S5000x256_S256x256_0_0_1_1_n_n.contr.Idx) :
    (dot_S5000x256_S5000x256_S256x256_0_0_1_1_n_n.lhsIdx i q 0).val = (q ⟨0, by decide⟩).val :=
  dot_S5000x256_S5000x256_S256x256_0_0_1_1_n_n.lhsIdx_val_of_single rfl i q

theorem lhs_col (i : S256x256.Idx) (q : dot_S5000x256_S5000x256_S256x256_0_0_1_1_n_n.contr.Idx) :
    (dot_S5000x256_S5000x256_S256x256_0_0_1_1_n_n.lhsIdx i q 1).val = (i 0).val := by
  unfold DotDims.lhsIdx
  rw [dif_neg (show ¬(1 : Fin S5000x256.rank) ∈ dot_S5000x256_S5000x256_S256x256_0_0_1_1_n_n.lhsBatch by decide),
    dif_pos (show (1 : Fin S5000x256.rank) ∈ dot_S5000x256_S5000x256_S256x256_0_0_1_1_n_n.lhsNonContracting by decide)]
  rfl

theorem rhs_row (i : S256x256.Idx) (q : dot_S5000x256_S5000x256_S256x256_0_0_1_1_n_n.contr.Idx) :
    (dot_S5000x256_S5000x256_S256x256_0_0_1_1_n_n.rhsIdx i q 0).val = (q ⟨0, by decide⟩).val :=
  dot_S5000x256_S5000x256_S256x256_0_0_1_1_n_n.rhsIdx_val_of_single rfl i q

theorem rhs_col (i : S256x256.Idx) (q : dot_S5000x256_S5000x256_S256x256_0_0_1_1_n_n.contr.Idx) :
    (dot_S5000x256_S5000x256_S256x256_0_0_1_1_n_n.rhsIdx i q 1).val = (i 1).val := by
  unfold DotDims.rhsIdx
  rw [dif_neg (show ¬(1 : Fin S5000x256.rank) ∈ dot_S5000x256_S5000x256_S256x256_0_0_1_1_n_n.rhsBatch by decide),
    dif_pos (show (1 : Fin S5000x256.rank) ∈ dot_S5000x256_S5000x256_S256x256_0_0_1_1_n_n.rhsNonContracting by decide)]
  rfl

/-- The product yᵀ y into zero, at (a, b): the sum over the 5000 rows of the two entries of a row. -/
theorem gram_apply (y : FVec Ideal S5000x256 .bf16) (a b : Fin 256) :
    matmul dot_S5000x256_S5000x256_S256x256_0_0_1_1_n_n none y y (constant (F := Ideal) S256x256 .f32 0x00000000#32) (ix2 a b)
      = ∑ r : Fin 5000, y (ix2 r a) * y (ix2 r b) := by
  refine (Ideal.matmul_constant_zero_apply dot_S5000x256_S5000x256_S256x256_0_0_1_1_n_n none y y (ix2 a b)).trans ?_
  refine (Equiv.sum_comp (contrEquiv1 dot_S5000x256_S5000x256_S256x256_0_0_1_1_n_n 5000 rfl rfl).symm _).symm.trans ?_
  refine Finset.sum_congr rfl fun r _ => ?_
  have hk := contrEquiv1_symm_val dot_S5000x256_S5000x256_S256x256_0_0_1_1_n_n 5000 rfl rfl r
  have el : dot_S5000x256_S5000x256_S256x256_0_0_1_1_n_n.lhsIdx (ix2 a b)
      ((contrEquiv1 dot_S5000x256_S5000x256_S256x256_0_0_1_1_n_n 5000 rfl rfl).symm r) = ix2 r a :=
    funext fun ax => Fin.ext (by
      match ax with
      | ⟨0, _⟩ => exact (lhs_row (ix2 a b) _).trans hk
      | ⟨1, _⟩ => exact lhs_col (ix2 a b) _)
  have er : dot_S5000x256_S5000x256_S256x256_0_0_1_1_n_n.rhsIdx (ix2 a b)
      ((contrEquiv1 dot_S5000x256_S5000x256_S256x256_0_0_1_1_n_n 5000 rfl rfl).symm r) = ix2 r b :=
    funext fun ax => Fin.ext (by
      match ax with
      | ⟨0, _⟩ => exact (rhs_row (ix2 a b) _).trans hk
      | ⟨1, _⟩ => exact rhs_col (ix2 a b) _)
  rw [el, er]

end Cert.KernelIdeal.GramDot
end
-- ==== Proof.GramEntry.lean ====
/-
  The body's accumulation read at an entry, on exact values.

  The pre-activation at (r, a) is n(r, a) · d(r, 0) + b(0, a); the activation is the leaky rectifier of it; the
  accumulation at (0, a, b) is the carried entry plus the sum over the block's 5000 rows of the product of the
  activations at (r, a) and (r, b). The block stored at the first point of a half is zero everywhere.
-/
import proofs.«176856_j40638980555154_2_alg».proof.Proof.GramBody
import proofs.«176856_j40638980555154_2_alg».proof.Proof.GramDot
import proofs.«176856_j40638980555154_2_alg».proof.Proof.Spec
import proofs.«176856_j40638980555154_2_alg».proof.Proof.LibKeepdims
import Idealize.ShloMosaic.Lib.ValueLayout
import Idealize.ShloMosaic.PureOps.Ideal.Laws
noncomputable section
open scoped BigOperators
namespace Cert.KernelIdeal.GramEntry
open Idealize.ShloMosaic Idealize.ShloMosaic.TcCoe Idealize.ShloMosaic.ValueIdx Idealize.SL.Sem
open Cert.KernelIdeal Cert.KernelIdeal.Gen Cert.KernelIdeal.GramBody Cert.KernelIdeal.GramDot

/-- The pre-activation at row r, channel a: the block's entry times the column's entry of that row, plus the row's
    entry of that channel. -/
theorem pre_apply (x0 : Vec Ideal S5000x256 .f32) (x1 : Vec Ideal S5000x1 .f32) (x2 : Vec Ideal S1x256 .f32)
    (r : Fin 5000) (a : Fin 256) :
    pre (F := Ideal) x0 x1 x2 (ix2 r a) = x0 (ix2 r a) * x1 (ix2 r (0 : Fin 1)) + x2 (ix2 (0 : Fin 1) a) := by
  unfold pre
  rw [shapeCast_self, shapeCast_self, shapeCast_self]
  show x0 (ix2 r a) * broadcastTo S5000x256 x1 broadcasts_S5000x1_S5000x256 (ix2 r a)
      + broadcastTo S5000x256 x2 broadcasts_S1x256_S5000x256 (ix2 r a) = _
  rw [Keepdims.broadcastTo_a1_ab_apply, broadcastTo_1b_ab_apply]

/-- The activation at row r, channel a: the leaky rectifier of the pre-activation there (the change of format is
    the identity on exact values; the compare, the product by the slope and the select are the rectifier). -/
theorem yblk_apply (x0 : Vec Ideal S5000x256 .f32) (x1 : Vec Ideal S5000x1 .f32) (x2 : Vec Ideal S1x256 .f32)
    (r : Fin 5000) (a : Fin 256) :
    yblk (F := Ideal) x0 x1 x2 (ix2 r a)
      = Cert.Hyper.leaky (x0 (ix2 r a) * x1 (ix2 r (0 : Fin 1)) + x2 (ix2 (0 : Fin 1) a)) :=
  (show yblk (F := Ideal) x0 x1 x2 (ix2 r a) = Cert.Hyper.leaky (pre (F := Ideal) x0 x1 x2 (ix2 r a)) from rfl).trans
    (congrArg Cert.Hyper.leaky (pre_apply x0 x1 x2 r a))

/-- The accumulation at (0, a, b): the carried entry plus the sum over the block's rows of the two activations. -/
theorem pay2_apply (x0 : Vec Ideal S5000x256 .f32) (x1 : Vec Ideal S5000x1 .f32) (x2 : Vec Ideal S1x256 .f32)
    (xo : Vec Ideal S1x256x256 .f32) (a b : Fin 256) :
    k1_pay2 (F := Ideal) x0 x1 x2 xo (ix3 (0 : Fin 1) a b)
      = xo (ix3 (0 : Fin 1) a b)
        + ∑ r : Fin 5000,
            Cert.Hyper.leaky (x0 (ix2 r a) * x1 (ix2 r (0 : Fin 1)) + x2 (ix2 (0 : Fin 1) a))
              * Cert.Hyper.leaky (x0 (ix2 r b) * x1 (ix2 r (0 : Fin 1)) + x2 (ix2 (0 : Fin 1) b)) := by
  rw [pay2_eq]
  refine (shapeCast_ab_1ab_apply _ shapeCasts_S256x256_S1x256x256 (0 : Fin 1) a b).trans ?_
  refine (addf_apply _ _ (ix2 a b)).trans ?_
  refine congrArg₂ (· + ·) (shapeCast_1ab_ab_apply xo shapeCasts_S1x256x256_S256x256 a b) ?_
  refine (gram_apply (yblk (F := Ideal) x0 x1 x2) a b).trans ?_
  exact Finset.sum_congr rfl fun r _ => by rw [yblk_apply, yblk_apply]

/-- The block stored at the first point of a half is zero at every entry. -/
theorem pay1_apply (a b : Fin 256) : k1_pay1 (F := Ideal) (ix3 (0 : Fin 1) a b) = 0 := by
  rw [pay1_eq]
  refine (shapeCast_ab_1ab_apply _ shapeCasts_S256x256_S1x256x256 (0 : Fin 1) a b).trans ?_
  exact Ideal.ofBits_zero_f32

end Cert.KernelIdeal.GramEntry
end
-- ==== Proof.GramBlocks.lean ====
/-
  The blocks the Gram region loads at a grid point, as entries of the arrays.

  Point t of the ten loads block t of the node table (rows t · 5000 … t · 5000 + 4999, all 256 channels), block t of
  the column d (the same rows), and the whole row b; its output block is half t / 5 of the 2×256×256 result. An
  element of a block sits in its array, on each axis, at block index × block size + its coordinate in the block.
-/
import proofs.«176856_j40638980555154_2_alg».proof.Proof.Gen.KernelIdeal.Frame
import Idealize.ShloMosaic.Lib.Pipeline.Value
import Idealize.ShloMosaic.Lib.ValueIdx
noncomputable section
namespace Cert.KernelIdeal.GramBlocks
open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## Where the windows sit at a point -/

/-- The printed index maps over the ten points: the node block and the column block of point t are block t of
    their arrays, the row b is always the whole row, and the output block of point t is half t / 5. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 3) = t.val / 5 ∧ win1_3.index t (1 : Fin 3) = 0 ∧ win1_3.index t (2 : Fin 3) = 0 :=
  (by decide +kernel : ∀ t : Fin grid1.N, _)

/-- Row r of block q of the node table, for q one of the ten blocks. -/
def rowOf (q : ℕ) (hq : q < 10) (r : Fin 5000) : Fin 50000 := ⟨q * 5000 + r.val, by have := r.isLt; omega⟩

theorem lt10 (t : Fin cfg1.N) : t.val < 10 := lt_of_lt_of_eq t.isLt (show cfg1.N = 10 from N_1)

/-- The node block of point t at (r, a) is the node table at (row r of block t, a). -/
theorem blk0_apply (c : Dev nD) (t : Fin cfg1.N) (r : Fin 5000) (a : Fin 256) :
    (iblk1 (F := Ideal) V c 0 t : Vec Ideal S5000x256 .f32) (ix2 r a)
      = (V c main_v43 : S50000x256.Idx → EReal) (ix2 (rowOf t.val (lt10 t) r) a) := by
  obtain ⟨e0, e1, -⟩ := idx_facts t
  unfold iblk1
  rw [View.read_apply]
  show V c main_v43 _ = V c main_v43 _
  refine congrArg (V c main_v43) (funext fun ax => Fin.ext ?_)
  match ax with
  | ⟨0, _⟩ => show win1_0.index t 0 * 5000 + 1 * r.val = t.val * 5000 + r.val; rw [e0]; omega
  | ⟨1, _⟩ => show win1_0.index t 1 * 256 + 1 * a.val = a.val; rw [e1]; omega

/-- The column block of point t at (r, 0) is the column at (row r of block t, 0). -/
theorem blk1_apply (c : Dev nD) (t : Fin cfg1.N) (r : Fin 5000) :
    (iblk1 (F := Ideal) V c 1 t : Vec Ideal S5000x1 .f32) (ix2 r (0 : Fin 1))
      = (V c main_v13 : S50000x1.Idx → EReal) (ix2 (rowOf t.val (lt10 t) r) (0 : Fin 1)) := by
  obtain ⟨-, -, e0, e1, -⟩ := idx_facts t
  unfold iblk1
  rw [View.read_apply]
  show V c main_v13 _ = V c main_v13 _
  refine congrArg (V c main_v13) (funext fun ax => Fin.ext ?_)
  match ax with
  | ⟨0, _⟩ => show win1_1.index t 0 * 5000 + 1 * r.val = t.val * 5000 + r.val; rw [e0]; omega
  | ⟨1, _⟩ => show win1_1.index t 1 * 1 + 1 * 0 = 0; rw [e1]

/-- The row block of every point is the row b itself. -/
theorem blk2_apply (c : Dev nD) (t : Fin cfg1.N) (a : Fin 256) :
    (iblk1 (F := Ideal) V c 2 t : Vec Ideal S1x256 .f32) (ix2 (0 : Fin 1) a)
      = (V c main_v44 : S1x256.Idx → EReal) (ix2 (0 : Fin 1) a) := by
  obtain ⟨-, -, -, -, e0, e1, -⟩ := idx_facts t
  unfold iblk1
  rw [View.read_apply]
  show V c main_v44 _ = V c main_v44 _
  refine congrArg (V c main_v44) (funext fun ax => Fin.ext ?_)
  match ax with
  | ⟨0, _⟩ => show win1_2.index t 0 * 1 + 1 * 0 = 0; rw [e0]
  | ⟨1, _⟩ => show win1_2.index t 1 * 256 + 1 * a.val = a.val; rw [e1]; omega

end Cert.KernelIdeal.GramBlocks
end
-- ==== Proof.GramSum.lean ====
/-
  The running sum the Gram region carries in its output block.

  Over the five points of a half the output block is first zeroed and then receives, point after point, the product
  yᵀ y of that point's block. So after point n it holds, at (0, a, b), the sum over the blocks of n's half up to n
  of the sums over each block's rows of the products of the activations at channels a and b, added in the order of
  the points. This is proved by induction on the point.
-/
import proofs.«176856_j40638980555154_2_alg».proof.Proof.GramEntry
import proofs.«176856_j40638980555154_2_alg».proof.Proof.GramBlocks
noncomputable section
open scoped BigOperators
namespace Cert.KernelIdeal.GramSum
open Idealize.ShloMosaic Idealize.ShloMosaic.TcCoe Idealize.ShloMosaic.ValueIdx Idealize.SL.Sem
open Cert.KernelIdeal Cert.KernelIdeal.Gen Cert.KernelIdeal.GramBody Cert.KernelIdeal.GramEntry Cert.KernelIdeal.GramBlocks

variable (V : (c : Dev nD) → (b : Ref sig .tc) → Buf (Elt Ideal) ((c : Thread nD τ).loc b))

/-- The contribution of block q of the node table to entry (a, b): the sum over its 5000 rows of the product of the
    activations at channels a and b (zero for q past the ten blocks). -/
def blockTerm (c : Dev nD) (q : ℕ) (a b : Fin 256) : EReal :=
  if hq : q < 10 then
    ∑ r : Fin 5000,
      Cert.Hyper.act (V c main_v43) (V c main_v13) (V c main_v44) (ix2 (rowOf q hq r) a)
        * Cert.Hyper.act (V c main_v43) (V c main_v13) (V c main_v44) (ix2 (rowOf q hq r) b)
  else 0

/-- What the body adds at point t, computed from three blocks that read the arrays at block t's rows, is the
    contribution of block t. -/
theorem point_term (c : Dev nD) (t : Fin cfg1.N)
    (x0 : Vec Ideal S5000x256 .f32) (x1 : Vec Ideal S5000x1 .f32) (x2 : Vec Ideal S1x256 .f32)
    (h0 : ∀ (r : Fin 5000) (a : Fin 256),
      x0 (ix2 r a) = (V c main_v43 : S50000x256.Idx → EReal) (ix2 (rowOf t.val (lt10 t) r) a))
    (h1 : ∀ r : Fin 5000,
      x1 (ix2 r (0 : Fin 1)) = (V c main_v13 : S50000x1.Idx → EReal) (ix2 (rowOf t.val (lt10 t) r) (0 : Fin 1)))
    (h2 : ∀ a : Fin 256, x2 (ix2 (0 : Fin 1) a) = (V c main_v44 : S1x256.Idx → EReal) (ix2 (0 : Fin 1) a))
    (a b : Fin 256) :
    (∑ r : Fin 5000,
        Cert.Hyper.leaky (x0 (ix2 r a) * x1 (ix2 r (0 : Fin 1)) + x2 (ix2 (0 : Fin 1) a))
          * Cert.Hyper.leaky (x0 (ix2 r b) * x1 (ix2 r (0 : Fin 1)) + x2 (ix2 (0 : Fin 1) b)))
      = blockTerm V c t.val a b := by
  unfold blockTerm
  rw [dif_pos (lt10 t)]
  refine Finset.sum_congr rfl fun r _ => ?_
  rw [h0, h0, h1, h2, h2]
  rfl

/-- At the first point of a half the output block is left holding that point's contribution alone. -/
theorem step_A (c : Dev nD) (t : Fin cfg1.N) (h0 : t.val % 5 = 0) (a b : Fin 256) :
    outsAt1 (F := Ideal) V c t.val t.isLt (ix3 (0 : Fin 1) a b) = blockTerm V c t.val a b := by
  refine (congrFun (outsAt1_A V c t h0) (ix3 (0 : Fin 1) a b)).trans ?_
  refine (congrFun (out_A (F := Ideal) c (grid1.coords t) (ms1_0 t) (hs1_0 t) (ms1_1 t) (hs1_1 t) (ms1_2 t) (hs1_2 t)
    (ms1_3 t) (hs1_3 t) ((hcond1_0 t).mpr h0) (iblk1 V c 0 t) (iblk1 V c 1 t) (iblk1 V c 2 t)) (ix3 (0 : Fin 1) a b)).trans ?_
  refine (pay2_apply (iblk1 V c 0 t) (iblk1 V c 1 t) (iblk1 V c 2 t) (k1_pay1 (F := Ideal)) a b).trans ?_
  rw [pay1_apply, zero_add]
  exact point_term V c t (iblk1 V c 0 t) (iblk1 V c 1 t) (iblk1 V c 2 t) (blk0_apply V c t) (blk1_apply V c t)
    (blk2_apply V c t) a b

/-- At any other point it holds what the point before left plus that point's contribution. -/
theorem step_B (c : Dev nD) (t : Fin cfg1.N) (h0 : ¬t.val % 5 = 0) (a b : Fin 256) :
    outsAt1 (F := Ideal) V c t.val t.isLt (ix3 (0 : Fin 1) a b)
      = outsAt1 (F := Ideal) V c (t.val - 1) (Nat.lt_of_le_of_lt (Nat.sub_le _ _) t.isLt) (ix3 (0 : Fin 1) a b)
        + blockTerm V c t.val a b := by
  refine (congrFun (outsAt1_B V c t h0) (ix3 (0 : Fin 1) a b)).trans ?_
  refine (congrFun (out_B (F := Ideal) c (grid1.coords t) (ms1_0 t) (hs1_0 t) (ms1_1 t) (hs1_1 t) (ms1_2 t) (hs1_2 t)
    (ms1_3 t) (hs1_3 t) (fun h => h0 ((hcond1_0 t).mp h)) (iblk1 V c 0 t) (iblk1 V c 1 t) (iblk1 V c 2 t)
    (outsAt1 V c (t.val - 1) (Nat.lt_of_le_of_lt (Nat.sub_le _ _) t.isLt))) (ix3 (0 : Fin 1) a b)).trans ?_
  refine (pay2_apply (iblk1 V c 0 t) (iblk1 V c 1 t) (iblk1 V c 2 t)
    (outsAt1 V c (t.val - 1) (Nat.lt_of_le_of_lt (Nat.sub_le _ _) t.isLt)) a b).trans ?_
  exact congrArg (outsAt1 (F := Ideal) V c (t.val - 1) (Nat.lt_of_le_of_lt (Nat.sub_le _ _) t.isLt) (ix3 (0 : Fin 1) a b) + ·)
    (point_term V c t (iblk1 V c 0 t) (iblk1 V c 1 t) (iblk1 V c 2 t) (blk0_apply V c t) (blk1_apply V c t)
      (blk2_apply V c t) a b)

/-- After point n the output block holds, at (0, a, b), the contributions of the blocks of n's half up to n, added
    in the order of the points. -/
theorem outsAt_apply (c : Dev nD) (a b : Fin 256) : ∀ (n : ℕ) (h : n < cfg1.N),
    outsAt1 (F := Ideal) V c n h (ix3 (0 : Fin 1) a b)
      = ∑ k ∈ Finset.range (n % 5 + 1), blockTerm V c (n / 5 * 5 + k) a b := by
  intro n
  induction n with
  | zero =>
    intro h
    refine (step_A V c ⟨0, h⟩ (Nat.zero_mod 5) a b).trans ?_
    show _ = ∑ k ∈ Finset.range 1, blockTerm V c (0 / 5 * 5 + k) a b
    rw [Finset.sum_range_one]
  | succ n ih =>
    intro h
    have hN : n + 1 < 10 := lt_of_lt_of_eq h (show cfg1.N = 10 from N_1)
    by_cases h0 : (n + 1) % 5 = 0
    · refine (step_A V c ⟨n + 1, h⟩ h0 a b).trans ?_
      rw [h0, Nat.zero_add, Finset.sum_range_one]
      exact congrArg (fun q => blockTerm V c q a b) (show n + 1 = (n + 1) / 5 * 5 + 0 by omega)
    · refine (step_B V c ⟨n + 1, h⟩ h0 a b).trans ?_
      show outsAt1 V c n _ (ix3 (0 : Fin 1) a b) + blockTerm V c (n + 1) a b = _
      rw [ih, show (n + 1) % 5 = n % 5 + 1 by omega, show (n + 1) / 5 = n / 5 by omega,
        Finset.sum_range_succ (fun k => blockTerm V c (n / 5 * 5 + k) a b) (n % 5 + 1)]
      exact congrArg (fun q => (∑ k ∈ Finset.range (n % 5 + 1), blockTerm V c (n / 5 * 5 + k) a b) + blockTerm V c q a b)
        (show n + 1 = n / 5 * 5 + (n % 5 + 1) by omega)

end Cert.KernelIdeal.GramSum
end
-- ==== Proof.GramValue.lean ====
/-
  The value of the Gram region: its result array ends holding the two half Gram matrices of the activation.

  The output block of point t is half t / 5 of the 2×256×256 result and is written back after the last point of
  the half. By then it holds the sum of the contributions of the half's five blocks, which is the half's Gram
  matrix as the specification states it (five blocks of 5000 rows, added block after block). The two written-back
  blocks are the two halves, so together they cover the array.
-/
import proofs.«176856_j40638980555154_2_alg».proof.Proof.GramSum
import Idealize.ShloMosaic.Lib.Pipeline.Value
noncomputable section
open scoped BigOperators
namespace Cert.KernelIdeal.GramValue
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GramBlocks Cert.KernelIdeal.GramSum

variable (V : (c : Dev nD) → (b : Ref sig .tc) → Buf (Elt Ideal) ((c : Thread nD τ).loc b))

/-! ## From the blocks to the array -/

/-- Entry (p, a, b) of the two half Gram matrices is the sum of the contributions of the five blocks of half p. -/
theorem gram_eq (c : Dev nD) (p : Fin 2) (a b : Fin 256) :
    Cert.Hyper.gramHalves (V c main_v43) (V c main_v13) (V c main_v44) (ix3 p a b)
      = ∑ k ∈ Finset.range 5, blockTerm V c (p.val * 5 + k) a b := by
  rw [Finset.sum_range]
  show (∑ k : Fin 5, ∑ r : Fin 5000,
      Cert.Hyper.act (V c main_v43) (V c main_v13) (V c main_v44) (ix2 (Cert.Hyper.blockRow p k r) a)
        * Cert.Hyper.act (V c main_v43) (V c main_v13) (V c main_v44) (ix2 (Cert.Hyper.blockRow p k r) b)) = _
  refine Finset.sum_congr rfl fun k _ => ?_
  have hq : p.val * 5 + k.val < 10 := by have := p.isLt; have := k.isLt; omega
  unfold blockTerm
  rw [dif_pos hq]
  refine Finset.sum_congr rfl fun r _ => ?_
  rw [show Cert.Hyper.blockRow p k r = rowOf (p.val * 5 + k.val) hq r from Fin.ext rfl]

/-- What a flushing point writes back is its half of the Gram matrices, read through the point's block. -/
theorem flushed_eq (c : Dev nD) (t : Fin cfg1.N) (hf : (cfg1.win 3).flush t = true) :
    (dat1 (F := Ideal) V c).flushed 3 t
      = ((cfg1.win 3).blk t).view.read (Elt Ideal)
          (Cert.Hyper.gramHalves (V c main_v43) (V c main_v13) (V c main_v44)) := by
  have h4 : t.val % 5 = 4 := (flush1_3 t).mp hf
  have hN : t.val < 10 := lt10 t
  obtain ⟨-, -, -, -, -, -, e0, e1, e2⟩ := idx_facts t
  show (cfg1.win 3).cut (grid1.coords t) ((dat1 V c).after 3 t) = _
  rw [after1_3]
  refine funext fun j => ?_
  obtain ⟨u, a, b, rfl⟩ : ∃ (u : Fin 1) (a b : Fin 256), j = ix3 u a b := ⟨j 0, j 1, j 2, eq_ix3 j⟩
  obtain rfl : u = 0 := Fin.ext (by omega)
  have he : ((cfg1.win 3).blk t).view.emb (ix3 (0 : Fin 1) a b) = ix3 (⟨t.val / 5, by omega⟩ : Fin 2) a b :=
    funext fun ax => Fin.ext (by
      match ax with
      | ⟨0, _⟩ => show win1_3.index t 0 * 1 + 1 * 0 = t.val / 5; rw [e0]; omega
      | ⟨1, _⟩ => show win1_3.index t 1 * 256 + 1 * a.val = a.val; rw [e1]; omega
      | ⟨2, _⟩ => show win1_3.index t 2 * 256 + 1 * b.val = b.val; rw [e2]; omega)
  show outsAt1 V c t.val t.isLt (ix3 (0 : Fin 1) a b)
    = Cert.Hyper.gramHalves (V c main_v43) (V c main_v13) (V c main_v44) (((cfg1.win 3).blk t).view.emb (ix3 (0 : Fin 1) a b))
  rw [he, gram_eq, outsAt_apply, h4]

/-- The region's result array ends holding the two half Gram matrices of the activation: the two flushing points'
    blocks are the two halves, and together they cover the array. -/
theorem region1_value (c : Dev nD) :
    (dat1 (F := Ideal) V c).arrAt 3 cfg1.N
      = Cert.Hyper.gramHalves (V c main_v43) (V c main_v13) (V c main_v44) :=
  (dat1 (F := Ideal) V c).arrAt_eq_of_cover 3 (Cert.Hyper.gramHalves (V c main_v43) (V c main_v13) (V c main_v44))
    (flushed_eq V c) fun i => by
      have hi0 : (i 0 : Nat) < 2 := (i 0).isLt
      have hi1 : (i 1 : Nat) < 256 := (i 1).isLt
      have hi2 : (i 2 : Nat) < 256 := (i 2).isLt
      have hlt : (i 0 : Nat) * 5 + 4 < cfg1.N := by rw [show cfg1.N = 10 from N_1]; omega
      obtain ⟨-, -, -, -, -, -, e0, e1, e2⟩ := idx_facts ⟨(i 0 : Nat) * 5 + 4, hlt⟩
      refine ⟨⟨(i 0 : Nat) * 5 + 4, hlt⟩, (flush1_3 _).mpr (by show ((i 0 : Nat) * 5 + 4) % 5 = 4; omega), ?_⟩
      show i ∈ ((View.whole main_v45).slice (win1_3.rect ⟨(i 0 : Nat) * 5 + 4, hlt⟩)).set
      rw [View.set_slice_whole, Rect.mem_set_unit]
      intro ax
      match ax with
      | ⟨0, _⟩ =>
        show win1_3.index ⟨(i 0 : Nat) * 5 + 4, hlt⟩ 0 * 1 ≤ (i 0 : Nat)
          ∧ (i 0 : Nat) < win1_3.index ⟨(i 0 : Nat) * 5 + 4, hlt⟩ 0 * 1 + 1
        rw [e0]; dsimp only; omega
      | ⟨1, _⟩ =>
        show win1_3.index ⟨(i 0 : Nat) * 5 + 4, hlt⟩ 1 * 256 ≤ (i 1 : Nat)
          ∧ (i 1 : Nat) < win1_3.index ⟨(i 0 : Nat) * 5 + 4, hlt⟩ 1 * 256 + 256
        rw [e1]; omega
      | ⟨2, _⟩ =>
        show win1_3.index ⟨(i 0 : Nat) * 5 + 4, hlt⟩ 2 * 256 ≤ (i 2 : Nat)
          ∧ (i 2 : Nat) < win1_3.index ⟨(i 0 : Nat) * 5 + 4, hlt⟩ 2 * 256 + 256
        rw [e2]; omega

end Cert.KernelIdeal.GramValue
end
-- ==== Proof.DensePayload.lean ====
/-
  One entry of the last dense layer.

  The body reads the two 256×256 halves P₀ and P₁ of a 2×256×256 array (each as a 1×256×256 slab whose unit axis a
  cast drops), adds them entry by entry, and contracts axis 1 of the sum with axis 1 of the 256×256 matrix L, so
  entry (a, b) of the product is ∑ k, (P₀ (a, k) + P₁ (a, k)) · L (b, k): row a of the sum against row b of L. The
  1×256 row l is laid along the 256 rows and added, and the result passes through the leaky rectifier, computed as a
  comparison with zero, the product slope · x, and a select between x and that product. The change of format before
  the product is the identity on extended reals, and the accumulator is the zero block.
-/
import proofs.«176856_j40638980555154_2_alg».proof.Proof.Gen.KernelIdeal.Skeleton
import proofs.«176856_j40638980555154_2_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.DensePayload

open Idealize.ShloMosaic Idealize.ShloMosaic.ValueIdx
open Cert.KernelIdeal Cert.KernelIdeal.Gen

/-! ## Where the product reads its two operands

  At output entry i and contraction position z the left operand is read at (i 0, z) and the right operand at
  (i 1, z): axis 0 of each operand is its free axis, axis 1 the contracted one. -/

/-- The left operand's row is the output entry's row. -/
theorem lhs_free (i : S256x256.Idx) (z : dot_S256x256_S256x256_S256x256_1_1_0_0_n_n.contr.Idx) :
    (dot_S256x256_S256x256_S256x256_1_1_0_0_n_n.lhsIdx i z 0).val = (i 0).val := by
  unfold DotDims.lhsIdx
  rw [dif_neg (show ¬(0 : Fin S256x256.rank) ∈ dot_S256x256_S256x256_S256x256_1_1_0_0_n_n.lhsBatch by decide),
    dif_pos (show (0 : Fin S256x256.rank) ∈ dot_S256x256_S256x256_S256x256_1_1_0_0_n_n.lhsNonContracting by decide)]
  rfl

/-- The left operand's column is the contraction position. -/
theorem lhs_contracted (i : S256x256.Idx) (z : dot_S256x256_S256x256_S256x256_1_1_0_0_n_n.contr.Idx) :
    (dot_S256x256_S256x256_S256x256_1_1_0_0_n_n.lhsIdx i z 1).val = (z ⟨0, by decide⟩).val :=
  dot_S256x256_S256x256_S256x256_1_1_0_0_n_n.lhsIdx_val_of_single rfl i z

/-- The right operand's row is the output entry's column. -/
theorem rhs_free (i : S256x256.Idx) (z : dot_S256x256_S256x256_S256x256_1_1_0_0_n_n.contr.Idx) :
    (dot_S256x256_S256x256_S256x256_1_1_0_0_n_n.rhsIdx i z 0).val = (i 1).val := by
  unfold DotDims.rhsIdx
  rw [dif_neg (show ¬(0 : Fin S256x256.rank) ∈ dot_S256x256_S256x256_S256x256_1_1_0_0_n_n.rhsBatch by decide),
    dif_pos (show (0 : Fin S256x256.rank) ∈ dot_S256x256_S256x256_S256x256_1_1_0_0_n_n.rhsNonContracting by decide)]
  rfl

/-- The right operand's column is the contraction position. -/
theorem rhs_contracted (i : S256x256.Idx) (z : dot_S256x256_S256x256_S256x256_1_1_0_0_n_n.contr.Idx) :
    (dot_S256x256_S256x256_S256x256_1_1_0_0_n_n.rhsIdx i z 1).val = (z ⟨0, by decide⟩).val :=
  dot_S256x256_S256x256_S256x256_1_1_0_0_n_n.rhsIdx_val_of_single rfl i z

/-! ## The product and the layer at an entry -/

/-- Entry (a, b) of the product into the zero accumulator: row a of the left operand against row b of the right
    one, the contraction's one axis re-indexed by its coordinate k < 256. -/
theorem matmul_entry (X : FVec Ideal S256x256 .bf16) (L : FVec Ideal S256x256 .bf16) (a : Fin 256) (b : Fin 256) :
    matmul dot_S256x256_S256x256_S256x256_1_1_0_0_n_n none X L (constant (F := Ideal) S256x256 .f32 0x00000000#32) (ix2 a b)
      = ∑ k : Fin 256, X (ix2 a k) * L (ix2 b k) := by
  simp only [matmul]
  rw [Ideal.matmul_constant_zero_apply,
    ← Equiv.sum_comp (contrEquiv1 dot_S256x256_S256x256_S256x256_1_1_0_0_n_n 256 rfl rfl).symm]
  refine Finset.sum_congr rfl fun k _ => ?_
  have hk := contrEquiv1_symm_val dot_S256x256_S256x256_S256x256_1_1_0_0_n_n 256 rfl rfl k
  have el : dot_S256x256_S256x256_S256x256_1_1_0_0_n_n.lhsIdx (ix2 a b)
      ((contrEquiv1 dot_S256x256_S256x256_S256x256_1_1_0_0_n_n 256 rfl rfl).symm k) = ix2 a k :=
    funext fun ax => Fin.ext (by
      match ax with
      | ⟨0, _⟩ => exact lhs_free _ _
      | ⟨1, _⟩ => exact (lhs_contracted _ _).trans hk)
  have er : dot_S256x256_S256x256_S256x256_1_1_0_0_n_n.rhsIdx (ix2 a b)
      ((contrEquiv1 dot_S256x256_S256x256_S256x256_1_1_0_0_n_n 256 rfl rfl).symm k) = ix2 b k :=
    funext fun ax => Fin.ext (by
      match ax with
      | ⟨0, _⟩ => exact rhs_free _ _
      | ⟨1, _⟩ => exact (rhs_contracted _ _).trans hk)
  rw [el, er]

/-- Entry (a, b) of the block the body stores, from the two slabs, the matrix and the row it loads:
    leaky (∑ k, (y0 (0, a, k) + y1 (0, a, k)) · x1 (b, k) + x2 (0, b)). -/
theorem payload_entry (y0 y1 : Vec Ideal S1x256x256 .f32) (x1 : Vec Ideal S256x256 .f32) (x2 : Vec Ideal S1x256 .f32)
    (a : Fin 256) (b : Fin 256) :
    k2_pay1 (F := Ideal) y0 y1 x1 x2 (ix2 a b)
      = Cert.Hyper.leaky ((∑ k : Fin 256, (y0 (ix3 (0 : Fin 1) a k) + y1 (ix3 (0 : Fin 1) a k)) * x1 (ix2 b k))
          + x2 (ix2 (0 : Fin 1) b)) := by
  unfold k2_pay1
  rw [select_apply, cmpf_apply, mulf_apply, broadcast_apply, broadcast_apply, addf_apply, matmul_entry,
    broadcastTo_1b_ab_apply, shapeCast_self]
  have hsum : ∀ k : Fin 256,
      (truncf .bf16 (addf (shapeCast S256x256 y0 shapeCasts_S1x256x256_S256x256)
          (shapeCast S256x256 y1 shapeCasts_S1x256x256_S256x256)) bitsLt_bf16_f32 : FVec Ideal S256x256 .bf16) (ix2 a k)
        = y0 (ix3 (0 : Fin 1) a k) + y1 (ix3 (0 : Fin 1) a k) := fun k => by
    rw [truncf_apply, addf_apply, shapeCast_1ab_ab_apply, shapeCast_1ab_ab_apply]
  simp only [hsum]
  rfl

end Cert.KernelIdeal.DensePayload

end
-- ==== Proof.DenseBlocks.lean ====
/-
  What the one grid point of the last dense layer writes back.

  The grid has one point, and every window's block there is its whole array: the 2×256×256 array of the two halves,
  the 256×256 matrix, the 1×256 row, and the 256×256 result, all at block index 0 on every axis. The body loads the
  two halves as two rectangles of the first window's one block, at offsets 0 and 1 of the leading axis. So the block
  the point computes is the dense layer of the whole arrays, which is the result window's block read off that layer.
-/
import proofs.«176856_j40638980555154_2_alg».proof.Proof.Gen.KernelIdeal.Frame
import proofs.«176856_j40638980555154_2_alg».proof.Proof.Spec
import proofs.«176856_j40638980555154_2_alg».proof.Proof.DensePayload
import Idealize.ShloMosaic.Lib.Pipeline.Value

set_option maxRecDepth 16384

noncomputable section

open scoped BigOperators

namespace Cert.KernelIdeal.DenseBlocks

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The body's whole-buffer loads and its store start at the origin of their staging buffers. -/
theorem zero_offsets : (![0, 0] : Fin 2 → Nat) = fun _ => 0 := funext fun a => by fin_cases a <;> rfl

/-! ## The two halves, loaded from one block -/

/-- The first load reads the slab at offset 0 of the leading axis: its entry (0, a, k) is the block's entry (0, a, k). -/
theorem first_half_apply (X : Vec Ideal S2x256x256 .f32) (u : Fin 1) (a k : Fin 256) :
    View.ld X r2_0 (ix3 u a k) = X (ix3 (0 : Fin 2) a k) := by
  show X (r2_0.idx (ix3 u a k)) = X (ix3 (0 : Fin 2) a k)
  congr 1
  funext ax
  apply Fin.ext
  have hu : u.val = 0 := by omega
  match ax with
  | ⟨0, _⟩ => show 0 + 1 * u.val = 0; omega
  | ⟨1, _⟩ => show 0 + 1 * a.val = a.val; omega
  | ⟨2, _⟩ => show 0 + 1 * k.val = k.val; omega

/-- The second load reads the slab at offset 1 of the leading axis: its entry (0, a, k) is the block's entry (1, a, k). -/
theorem second_half_apply (X : Vec Ideal S2x256x256 .f32) (u : Fin 1) (a k : Fin 256) :
    View.ld X r2_1 (ix3 u a k) = X (ix3 (1 : Fin 2) a k) := by
  show X (r2_1.idx (ix3 u a k)) = X (ix3 (1 : Fin 2) a k)
  congr 1
  funext ax
  apply Fin.ext
  have hu : u.val = 0 := by omega
  match ax with
  | ⟨0, _⟩ => show 1 + 1 * u.val = 1; omega
  | ⟨1, _⟩ => show 0 + 1 * a.val = a.val; omega
  | ⟨2, _⟩ => show 0 + 1 * k.val = k.val; omega

/-- With the three blocks the whole arrays P, L and l, the block the body computes is the dense layer of them: its
    entry x depends on row x 0 of both halves of P, on row x 1 of L and on entry x 1 of l. -/
theorem entry_of_blocks (P : S2x256x256.Idx → EReal) (L : S256x256.Idx → EReal) (l : S1x256.Idx → EReal)
    (x0 : Vec Ideal S2x256x256 .f32) (x1 : Vec Ideal S256x256 .f32) (x2 : Vec Ideal S1x256 .f32)
    (hP : ∀ y : S2x256x256.Idx, x0 y = P y) (hL : ∀ y : S256x256.Idx, x1 y = L y) (hl : ∀ y : S1x256.Idx, x2 y = l y)
    (x i : S256x256.Idx) (h0 : (i 0).val = (x 0).val) (h1 : (i 1).val = (x 1).val) :
    k2_pay1 (F := Ideal) (View.ld x0 r2_0) (View.ld x0 r2_1) x1 x2 x = Cert.Hyper.finalDense P L l i := by
  obtain rfl : i = x := funext fun ax => Fin.ext (by match ax with | ⟨0, _⟩ => exact h0 | ⟨1, _⟩ => exact h1)
  obtain ⟨a, b, rfl⟩ : ∃ (a : Fin 256) (b : Fin 256), i = ix2 a b := ⟨i 0, i 1, eq_ix2 i⟩
  rw [DensePayload.payload_entry]
  show Cert.Hyper.leaky _
    = Cert.Hyper.leaky ((∑ k : Fin 256, (P (ix3 0 a k) + P (ix3 1 a k)) * L (ix2 b k)) + l (ix2 0 b))
  refine congrArg Cert.Hyper.leaky ?_
  rw [hl (ix2 (0 : Fin 1) b)]
  congr 1
  refine Finset.sum_congr rfl fun k _ => ?_
  rw [first_half_apply, second_half_apply, hP, hP, hL]

/-! ## The blocks of the one grid point -/

/-- Every window's block index at the one point is the origin. -/
theorem block_indices : ∀ t : Fin cfg2.N,
    win2_0.index t (0 : Fin 3) = 0 ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- The first window's block is the whole 2×256×256 array of the two halves. -/
theorem halves_block_apply (c : Dev nD) (t : Fin cfg2.N) (x : S2x256x256.Idx) :
    (iblk2 V c 0 t : Vec Ideal S2x256x256 .f32) x = (V c main_v45 : S2x256x256.Idx → Elt Ideal .f32) x := by
  obtain ⟨e0, e1, e2, -⟩ := block_indices t
  unfold iblk2
  rw [View.read_apply]
  show V c main_v45 _ = V c main_v45 _
  congr 1
  funext a
  apply Fin.ext
  match a with
  | ⟨0, _⟩ => show win2_0.index t (0 : Fin 3) * 2 + 1 * (x 0).val = (x 0).val; rw [e0]; omega
  | ⟨1, _⟩ => show win2_0.index t (1 : Fin 3) * 256 + 1 * (x 1).val = (x 1).val; rw [e1]; omega
  | ⟨2, _⟩ => show win2_0.index t (2 : Fin 3) * 256 + 1 * (x 2).val = (x 2).val; rw [e2]; omega

/-- The second window's block is the whole matrix L. -/
theorem matrix_block_apply (c : Dev nD) (t : Fin cfg2.N) (x : S256x256.Idx) :
    (iblk2 V c 1 t : Vec Ideal S256x256 .f32) x = (V c main_arg3 : S256x256.Idx → Elt Ideal .f32) x := by
  obtain ⟨-, -, -, e0, e1, -⟩ := block_indices t
  unfold iblk2
  rw [View.read_apply]
  show V c main_arg3 _ = V c main_arg3 _
  congr 1
  funext a
  apply Fin.ext
  match a with
  | ⟨0, _⟩ => show win2_1.index t (0 : Fin 2) * 256 + 1 * (x 0).val = (x 0).val; rw [e0]; omega
  | ⟨1, _⟩ => show win2_1.index t (1 : Fin 2) * 256 + 1 * (x 1).val = (x 1).val; rw [e1]; omega

/-- The third window's block is the whole row l. -/
theorem row_block_apply (c : Dev nD) (t : Fin cfg2.N) (x : S1x256.Idx) :
    (iblk2 V c 2 t : Vec Ideal S1x256 .f32) x = (V c main_v46 : S1x256.Idx → Elt Ideal .f32) x := by
  obtain ⟨-, -, -, -, -, e0, e1, -⟩ := block_indices t
  unfold iblk2
  rw [View.read_apply]
  show V c main_v46 _ = V c main_v46 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 256 + 1 * (x 1).val = (x 1).val; rw [e1]; omega

/-- What the one point writes back is the result window's block read off the dense layer of the arrays as the
    region finds them: the body's one store fills its staging buffer with the computed block, and the block sits at
    the origin of the result. -/
theorem flushed_eq (c : Dev nD) (t : Fin cfg2.N) :
    (dat2 (F := Ideal) V c).flushed 3 t
      = ((cfg2.win 3).blk t).view.read (Elt Ideal)
          (Cert.Hyper.finalDense (V c main_v45) (V c main_arg3) (V c main_v46)) := by
  show (cfg2.win 3).cut (grid2.coords t) ((dat2 V c).after 3 t) = _
  rw [after2_3]
  unfold out2_3
  rw [View.canon_unit_zero zero_offsets]
  simp only [View.ld_unit_zero (S := S256x256) zero_offsets, View.ld_unit_zero (S := S1x256) zero_offsets]
  obtain ⟨-, -, -, -, -, -, -, e0, e1⟩ := block_indices t
  funext j
  rw [View.read_apply]
  refine entry_of_blocks (V c main_v45) (V c main_arg3) (V c main_v46) (iblk2 V c 0 t) (iblk2 V c 1 t) (iblk2 V c 2 t)
    (halves_block_apply V c t) (matrix_block_apply V c t) (row_block_apply V c t) _ _ ?_ ?_
  · show win2_3.index t (0 : Fin 2) * 256 + 1 * (j 0).val = (j 0).val
    rw [e0]; omega
  · show win2_3.index t (1 : Fin 2) * 256 + 1 * (j 1).val = (j 1).val
    rw [e1]; omega

end Cert.KernelIdeal.DenseBlocks

end
-- ==== Proof.DenseValue.lean ====
/-
  The last dense layer's result array after its one grid point.

  The point's block is the whole 256×256 result and the point writes it back, so the result ends holding what the
  point computed: leaky ((P₀ + P₁) Lᵀ + l) of the two halves P₀, P₁, the matrix L and the row l the region is entered
  with.
-/
import proofs.«176856_j40638980555154_2_alg».proof.Proof.Gen.KernelIdeal.Frame
import proofs.«176856_j40638980555154_2_alg».proof.Proof.Spec
import proofs.«176856_j40638980555154_2_alg».proof.Proof.DenseBlocks
import Idealize.ShloMosaic.Lib.Pipeline.Value

set_option maxRecDepth 16384

noncomputable section

open scoped BigOperators

namespace Cert.KernelIdeal.DenseValue

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- An entry of the result is in the point's block exactly when, on each axis, its coordinate lies in the block's
    range: from block index × extent, for one extent. -/
theorem mem_block (t : Fin cfg2.N) (i : S256x256.Idx) :
    i ∈ ((cfg2.win 3).blk t).view.set
      ↔ ∀ a : Fin 2, win2_3.index t a * S256x256.size a ≤ (i a).val
          ∧ (i a).val < win2_3.index t a * S256x256.size a + S256x256.size a := by
  show i ∈ ((View.whole main_v47).slice (win2_3.rect t)).set ↔ _
  rw [View.set_slice_whole, Rect.mem_set_unit]
  exact Iff.rfl

/-- The one point's block is the whole result, and the point writes back. -/
theorem covered (i : S256x256.Idx) :
    ∃ t : Fin cfg2.N, (cfg2.win 3).flush t = true ∧ i ∈ ((cfg2.win 3).blk t).view.set := by
  have hi0 : (i 0).val < 256 := (i 0).isLt
  have hi1 : (i 1).val < 256 := (i 1).isLt
  refine ⟨⟨0, by show 0 < 1; omega⟩, flush2_3 _, ?_⟩
  rw [mem_block]
  obtain ⟨-, -, -, -, -, -, -, e0, e1⟩ := DenseBlocks.block_indices ⟨0, by show 0 < 1; omega⟩
  intro a
  match a with
  | ⟨0, _⟩ =>
    show win2_3.index _ (0 : Fin 2) * 256 ≤ (i 0).val ∧ (i 0).val < win2_3.index _ (0 : Fin 2) * 256 + 256
    rw [e0]; omega
  | ⟨1, _⟩ =>
    show win2_3.index _ (1 : Fin 2) * 256 ≤ (i 1).val ∧ (i 1).val < win2_3.index _ (1 : Fin 2) * 256 + 256
    rw [e1]; omega

/-- The result array after the region is the last dense layer of the two halves, the matrix and the row the region
    is entered with. -/
theorem region2_value (c : Dev nD) :
    (dat2 (F := Ideal) V c).arrAt 3 cfg2.N
      = Cert.Hyper.finalDense (V c main_v45) (V c main_arg3) (V c main_v46) :=
  (dat2 (F := Ideal) V c).arrAt_eq_of_cover 3 (Cert.Hyper.finalDense (V c main_v45) (V c main_arg3) (V c main_v46))
    (fun t _ => DenseBlocks.flushed_eq V c t) covered

end Cert.KernelIdeal.DenseValue

end
-- ==== Proof.KerHost.lean ====
/-
  The kernel program's result as one function of its six arguments.

  Between the launch and the return the buffers pass ten boundaries: five stretches of host operations, the first
  region, one stretch, the second region, one operation, the third region. Reading them in order from the launch
  contents: the first region is entered with the node rows aggregated over the hyperedges, the weight matrix and the
  reciprocal hyperedge degrees as a column, and leaves their edge projection; the stretch after it aggregates that
  projection over the nodes and casts the bias to a row, the reciprocal node degrees having stayed where the third
  stretch left them; the second region leaves the two half Gram matrices of the activation; the last operation casts
  the last bias to a row; the third region leaves the dense layer of the two halves. A vector cast to a column
  [n] → [n, 1] reads the vector at the row, and cast to a row [n] → [1, n] the vector at the column. Composed, the
  result buffer holds the layer as the three kernels compute it.
-/
import proofs.«176856_j40638980555154_2_alg».proof.Proof.Gen.KernelIdeal.Frame
import proofs.«176856_j40638980555154_2_alg».proof.Proof.Spec
import proofs.«176856_j40638980555154_2_alg».proof.Proof.LibKeepdims
import proofs.«176856_j40638980555154_2_alg».proof.Proof.HostEntry
import proofs.«176856_j40638980555154_2_alg».proof.Proof.HostBetween
import proofs.«176856_j40638980555154_2_alg».proof.Proof.EdgeValue
import proofs.«176856_j40638980555154_2_alg».proof.Proof.GramValue
import proofs.«176856_j40638980555154_2_alg».proof.Proof.DenseValue
import Idealize.ShloMosaic.Lib.ValueLayout

set_option maxRecDepth 16384

noncomputable section

namespace Cert.KernelIdeal.KerHost

open Idealize.ShloMosaic Idealize.ShloMosaic.TcCoe Idealize.SL.Sem Idealize.ShloMosaic.StableHlo
open Idealize.ShloMosaic.ValueIdx
open Cert.KernelIdeal Cert.KernelIdeal.Gen

set_option quotPrecheck false in
local notation "⟪" b "⟫" => (Proc.devRef Proc.tc b : DevRef τ sig)

/-! ## A vector as a column and as a row -/

/-- A vector cast to a column is the vector read at the row. -/
theorem column_eq_asCol {n : Nat} (v : (⟨1, ![n]⟩ : Shape).Idx → EReal)
    (h : (⟨1, ![n]⟩ : Shape).ShapeCasts ⟨2, ![n, 1]⟩) : shapeCast ⟨2, ![n, 1]⟩ v h = Cert.Hyper.asCol v := by
  funext j
  obtain ⟨i, u, rfl⟩ : ∃ (i : Fin n) (u : Fin 1), j = ix2 i u := ⟨j 0, j 1, eq_ix2 j⟩
  exact Keepdims.shapeCast_a_a1_apply v h i u

/-- A vector cast to a row is the vector read at the column. -/
theorem row_eq_asRow {n : Nat} (v : (⟨1, ![n]⟩ : Shape).Idx → EReal)
    (h : (⟨1, ![n]⟩ : Shape).ShapeCasts ⟨2, ![1, n]⟩) : shapeCast ⟨2, ![1, n]⟩ v h = Cert.Hyper.asRow v := by
  funext j
  obtain ⟨u, i, rfl⟩ : ∃ (u : Fin 1) (i : Fin n), j = ix2 u i := ⟨j 0, j 1, eq_ix2 j⟩
  exact shapeCast_a_1a_apply v h u i

variable (m : (ℓ : Loc nD τ sig) → Buf (Elt Ideal) ℓ) (ρ : Dev nD → PrngReg)

/-! ## The first region -/

/-- The first region is entered with the aggregated table, the weight matrix and the hyperedge column, -/
theorem entry0_table (c : Dev nD) :
    V5 m ρ c main_v32 = Cert.Hyper.aggE (W0 m ρ c ⟪main_arg5⟫) (W0 m ρ c ⟪main_arg0⟫) :=
  HostEntry.entry_table (W0 m ρ c)
theorem entry0_weights (c : Dev nD) : V5 m ρ c main_arg1 = W0 m ρ c ⟪main_arg1⟫ :=
  HostEntry.entry_arg1 (W0 m ρ c)
theorem entry0_column (c : Dev nD) :
    V5 m ρ c main_v22 = Cert.Hyper.asCol (Cert.Hyper.invDegE (W0 m ρ c ⟪main_arg5⟫)) :=
  (HostEntry.entry_edgeColumn (W0 m ρ c)).trans (column_eq_asCol _ _)

/-- and leaves their edge projection in its result buffer. -/
theorem exit0 (c : Dev nD) :
    W6 m ρ c ⟪main_v33⟫
      = Cert.Hyper.edgeProject (Cert.Hyper.aggE (W0 m ρ c ⟪main_arg5⟫) (W0 m ρ c ⟪main_arg0⟫)) (W0 m ρ c ⟪main_arg1⟫)
          (Cert.Hyper.asCol (Cert.Hyper.invDegE (W0 m ρ c ⟪main_arg5⟫))) := by
  have h := (W6_arr m ρ c 3).trans (EdgeValue.region0_value (V5 m ρ) c)
  rw [entry0_table m ρ c, entry0_weights m ρ c, entry0_column m ρ c] at h
  exact h

/-! ## The second region -/

/-- The word vectors are no array of the first region: it leaves them as it found them. -/
theorem nodeWords6 (c : Dev nD) : W6 m ρ c ⟪main_v1⟫ = Cert.Hyper.nodeW (W0 m ρ c ⟪main_arg5⟫) :=
  (W6_of_ne m ρ c main_v1 (by decide)).trans (HostEntry.entry_nodeWords (W0 m ρ c))
theorem edgeWords6 (c : Dev nD) : W6 m ρ c ⟪main_v3⟫ = Cert.Hyper.edgeW (W0 m ρ c ⟪main_arg5⟫) :=
  (W6_of_ne m ρ c main_v3 (by decide)).trans (HostEntry.entry_edgeWords (W0 m ρ c))

/-- The second region is entered with the projection aggregated over the nodes, the node column and the bias row, -/
theorem entry1_table (c : Dev nD) :
    V7 m ρ c main_v43
      = Cert.Hyper.aggN (W0 m ρ c ⟪main_arg5⟫)
          (Cert.Hyper.edgeProject (Cert.Hyper.aggE (W0 m ρ c ⟪main_arg5⟫) (W0 m ρ c ⟪main_arg0⟫)) (W0 m ρ c ⟪main_arg1⟫)
            (Cert.Hyper.asCol (Cert.Hyper.invDegE (W0 m ρ c ⟪main_arg5⟫)))) := by
  have h := HostBetween.aggN_table (W6 m ρ c) (W0 m ρ c ⟪main_arg5⟫) (nodeWords6 m ρ c) (edgeWords6 m ρ c)
  rw [exit0 m ρ c] at h
  exact h
theorem entry1_column (c : Dev nD) :
    V7 m ρ c main_v13 = Cert.Hyper.asCol (Cert.Hyper.invDegN (W0 m ρ c ⟪main_arg5⟫)) :=
  (HostBetween.aggN_kept (W6 m ρ c) (by decide)).trans ((W6_of_ne m ρ c main_v13 (by decide)).trans
    ((HostEntry.entry_nodeColumn (W0 m ρ c)).trans (column_eq_asCol _ _)))
theorem entry1_bias (c : Dev nD) : V7 m ρ c main_v44 = Cert.Hyper.asRow (W0 m ρ c ⟪main_arg2⟫) := by
  have h := HostBetween.aggN_biasRow (W6 m ρ c)
  rw [(W6_of_ne m ρ c main_arg2 (by decide)).trans (HostEntry.entry_arg2 (W0 m ρ c))] at h
  exact h.trans (row_eq_asRow _ _)

/-- and leaves the two half Gram matrices of the activation in its result buffer. -/
theorem exit1 (c : Dev nD) :
    W8 m ρ c ⟪main_v45⟫
      = Cert.Hyper.gramHalves
          (Cert.Hyper.aggN (W0 m ρ c ⟪main_arg5⟫)
            (Cert.Hyper.edgeProject (Cert.Hyper.aggE (W0 m ρ c ⟪main_arg5⟫) (W0 m ρ c ⟪main_arg0⟫)) (W0 m ρ c ⟪main_arg1⟫)
              (Cert.Hyper.asCol (Cert.Hyper.invDegE (W0 m ρ c ⟪main_arg5⟫)))))
          (Cert.Hyper.asCol (Cert.Hyper.invDegN (W0 m ρ c ⟪main_arg5⟫))) (Cert.Hyper.asRow (W0 m ρ c ⟪main_arg2⟫)) := by
  have h := (W8_arr m ρ c 3).trans (GramValue.region1_value (V7 m ρ) c)
  rw [entry1_table m ρ c, entry1_column m ρ c, entry1_bias m ρ c] at h
  exact h

/-! ## The third region -/

/-- The last matrix and the last bias reach the third region as launched. -/
theorem lastMatrix8 (c : Dev nD) : W8 m ρ c ⟪main_arg3⟫ = W0 m ρ c ⟪main_arg3⟫ :=
  (W8_of_ne m ρ c main_arg3 (by decide)).trans ((HostBetween.aggN_kept (W6 m ρ c) (by decide)).trans
    ((W6_of_ne m ρ c main_arg3 (by decide)).trans (HostEntry.entry_arg3 (W0 m ρ c))))
theorem lastBias8 (c : Dev nD) : W8 m ρ c ⟪main_arg4⟫ = W0 m ρ c ⟪main_arg4⟫ :=
  (W8_of_ne m ρ c main_arg4 (by decide)).trans ((HostBetween.aggN_kept (W6 m ρ c) (by decide)).trans
    ((W6_of_ne m ρ c main_arg4 (by decide)).trans (HostEntry.entry_arg4 (W0 m ρ c))))

/-- The third region is entered with the two halves, the last matrix and the last bias row. -/
theorem entry2_halves (c : Dev nD) : V9 m ρ c main_v45 = W8 m ρ c ⟪main_v45⟫ :=
  HostBetween.lastRow_kept (W8 m ρ c) (by decide)
theorem entry2_matrix (c : Dev nD) : V9 m ρ c main_arg3 = W0 m ρ c ⟪main_arg3⟫ :=
  (HostBetween.lastRow_kept (W8 m ρ c) (by decide)).trans (lastMatrix8 m ρ c)
theorem entry2_bias (c : Dev nD) : V9 m ρ c main_v46 = Cert.Hyper.asRow (W0 m ρ c ⟪main_arg4⟫) := by
  have h := HostBetween.lastRow_value (W8 m ρ c)
  rw [lastBias8 m ρ c] at h
  exact h.trans (row_eq_asRow _ _)

/-! ## The result -/

/-- The result buffer after the third region is the layer as the three kernels compute it, of the six arguments
    as launched. -/
theorem kernel_value (c : Dev nD) :
    W10 m ρ c (Proc.devRef .tc main_v47)
      = Cert.Hyper.kerMath (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  have h := (W10_arr m ρ c 3).trans (DenseValue.region2_value (V9 m ρ) c)
  rw [entry2_halves m ρ c, exit1 m ρ c, entry2_matrix m ρ c, entry2_bias m ρ c] at h
  exact h

end Cert.KernelIdeal.KerHost

end
-- ==== Proof.RefOps.lean ====
/-
  The reference program read as one straight line of tensor operations.

  Its entry function calls four helpers: two selections of a reciprocal degree against a scalar zero, and two
  leaky rectifiers (a comparison with zero, the slope times the operand, and a selection between the operand and
  that product). Substituting each helper's body at its call site leaves ninety-four operations, each writing one
  buffer of its own; run in order from any memory they terminate, and every buffer then holds the fold of the
  operations over the launch contents.
-/
import proofs.«176856_j40638980555154_2_alg».proof.Proof.Gen.ReferenceIdeal
import Idealize.ShloMosaic.Lib.StableHlo.Run

noncomputable section

namespace Cert.ReferenceIdeal.RefOps

open Cert.ReferenceIdeal Cert.ReferenceIdeal.Facts₀ Idealize.ShloMosaic Idealize.ShloMosaic.TcCoe Idealize.SL.Sem Idealize.ShloMosaic.StableHlo

variable {F : FTy → Type} [FloatOps F]

/-- The entry function's operations in order, each helper's operations written where it is called: the two
    degree selections are three operations each (the scalar zero at its own type, its broadcast, the selection),
    the two rectifiers seven each (zero, its broadcast, the comparison, the slope at its own type, its broadcast,
    the product, the selection). -/
abbrev ops : List (HloOp τ sig (Elt F)) :=
  [ StableHlo.unary main_arg5 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg5 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg1 main_v4 ((transpose S256x256 [1, 0] · transposes_S256x256_S256x256_1_0) : (⟨S256x256, .f32⟩ : BufTy).Contents (Elt F) → (⟨S256x256, .f32⟩ : BufTy).Contents (Elt F)),
    StableHlo.binary main_arg0 main_v4 main_v5 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_cst (constant S_ .f32 0x3F800000#32),
    StableHlo.unary main_cst main_v6 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v7 (broadcastInDim S50000 ![] bcast_S_S50000 : (⟨S_, .f32⟩ : BufTy).Contents (Elt F) → (⟨S50000, .f32⟩ : BufTy).Contents (Elt F)),
    StableHlo.unary main_v1 main_v8 (broadcastInDim S800000x1 ![0] bcast_S800000_S800000x1_0 : (⟨S800000, .i32⟩ : BufTy).Contents (Elt F) → (⟨S800000x1, .i32⟩ : BufTy).Contents (Elt F)),
    StableHlo.ternary main_v7 main_v8 main_v6 main_v9 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v10 (broadcastInDim S50000 ![] bcast_S_S50000 : (⟨S_, .f32⟩ : BufTy).Contents (Elt F) → (⟨S50000, .f32⟩ : BufTy).Contents (Elt F)),
    StableHlo.binary main_v9 main_v10 main_v11 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v12 (broadcastInDim S50000 ![] bcast_S_S50000 : (⟨S_, .f32⟩ : BufTy).Contents (Elt F) → (⟨S50000, .f32⟩ : BufTy).Contents (Elt F)),
    StableHlo.binary main_v12 main_v9 main_v13 (Host.divf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32),
    TRef.unary (.of main_cst_3 : TRef sig ⟨S_, .f32⟩) main_call0.v0 id,
    TRef.unary main_call0.v0 main_call0.v1 (broadcastInDim S50000 ![] bcast_S_S50000),
    TRef.ternary (.of main_v11 : TRef sig ⟨S50000, .i1⟩) (.of main_v13 : TRef sig ⟨S50000, .f32⟩) main_call0.v1 main_call0.v2 select,
    StableHlo.nullary main_cst_4 (constant S_ .f32 0x00000000#32),
    StableHlo.unary main_cst_4 main_v15 (broadcastInDim S10000 ![] bcast_S_S10000 : (⟨S_, .f32⟩ : BufTy).Contents (Elt F) → (⟨S10000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v6 main_v17 ((fun x i u => Host.scatterAdd scatter_S10000_S800000x1_S800000_n_0_0_1 x i u) : (⟨S10000, .f32⟩ : BufTy).Contents (Elt F) → (⟨S800000x1, .i32⟩ : BufTy).Contents (Elt F) → (⟨S800000, .f32⟩ : BufTy).Contents (Elt F) → (⟨S10000, .f32⟩ : BufTy).Contents (Elt F)),
    StableHlo.nullary main_cst_5 (constant S_ .f32 0x00000000#32),
    StableHlo.unary main_cst_5 main_v18 (broadcastInDim S10000 ![] bcast_S_S10000 : (⟨S_, .f32⟩ : BufTy).Contents (Elt F) → (⟨S10000, .f32⟩ : BufTy).Contents (Elt F)),
    StableHlo.binary main_v17 main_v18 main_v19 (cmpf .ogt : (⟨S10000, .f32⟩ : BufTy).Contents (Elt F) → (⟨S10000, .f32⟩ : BufTy).Contents (Elt F) → (⟨S10000, .i1⟩ : BufTy).Contents (Elt F)),
    StableHlo.nullary main_cst_6 (constant S_ .f32 0x3F800000#32),
    StableHlo.unary main_cst_6 main_v20 (broadcastInDim S10000 ![] bcast_S_S10000 : (⟨S_, .f32⟩ : BufTy).Contents (Elt F) → (⟨S10000, .f32⟩ : BufTy).Contents (Elt F)),
    StableHlo.binary main_v20 main_v17 main_v21 (Host.divf : (⟨S10000, .f32⟩ : BufTy).Contents (Elt F) → (⟨S10000, .f32⟩ : BufTy).Contents (Elt F) → (⟨S10000, .f32⟩ : BufTy).Contents (Elt F)),
    StableHlo.nullary main_cst_7 (constant S_ .f32 0x00000000#32),
    TRef.unary (.of main_cst_7 : TRef sig ⟨S_, .f32⟩) main_call1.v0 id,
    TRef.unary main_call1.v0 main_call1.v1 (broadcastInDim S10000 ![] bcast_S_S10000),
    TRef.ternary (.of main_v19 : TRef sig ⟨S10000, .i1⟩) (.of main_v21 : TRef sig ⟨S10000, .f32⟩) main_call1.v1 main_call1.v2 select,
    StableHlo.nullary main_c (constantI S_ 32 0#32),
    StableHlo.unary main_c main_v23 (broadcastInDim S800000 ![] bcast_S_S800000 : (⟨S_, .i32⟩ : BufTy).Contents (Elt F) → (⟨S800000, .i32⟩ : BufTy).Contents (Elt F)),
    StableHlo.binary main_v1 main_v23 main_v24 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v25 (broadcastInDim S800000 ![] bcast_S_S800000 : (⟨S_, .i32⟩ : BufTy).Contents (Elt F) → (⟨S800000, .i32⟩ : BufTy).Contents (Elt F)),
    StableHlo.binary main_v1 main_v25 main_v26 (addi : (⟨S800000, .i32⟩ : BufTy).Contents (Elt F) → (⟨S800000, .i32⟩ : BufTy).Contents (Elt F) → (⟨S800000, .i32⟩ : BufTy).Contents (Elt F)),
    StableHlo.ternary main_v24 main_v26 main_v1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v27 main_v28 (broadcastInDim S800000x1 ![0] bcast_S800000_S800000x1_0 : (⟨S800000, .i32⟩ : BufTy).Contents (Elt F) → (⟨S800000x1, .i32⟩ : BufTy).Contents (Elt F)),
    StableHlo.binary main_v5 main_v28 main_v29 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_9 (constant S_ .f32 0x00000000#32),
    StableHlo.unary main_cst_9 main_v30 (broadcastInDim S10000x256 ![] bcast_S_S10000x256 : (⟨S_, .f32⟩ : BufTy).Contents (Elt F) → (⟨S10000x256, .f32⟩ : BufTy).Contents (Elt F)),
    StableHlo.unary main_v3 main_v31 (broadcastInDim S800000x1 ![0] bcast_S800000_S800000x1_0 : (⟨S800000, .i32⟩ : BufTy).Contents (Elt F) → (⟨S800000x1, .i32⟩ : BufTy).Contents (Elt F)),
    StableHlo.ternary main_v30 main_v31 main_v29 main_v32 ((fun x i u => Host.scatterAdd scatter_S10000x256_S800000x1_S800000x256_1_0_0_1 x i u) : (⟨S10000x256, .f32⟩ : BufTy).Contents (Elt F) → (⟨S800000x1, .i32⟩ : BufTy).Contents (Elt F) → (⟨S800000x256, .f32⟩ : BufTy).Contents (Elt F) → (⟨S10000x256, .f32⟩ : BufTy).Contents (Elt F)),
    StableHlo.unary main_v22 main_v33 (broadcastInDim S10000x1 ![0] bcast_S10000_S10000x1_0 : (⟨S10000, .f32⟩ : BufTy).Contents (Elt F) → (⟨S10000x1, .f32⟩ : BufTy).Contents (Elt F)),
    StableHlo.unary main_v33 main_v34 (broadcastInDim S10000x256 ![0, 1] bcast_S10000x1_S10000x256_0_1 : (⟨S10000x1, .f32⟩ : BufTy).Contents (Elt F) → (⟨S10000x256, .f32⟩ : BufTy).Contents (Elt F)),
    StableHlo.binary main_v32 main_v34 main_v35 (mulf : (⟨S10000x256, .f32⟩ : BufTy).Contents (Elt F) → (⟨S10000x256, .f32⟩ : BufTy).Contents (Elt F) → (⟨S10000x256, .f32⟩ : BufTy).Contents (Elt F)),
    StableHlo.nullary main_c_10 (constantI S_ 32 0#32),
    StableHlo.unary main_c_10 main_v36 (broadcastInDim S800000 ![] bcast_S_S800000 : (⟨S_, .i32⟩ : BufTy).Contents (Elt F) → (⟨S800000, .i32⟩ : BufTy).Contents (Elt F)),
    StableHlo.binary main_v3 main_v36 main_v37 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 10000#32),
    StableHlo.unary main_c_11 main_v38 (broadcastInDim S800000 ![] bcast_S_S800000 : (⟨S_, .i32⟩ : BufTy).Contents (Elt F) → (⟨S800000, .i32⟩ : BufTy).Contents (Elt F)),
    StableHlo.binary main_v3 main_v38 main_v39 (addi : (⟨S800000, .i32⟩ : BufTy).Contents (Elt F) → (⟨S800000, .i32⟩ : BufTy).Contents (Elt F) → (⟨S800000, .i32⟩ : BufTy).Contents (Elt F)),
    StableHlo.ternary main_v37 main_v39 main_v3 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v40 main_v41 (broadcastInDim S800000x1 ![0] bcast_S800000_S800000x1_0 : (⟨S800000, .i32⟩ : BufTy).Contents (Elt F) → (⟨S800000x1, .i32⟩ : BufTy).Contents (Elt F)),
    StableHlo.binary main_v35 main_v41 main_v42 ((fun x i => Host.gather gather_S10000x256_S800000x1_S800000x256_1_0_n_n_0_1_1256 x i) : (⟨S10000x256, .f32⟩ : BufTy).Contents (Elt F) → (⟨S800000x1, .i32⟩ : BufTy).Contents (Elt F) → (⟨S800000x256, .f32⟩ : BufTy).Contents (Elt F)),
    StableHlo.nullary main_cst_12 (constant S_ .f32 0x00000000#32),
    StableHlo.unary main_cst_12 main_v43 (broadcastInDim S50000x256 ![] bcast_S_S50000x256 : (⟨S_, .f32⟩ : BufTy).Contents (Elt F) → (⟨S50000x256, .f32⟩ : BufTy).Contents (Elt F)),
    StableHlo.unary main_v1 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v14 main_v46 (broadcastInDim S50000x1 ![0] bcast_S50000_S50000x1_0 : (⟨S50000, .f32⟩ : BufTy).Contents (Elt F) → (⟨S50000x1, .f32⟩ : BufTy).Contents (Elt F)),
    StableHlo.unary main_v46 main_v47 (broadcastInDim S50000x256 ![0, 1] bcast_S50000x1_S50000x256_0_1 : (⟨S50000x1, .f32⟩ : BufTy).Contents (Elt F) → (⟨S50000x256, .f32⟩ : BufTy).Contents (Elt F)),
    StableHlo.binary main_v45 main_v47 main_v48 (mulf : (⟨S50000x256, .f32⟩ : BufTy).Contents (Elt F) → (⟨S50000x256, .f32⟩ : BufTy).Contents (Elt F) → (⟨S50000x256, .f32⟩ : BufTy).Contents (Elt F)),
    StableHlo.unary main_arg2 main_v49 (broadcastInDim S1x256 ![1] bcast_S256_S1x256_1 : (⟨S256, .f32⟩ : BufTy).Contents (Elt F) → (⟨S1x256, .f32⟩ : BufTy).Contents (Elt F)),
    StableHlo.unary main_v49 main_v50 (broadcastInDim S50000x256 ![0, 1] bcast_S1x256_S50000x256_0_1 : (⟨S1x256, .f32⟩ : BufTy).Contents (Elt F) → (⟨S50000x256, .f32⟩ : BufTy).Contents (Elt F)),
    StableHlo.binary main_v48 main_v50 main_v51 (addf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3C23D70A#32),
    TRef.nullary main_call2.cst (constant S_ .f32 0x00000000#32),
    TRef.unary main_call2.cst main_call2.v0 (broadcastInDim S50000x256 ![] bcast_S_S50000x256),
    TRef.binary (.of main_v51 : TRef sig ⟨S50000x256, .f32⟩) main_call2.v0 main_call2.v1 (cmpf .oge),
    TRef.unary (.of main_cst_13 : TRef sig ⟨S_, .f32⟩) main_call2.v2 id,
    TRef.unary main_call2.v2 main_call2.v3 (broadcastInDim S50000x256 ![] bcast_S_S50000x256),
    TRef.binary main_call2.v3 (.of main_v51 : TRef sig ⟨S50000x256, .f32⟩) main_call2.v4 mulf,
    TRef.ternary main_call2.v1 (.of main_v51 : TRef sig ⟨S50000x256, .f32⟩) main_call2.v4 main_call2.call0.v0 select,
    StableHlo.unary main_v52 main_v53 ((transpose S256x50000 [1, 0] · transposes_S50000x256_S256x50000_1_0) : (⟨S50000x256, .f32⟩ : BufTy).Contents (Elt F) → (⟨S256x50000, .f32⟩ : BufTy).Contents (Elt F)),
    StableHlo.binary main_v53 main_v52 main_v54 ((fun l r => Host.dotGeneral dot_S256x50000_S50000x256_S256x256_1_0_0_1_n_n none l r) : (⟨S256x50000, .f32⟩ : BufTy).Contents (Elt F) → (⟨S50000x256, .f32⟩ : BufTy).Contents (Elt F) → (⟨S256x256, .f32⟩ : BufTy).Contents (Elt F)),
    StableHlo.unary main_arg3 main_v55 ((transpose S256x256 [1, 0] · transposes_S256x256_S256x256_1_0) : (⟨S256x256, .f32⟩ : BufTy).Contents (Elt F) → (⟨S256x256, .f32⟩ : BufTy).Contents (Elt F)),
    StableHlo.binary main_v54 main_v55 main_v56 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    StableHlo.unary main_arg4 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S256x256 ![0, 1] bcast_S1x256_S256x256_0_1 : (⟨S1x256, .f32⟩ : BufTy).Contents (Elt F) → (⟨S256x256, .f32⟩ : BufTy).Contents (Elt F)),
    StableHlo.binary main_v56 main_v58 main_v59 (addf : (⟨S256x256, .f32⟩ : BufTy).Contents (Elt F) → (⟨S256x256, .f32⟩ : BufTy).Contents (Elt F) → (⟨S256x256, .f32⟩ : BufTy).Contents (Elt F)),
    StableHlo.nullary main_cst_14 (constant S_ .f32 0x3C23D70A#32),
    TRef.nullary main_call3.cst (constant S_ .f32 0x00000000#32),
    TRef.unary main_call3.cst main_call3.v0 (broadcastInDim S256x256 ![] bcast_S_S256x256),
    TRef.binary (.of main_v59 : TRef sig ⟨S256x256, .f32⟩) main_call3.v0 main_call3.v1 (cmpf .oge),
    TRef.unary (.of main_cst_14 : TRef sig ⟨S_, .f32⟩) main_call3.v2 id,
    TRef.unary main_call3.v2 main_call3.v3 (broadcastInDim S256x256 ![] bcast_S_S256x256),
    TRef.binary main_call3.v3 (.of main_v59 : TRef sig ⟨S256x256, .f32⟩) main_call3.v4 mulf,
    TRef.ternary main_call3.v1 (.of main_v59 : TRef sig ⟨S256x256, .f32⟩) main_call3.v4 main_call3.call0.v0 select ]

set_option maxRecDepth 4096 in
set_option maxHeartbeats 4000000 in
/-- The entry function is that straight line: with the helpers' definitions unfolded at their calls, both sides
    are one chain of steps once the sequencing is re-associated. -/
theorem main_eq (c : Dev nD) : main (F := F) c = seq ops := by
  simp only [main, main_part0, main_part1, fn_where.body, fn_where_0.body, fn_where_1.body, fn_leaky_relu.body,
    fn_where_3.body, fn_leaky_relu_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- From any memory with zero counters every weakly fair execution of the entry function terminates, and every
    buffer then holds the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefOps

end
-- ==== Proof.RefSegs.lean ====
/-
  The straight line of the reference program cut into nine consecutive pieces, and what each piece leaves
  untouched.

  The pieces alternate between stretches of the entry function's own operations and the operations of one helper
  written at its call: the incidence words, the first product and the node degrees; the selection of the reciprocal
  node degree; the hyperedge degrees; the selection of the reciprocal hyperedge degree; the two aggregations with
  their scalings; the bias; the rectifier; the two last products and the last bias; the last rectifier. Running the
  whole line is running the pieces in order, and a buffer no operation of a piece writes is the same before and after
  the piece.
-/
import proofs.«176856_j40638980555154_2_alg».proof.Proof.RefOps

noncomputable section

namespace Cert.ReferenceIdeal.RefSegs

open Cert.ReferenceIdeal Cert.ReferenceIdeal.Facts₀ Cert.ReferenceIdeal.RefOps
open Idealize.ShloMosaic Idealize.ShloMosaic.TcCoe Idealize.SL.Sem Idealize.ShloMosaic.StableHlo

variable {F : FTy → Type} [FloatOps F]

/-- The fold of two lines run one after the other is the fold of the second over the fold of the first. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- Operations 1 … 19 of the straight line: the incidence words, the first product, the node degrees. -/
abbrev sA : List (HloOp τ sig (Elt F)) :=
  [ StableHlo.unary main_arg5 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg5 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg1 main_v4 ((transpose S256x256 [1, 0] · transposes_S256x256_S256x256_1_0) : (⟨S256x256, .f32⟩ : BufTy).Contents (Elt F) → (⟨S256x256, .f32⟩ : BufTy).Contents (Elt F)),
    StableHlo.binary main_arg0 main_v4 main_v5 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.nullary main_cst (constant S_ .f32 0x3F800000#32),
    StableHlo.unary main_cst main_v6 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v7 (broadcastInDim S50000 ![] bcast_S_S50000 : (⟨S_, .f32⟩ : BufTy).Contents (Elt F) → (⟨S50000, .f32⟩ : BufTy).Contents (Elt F)),
    StableHlo.unary main_v1 main_v8 (broadcastInDim S800000x1 ![0] bcast_S800000_S800000x1_0 : (⟨S800000, .i32⟩ : BufTy).Contents (Elt F) → (⟨S800000x1, .i32⟩ : BufTy).Contents (Elt F)),
    StableHlo.ternary main_v7 main_v8 main_v6 main_v9 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v10 (broadcastInDim S50000 ![] bcast_S_S50000 : (⟨S_, .f32⟩ : BufTy).Contents (Elt F) → (⟨S50000, .f32⟩ : BufTy).Contents (Elt F)),
    StableHlo.binary main_v9 main_v10 main_v11 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x3F800000#32),
    StableHlo.unary main_cst_2 main_v12 (broadcastInDim S50000 ![] bcast_S_S50000 : (⟨S_, .f32⟩ : BufTy).Contents (Elt F) → (⟨S50000, .f32⟩ : BufTy).Contents (Elt F)),
    StableHlo.binary main_v12 main_v9 main_v13 (Host.divf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32) ]

/-- The buffers those operations write. -/
abbrev sA_W : List (Ref sig .tc) := [main_v0, main_v1, main_v2, main_v3, main_v4, main_v5, main_cst, main_v6, main_cst_0, main_v7, main_v8, main_v9, main_cst_1, main_v10, main_v11, main_cst_2, main_v12, main_v13, main_cst_3]

theorem sA_writes : (sA : List (HloOp τ sig (Elt F))).Forall fun op =>
    op.writes ⊆ (sA_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer those operations do not write keeps its contents through them. -/
theorem keepA (V : Valuation τ sig (Elt F)) {b : Ref sig .tc} (h : b ∉ sA_W) :
    after sA V (Proc.devRef .tc b) = V (Proc.devRef .tc b) :=
  after_of_writes_sub sA V sA_writes h

/-- Operations 20 … 22 of the straight line: the selection of the reciprocal node degree. -/
abbrev sB : List (HloOp τ sig (Elt F)) :=
  [ TRef.unary (.of main_cst_3 : TRef sig ⟨S_, .f32⟩) main_call0.v0 id,
    TRef.unary main_call0.v0 main_call0.v1 (broadcastInDim S50000 ![] bcast_S_S50000),
    TRef.ternary (.of main_v11 : TRef sig ⟨S50000, .i1⟩) (.of main_v13 : TRef sig ⟨S50000, .f32⟩) main_call0.v1 main_call0.v2 select ]

/-- The buffers those operations write. -/
abbrev sB_W : List (Ref sig .tc) := [main_call0_v0, main_call0_v1, main_v14]

theorem sB_writes : (sB : List (HloOp τ sig (Elt F))).Forall fun op =>
    op.writes ⊆ (sB_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer those operations do not write keeps its contents through them. -/
theorem keepB (V : Valuation τ sig (Elt F)) {b : Ref sig .tc} (h : b ∉ sB_W) :
    after sB V (Proc.devRef .tc b) = V (Proc.devRef .tc b) :=
  after_of_writes_sub sB V sB_writes h

/-- Operations 23 … 33 of the straight line: the hyperedge degrees. -/
abbrev sC : List (HloOp τ sig (Elt F)) :=
  [ StableHlo.nullary main_cst_4 (constant S_ .f32 0x00000000#32),
    StableHlo.unary main_cst_4 main_v15 (broadcastInDim S10000 ![] bcast_S_S10000 : (⟨S_, .f32⟩ : BufTy).Contents (Elt F) → (⟨S10000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v6 main_v17 ((fun x i u => Host.scatterAdd scatter_S10000_S800000x1_S800000_n_0_0_1 x i u) : (⟨S10000, .f32⟩ : BufTy).Contents (Elt F) → (⟨S800000x1, .i32⟩ : BufTy).Contents (Elt F) → (⟨S800000, .f32⟩ : BufTy).Contents (Elt F) → (⟨S10000, .f32⟩ : BufTy).Contents (Elt F)),
    StableHlo.nullary main_cst_5 (constant S_ .f32 0x00000000#32),
    StableHlo.unary main_cst_5 main_v18 (broadcastInDim S10000 ![] bcast_S_S10000 : (⟨S_, .f32⟩ : BufTy).Contents (Elt F) → (⟨S10000, .f32⟩ : BufTy).Contents (Elt F)),
    StableHlo.binary main_v17 main_v18 main_v19 (cmpf .ogt : (⟨S10000, .f32⟩ : BufTy).Contents (Elt F) → (⟨S10000, .f32⟩ : BufTy).Contents (Elt F) → (⟨S10000, .i1⟩ : BufTy).Contents (Elt F)),
    StableHlo.nullary main_cst_6 (constant S_ .f32 0x3F800000#32),
    StableHlo.unary main_cst_6 main_v20 (broadcastInDim S10000 ![] bcast_S_S10000 : (⟨S_, .f32⟩ : BufTy).Contents (Elt F) → (⟨S10000, .f32⟩ : BufTy).Contents (Elt F)),
    StableHlo.binary main_v20 main_v17 main_v21 (Host.divf : (⟨S10000, .f32⟩ : BufTy).Contents (Elt F) → (⟨S10000, .f32⟩ : BufTy).Contents (Elt F) → (⟨S10000, .f32⟩ : BufTy).Contents (Elt F)),
    StableHlo.nullary main_cst_7 (constant S_ .f32 0x00000000#32) ]

/-- The buffers those operations write. -/
abbrev sC_W : List (Ref sig .tc) := [main_cst_4, main_v15, main_v16, main_v17, main_cst_5, main_v18, main_v19, main_cst_6, main_v20, main_v21, main_cst_7]

theorem sC_writes : (sC : List (HloOp τ sig (Elt F))).Forall fun op =>
    op.writes ⊆ (sC_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer those operations do not write keeps its contents through them. -/
theorem keepC (V : Valuation τ sig (Elt F)) {b : Ref sig .tc} (h : b ∉ sC_W) :
    after sC V (Proc.devRef .tc b) = V (Proc.devRef .tc b) :=
  after_of_writes_sub sC V sC_writes h

/-- Operations 34 … 36 of the straight line: the selection of the reciprocal hyperedge degree. -/
abbrev sD : List (HloOp τ sig (Elt F)) :=
  [ TRef.unary (.of main_cst_7 : TRef sig ⟨S_, .f32⟩) main_call1.v0 id,
    TRef.unary main_call1.v0 main_call1.v1 (broadcastInDim S10000 ![] bcast_S_S10000),
    TRef.ternary (.of main_v19 : TRef sig ⟨S10000, .i1⟩) (.of main_v21 : TRef sig ⟨S10000, .f32⟩) main_call1.v1 main_call1.v2 select ]

/-- The buffers those operations write. -/
abbrev sD_W : List (Ref sig .tc) := [main_call1_v0, main_call1_v1, main_v22]

theorem sD_writes : (sD : List (HloOp τ sig (Elt F))).Forall fun op =>
    op.writes ⊆ (sD_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer those operations do not write keeps its contents through them. -/
theorem keepD (V : Valuation τ sig (Elt F)) {b : Ref sig .tc} (h : b ∉ sD_W) :
    after sD V (Proc.devRef .tc b) = V (Proc.devRef .tc b) :=
  after_of_writes_sub sD V sD_writes h

/-- Operations 37 … 68 of the straight line: the two aggregations and their scalings. -/
abbrev sE : List (HloOp τ sig (Elt F)) :=
  [ StableHlo.nullary main_c (constantI S_ 32 0#32),
    StableHlo.unary main_c main_v23 (broadcastInDim S800000 ![] bcast_S_S800000 : (⟨S_, .i32⟩ : BufTy).Contents (Elt F) → (⟨S800000, .i32⟩ : BufTy).Contents (Elt F)),
    StableHlo.binary main_v1 main_v23 main_v24 (cmpi .slt : (⟨S800000, .i32⟩ : BufTy).Contents (Elt F) → (⟨S800000, .i32⟩ : BufTy).Contents (Elt F) → (⟨S800000, .i1⟩ : BufTy).Contents (Elt F)),
    StableHlo.nullary main_c_8 (constantI S_ 32 50000#32),
    StableHlo.unary main_c_8 main_v25 (broadcastInDim S800000 ![] bcast_S_S800000 : (⟨S_, .i32⟩ : BufTy).Contents (Elt F) → (⟨S800000, .i32⟩ : BufTy).Contents (Elt F)),
    StableHlo.binary main_v1 main_v25 main_v26 (addi : (⟨S800000, .i32⟩ : BufTy).Contents (Elt F) → (⟨S800000, .i32⟩ : BufTy).Contents (Elt F) → (⟨S800000, .i32⟩ : BufTy).Contents (Elt F)),
    StableHlo.ternary main_v24 main_v26 main_v1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v27 main_v28 (broadcastInDim S800000x1 ![0] bcast_S800000_S800000x1_0 : (⟨S800000, .i32⟩ : BufTy).Contents (Elt F) → (⟨S800000x1, .i32⟩ : BufTy).Contents (Elt F)),
    StableHlo.binary main_v5 main_v28 main_v29 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_9 (constant S_ .f32 0x00000000#32),
    StableHlo.unary main_cst_9 main_v30 (broadcastInDim S10000x256 ![] bcast_S_S10000x256 : (⟨S_, .f32⟩ : BufTy).Contents (Elt F) → (⟨S10000x256, .f32⟩ : BufTy).Contents (Elt F)),
    StableHlo.unary main_v3 main_v31 (broadcastInDim S800000x1 ![0] bcast_S800000_S800000x1_0 : (⟨S800000, .i32⟩ : BufTy).Contents (Elt F) → (⟨S800000x1, .i32⟩ : BufTy).Contents (Elt F)),
    StableHlo.ternary main_v30 main_v31 main_v29 main_v32 ((fun x i u => Host.scatterAdd scatter_S10000x256_S800000x1_S800000x256_1_0_0_1 x i u) : (⟨S10000x256, .f32⟩ : BufTy).Contents (Elt F) → (⟨S800000x1, .i32⟩ : BufTy).Contents (Elt F) → (⟨S800000x256, .f32⟩ : BufTy).Contents (Elt F) → (⟨S10000x256, .f32⟩ : BufTy).Contents (Elt F)),
    StableHlo.unary main_v22 main_v33 (broadcastInDim S10000x1 ![0] bcast_S10000_S10000x1_0 : (⟨S10000, .f32⟩ : BufTy).Contents (Elt F) → (⟨S10000x1, .f32⟩ : BufTy).Contents (Elt F)),
    StableHlo.unary main_v33 main_v34 (broadcastInDim S10000x256 ![0, 1] bcast_S10000x1_S10000x256_0_1 : (⟨S10000x1, .f32⟩ : BufTy).Contents (Elt F) → (⟨S10000x256, .f32⟩ : BufTy).Contents (Elt F)),
    StableHlo.binary main_v32 main_v34 main_v35 (mulf : (⟨S10000x256, .f32⟩ : BufTy).Contents (Elt F) → (⟨S10000x256, .f32⟩ : BufTy).Contents (Elt F) → (⟨S10000x256, .f32⟩ : BufTy).Contents (Elt F)),
    StableHlo.nullary main_c_10 (constantI S_ 32 0#32),
    StableHlo.unary main_c_10 main_v36 (broadcastInDim S800000 ![] bcast_S_S800000 : (⟨S_, .i32⟩ : BufTy).Contents (Elt F) → (⟨S800000, .i32⟩ : BufTy).Contents (Elt F)),
    StableHlo.binary main_v3 main_v36 main_v37 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 10000#32),
    StableHlo.unary main_c_11 main_v38 (broadcastInDim S800000 ![] bcast_S_S800000 : (⟨S_, .i32⟩ : BufTy).Contents (Elt F) → (⟨S800000, .i32⟩ : BufTy).Contents (Elt F)),
    StableHlo.binary main_v3 main_v38 main_v39 (addi : (⟨S800000, .i32⟩ : BufTy).Contents (Elt F) → (⟨S800000, .i32⟩ : BufTy).Contents (Elt F) → (⟨S800000, .i32⟩ : BufTy).Contents (Elt F)),
    StableHlo.ternary main_v37 main_v39 main_v3 main_v40 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v40 main_v41 (broadcastInDim S800000x1 ![0] bcast_S800000_S800000x1_0 : (⟨S800000, .i32⟩ : BufTy).Contents (Elt F) → (⟨S800000x1, .i32⟩ : BufTy).Contents (Elt F)),
    StableHlo.binary main_v35 main_v41 main_v42 ((fun x i => Host.gather gather_S10000x256_S800000x1_S800000x256_1_0_n_n_0_1_1256 x i) : (⟨S10000x256, .f32⟩ : BufTy).Contents (Elt F) → (⟨S800000x1, .i32⟩ : BufTy).Contents (Elt F) → (⟨S800000x256, .f32⟩ : BufTy).Contents (Elt F)),
    StableHlo.nullary main_cst_12 (constant S_ .f32 0x00000000#32),
    StableHlo.unary main_cst_12 main_v43 (broadcastInDim S50000x256 ![] bcast_S_S50000x256 : (⟨S_, .f32⟩ : BufTy).Contents (Elt F) → (⟨S50000x256, .f32⟩ : BufTy).Contents (Elt F)),
    StableHlo.unary main_v1 main_v44 (broadcastInDim S800000x1 ![0] bcast_S800000_S800000x1_0 : (⟨S800000, .i32⟩ : BufTy).Contents (Elt F) → (⟨S800000x1, .i32⟩ : BufTy).Contents (Elt F)),
    StableHlo.ternary main_v43 main_v44 main_v42 main_v45 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.unary main_v14 main_v46 (broadcastInDim S50000x1 ![0] bcast_S50000_S50000x1_0 : (⟨S50000, .f32⟩ : BufTy).Contents (Elt F) → (⟨S50000x1, .f32⟩ : BufTy).Contents (Elt F)),
    StableHlo.unary main_v46 main_v47 (broadcastInDim S50000x256 ![0, 1] bcast_S50000x1_S50000x256_0_1 : (⟨S50000x1, .f32⟩ : BufTy).Contents (Elt F) → (⟨S50000x256, .f32⟩ : BufTy).Contents (Elt F)),
    StableHlo.binary main_v45 main_v47 main_v48 (mulf : (⟨S50000x256, .f32⟩ : BufTy).Contents (Elt F) → (⟨S50000x256, .f32⟩ : BufTy).Contents (Elt F) → (⟨S50000x256, .f32⟩ : BufTy).Contents (Elt F)) ]

/-- The buffers those operations write. -/
abbrev sE_W : List (Ref sig .tc) := [main_c, main_v23, main_v24, main_c_8, main_v25, main_v26, main_v27, main_v28, main_v29, main_cst_9, main_v30, main_v31, main_v32, main_v33, main_v34, main_v35, main_c_10, main_v36, main_v37, main_c_11, main_v38, main_v39, main_v40, main_v41, main_v42, main_cst_12, main_v43, main_v44, main_v45, main_v46, main_v47, main_v48]

theorem sE_writes : (sE : List (HloOp τ sig (Elt F))).Forall fun op =>
    op.writes ⊆ (sE_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer those operations do not write keeps its contents through them. -/
theorem keepE (V : Valuation τ sig (Elt F)) {b : Ref sig .tc} (h : b ∉ sE_W) :
    after sE V (Proc.devRef .tc b) = V (Proc.devRef .tc b) :=
  after_of_writes_sub sE V sE_writes h

/-- Operations 69 … 72 of the straight line: the bias. -/
abbrev sF : List (HloOp τ sig (Elt F)) :=
  [ StableHlo.unary main_arg2 main_v49 (broadcastInDim S1x256 ![1] bcast_S256_S1x256_1 : (⟨S256, .f32⟩ : BufTy).Contents (Elt F) → (⟨S1x256, .f32⟩ : BufTy).Contents (Elt F)),
    StableHlo.unary main_v49 main_v50 (broadcastInDim S50000x256 ![0, 1] bcast_S1x256_S50000x256_0_1 : (⟨S1x256, .f32⟩ : BufTy).Contents (Elt F) → (⟨S50000x256, .f32⟩ : BufTy).Contents (Elt F)),
    StableHlo.binary main_v48 main_v50 main_v51 (addf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3C23D70A#32) ]

/-- The buffers those operations write. -/
abbrev sF_W : List (Ref sig .tc) := [main_v49, main_v50, main_v51, main_cst_13]

theorem sF_writes : (sF : List (HloOp τ sig (Elt F))).Forall fun op =>
    op.writes ⊆ (sF_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer those operations do not write keeps its contents through them. -/
theorem keepF (V : Valuation τ sig (Elt F)) {b : Ref sig .tc} (h : b ∉ sF_W) :
    after sF V (Proc.devRef .tc b) = V (Proc.devRef .tc b) :=
  after_of_writes_sub sF V sF_writes h

/-- Operations 73 … 79 of the straight line: the rectifier of the node table. -/
abbrev sG : List (HloOp τ sig (Elt F)) :=
  [ TRef.nullary main_call2.cst (constant S_ .f32 0x00000000#32),
    TRef.unary main_call2.cst main_call2.v0 (broadcastInDim S50000x256 ![] bcast_S_S50000x256),
    TRef.binary (.of main_v51 : TRef sig ⟨S50000x256, .f32⟩) main_call2.v0 main_call2.v1 (cmpf .oge),
    TRef.unary (.of main_cst_13 : TRef sig ⟨S_, .f32⟩) main_call2.v2 id,
    TRef.unary main_call2.v2 main_call2.v3 (broadcastInDim S50000x256 ![] bcast_S_S50000x256),
    TRef.binary main_call2.v3 (.of main_v51 : TRef sig ⟨S50000x256, .f32⟩) main_call2.v4 mulf,
    TRef.ternary main_call2.v1 (.of main_v51 : TRef sig ⟨S50000x256, .f32⟩) main_call2.v4 main_call2.call0.v0 select ]

/-- The buffers those operations write. -/
abbrev sG_W : List (Ref sig .tc) := [main_call2_cst, main_call2_v0, main_call2_v1, main_call2_v2, main_call2_v3, main_call2_v4, main_v52]

theorem sG_writes : (sG : List (HloOp τ sig (Elt F))).Forall fun op =>
    op.writes ⊆ (sG_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer those operations do not write keeps its contents through them. -/
theorem keepG (V : Valuation τ sig (Elt F)) {b : Ref sig .tc} (h : b ∉ sG_W) :
    after sG V (Proc.devRef .tc b) = V (Proc.devRef .tc b) :=
  after_of_writes_sub sG V sG_writes h

/-- Operations 80 … 87 of the straight line: the two last products and the last bias. -/
abbrev sH : List (HloOp τ sig (Elt F)) :=
  [ StableHlo.unary main_v52 main_v53 ((transpose S256x50000 [1, 0] · transposes_S50000x256_S256x50000_1_0) : (⟨S50000x256, .f32⟩ : BufTy).Contents (Elt F) → (⟨S256x50000, .f32⟩ : BufTy).Contents (Elt F)),
    StableHlo.binary main_v53 main_v52 main_v54 ((fun l r => Host.dotGeneral dot_S256x50000_S50000x256_S256x256_1_0_0_1_n_n none l r) : (⟨S256x50000, .f32⟩ : BufTy).Contents (Elt F) → (⟨S50000x256, .f32⟩ : BufTy).Contents (Elt F) → (⟨S256x256, .f32⟩ : BufTy).Contents (Elt F)),
    StableHlo.unary main_arg3 main_v55 ((transpose S256x256 [1, 0] · transposes_S256x256_S256x256_1_0) : (⟨S256x256, .f32⟩ : BufTy).Contents (Elt F) → (⟨S256x256, .f32⟩ : BufTy).Contents (Elt F)),
    StableHlo.binary main_v54 main_v55 main_v56 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    StableHlo.unary main_arg4 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S256x256 ![0, 1] bcast_S1x256_S256x256_0_1 : (⟨S1x256, .f32⟩ : BufTy).Contents (Elt F) → (⟨S256x256, .f32⟩ : BufTy).Contents (Elt F)),
    StableHlo.binary main_v56 main_v58 main_v59 (addf : (⟨S256x256, .f32⟩ : BufTy).Contents (Elt F) → (⟨S256x256, .f32⟩ : BufTy).Contents (Elt F) → (⟨S256x256, .f32⟩ : BufTy).Contents (Elt F)),
    StableHlo.nullary main_cst_14 (constant S_ .f32 0x3C23D70A#32) ]

/-- The buffers those operations write. -/
abbrev sH_W : List (Ref sig .tc) := [main_v53, main_v54, main_v55, main_v56, main_v57, main_v58, main_v59, main_cst_14]

theorem sH_writes : (sH : List (HloOp τ sig (Elt F))).Forall fun op =>
    op.writes ⊆ (sH_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer those operations do not write keeps its contents through them. -/
theorem keepH (V : Valuation τ sig (Elt F)) {b : Ref sig .tc} (h : b ∉ sH_W) :
    after sH V (Proc.devRef .tc b) = V (Proc.devRef .tc b) :=
  after_of_writes_sub sH V sH_writes h

/-- Operations 88 … 94 of the straight line: the rectifier of the result. -/
abbrev sI : List (HloOp τ sig (Elt F)) :=
  [ TRef.nullary main_call3.cst (constant S_ .f32 0x00000000#32),
    TRef.unary main_call3.cst main_call3.v0 (broadcastInDim S256x256 ![] bcast_S_S256x256),
    TRef.binary (.of main_v59 : TRef sig ⟨S256x256, .f32⟩) main_call3.v0 main_call3.v1 (cmpf .oge),
    TRef.unary (.of main_cst_14 : TRef sig ⟨S_, .f32⟩) main_call3.v2 id,
    TRef.unary main_call3.v2 main_call3.v3 (broadcastInDim S256x256 ![] bcast_S_S256x256),
    TRef.binary main_call3.v3 (.of main_v59 : TRef sig ⟨S256x256, .f32⟩) main_call3.v4 mulf,
    TRef.ternary main_call3.v1 (.of main_v59 : TRef sig ⟨S256x256, .f32⟩) main_call3.v4 main_call3.call0.v0 select ]

/-- The buffers those operations write. -/
abbrev sI_W : List (Ref sig .tc) := [main_call3_cst, main_call3_v0, main_call3_v1, main_call3_v2, main_call3_v3, main_call3_v4, main_v60]

theorem sI_writes : (sI : List (HloOp τ sig (Elt F))).Forall fun op =>
    op.writes ⊆ (sI_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

/-- A buffer those operations do not write keeps its contents through them. -/
theorem keepI (V : Valuation τ sig (Elt F)) {b : Ref sig .tc} (h : b ∉ sI_W) :
    after sI V (Proc.devRef .tc b) = V (Proc.devRef .tc b) :=
  after_of_writes_sub sI V sI_writes h

/-- The straight line is the nine pieces in order. -/
theorem ops_split : (ops : List (HloOp τ sig (Elt F))) = sA ++ (sB ++ (sC ++ (sD ++ (sE ++ (sF ++ (sG ++ (sH ++ (sI)))))))) := rfl

/-- The buffers after the first 1 piece. -/
def W1 (V : Valuation τ sig (Elt F)) : Valuation τ sig (Elt F) := after sA V
/-- The buffers after the first 2 pieces. -/
def W2 (V : Valuation τ sig (Elt F)) : Valuation τ sig (Elt F) := after sB (W1 V)
/-- The buffers after the first 3 pieces. -/
def W3 (V : Valuation τ sig (Elt F)) : Valuation τ sig (Elt F) := after sC (W2 V)
/-- The buffers after the first 4 pieces. -/
def W4 (V : Valuation τ sig (Elt F)) : Valuation τ sig (Elt F) := after sD (W3 V)
/-- The buffers after the first 5 pieces. -/
def W5 (V : Valuation τ sig (Elt F)) : Valuation τ sig (Elt F) := after sE (W4 V)
/-- The buffers after the first 6 pieces. -/
def W6 (V : Valuation τ sig (Elt F)) : Valuation τ sig (Elt F) := after sF (W5 V)
/-- The buffers after the first 7 pieces. -/
def W7 (V : Valuation τ sig (Elt F)) : Valuation τ sig (Elt F) := after sG (W6 V)
/-- The buffers after the first 8 pieces. -/
def W8 (V : Valuation τ sig (Elt F)) : Valuation τ sig (Elt F) := after sH (W7 V)
/-- The buffers after the first 9 pieces. -/
def W9 (V : Valuation τ sig (Elt F)) : Valuation τ sig (Elt F) := after sI (W8 V)

/-- The fold over the whole line is the fold over the pieces in order. -/
theorem after_ops (V : Valuation τ sig (Elt F)) : after ops V = W9 V := by
  rw [ops_split, after_append, after_append, after_append, after_append, after_append, after_append, after_append,
    after_append]
  rfl

end Cert.ReferenceIdeal.RefSegs

end
-- ==== Proof.RefTerm.lean ====
/-
  The result of the reference program as one term of the six argument arrays, cut into named stages.

  The stages: the product of the node table with the transposed weight, the scaling of a table's rows by a vector
  laid out as a column and spread along the rows, the addition of a vector laid out as a row and spread down the
  columns, the leaky rectifier as the program spells it (a comparison with the zero table, the slope table times
  the operand, a selection between the operand and that product), the product of a table's transpose with the
  table, and the product with a transposed square matrix. The two aggregations along the incidences and the two
  reciprocal degree vectors are the ones the specification names, taken whole.
-/
import proofs.«176856_j40638980555154_2_alg».proof.Proof.Spec

noncomputable section

namespace Cert.ReferenceIdeal.RefTerm

open Cert.ReferenceIdeal Cert.ReferenceIdeal.Facts₀ Cert.Hyper Idealize.ShloMosaic

/-- Every node row times the transposed weight: the node table contracted with the weight's transpose. -/
def xW (emb : FVec Ideal S50000x256 .f32) (W : FVec Ideal S256x256 .f32) : FVec Ideal S50000x256 .f32 :=
  Host.dotGeneral (F := Ideal) dot_S50000x256_S256x256_S50000x256_1_0_0_1_n_n none emb
    (transpose S256x256 [1, 0] W transposes_S256x256_S256x256_1_0)

/-- A hyperedge table times a vector over the hyperedges, the vector a column spread along the rows. -/
def scaleE (t : FVec Ideal S10000x256 .f32) (d : FVec Ideal S10000 .f32) : FVec Ideal S10000x256 .f32 :=
  mulf t (broadcastInDim S10000x256 ![0, 1] bcast_S10000x1_S10000x256_0_1 (broadcastInDim S10000x1 ![0] bcast_S10000_S10000x1_0 d))

/-- A node table times a vector over the nodes, the vector a column spread along the rows. -/
def scaleN (t : FVec Ideal S50000x256 .f32) (d : FVec Ideal S50000 .f32) : FVec Ideal S50000x256 .f32 :=
  mulf t (broadcastInDim S50000x256 ![0, 1] bcast_S50000x1_S50000x256_0_1 (broadcastInDim S50000x1 ![0] bcast_S50000_S50000x1_0 d))

/-- A node table plus a vector over the channels, the vector a row spread down the columns. -/
def addRowN (t : FVec Ideal S50000x256 .f32) (b : FVec Ideal S256 .f32) : FVec Ideal S50000x256 .f32 :=
  addf t (broadcastInDim S50000x256 ![0, 1] bcast_S1x256_S50000x256_0_1 (broadcastInDim S1x256 ![1] bcast_S256_S1x256_1 b))

/-- A square table plus a vector over the channels, the vector a row spread down the columns. -/
def addRowC (t : FVec Ideal S256x256 .f32) (l : FVec Ideal S256 .f32) : FVec Ideal S256x256 .f32 :=
  addf t (broadcastInDim S256x256 ![0, 1] bcast_S1x256_S256x256_0_1 (broadcastInDim S1x256 ![1] bcast_S256_S1x256_1 l))

/-- The leaky rectifier over a node table: the operand where it is at least zero, the slope times it elsewhere. -/
def lreluN (x : FVec Ideal S50000x256 .f32) : FVec Ideal S50000x256 .f32 :=
  select (cmpf .oge x (broadcastInDim S50000x256 ![] bcast_S_S50000x256 (constant (F := Ideal) S_ .f32 0x00000000#32))) x
    (mulf (broadcastInDim S50000x256 ![] bcast_S_S50000x256 (id (constant (F := Ideal) S_ .f32 0x3C23D70A#32))) x)

/-- The leaky rectifier over a square table. -/
def lreluC (x : FVec Ideal S256x256 .f32) : FVec Ideal S256x256 .f32 :=
  select (cmpf .oge x (broadcastInDim S256x256 ![] bcast_S_S256x256 (constant (F := Ideal) S_ .f32 0x00000000#32))) x
    (mulf (broadcastInDim S256x256 ![] bcast_S_S256x256 (id (constant (F := Ideal) S_ .f32 0x3C23D70A#32))) x)

/-- The transpose of a node table contracted with the table over the nodes. -/
def gram (y : FVec Ideal S50000x256 .f32) : FVec Ideal S256x256 .f32 :=
  Host.dotGeneral (F := Ideal) dot_S256x50000_S50000x256_S256x256_1_0_0_1_n_n none
    (transpose S256x50000 [1, 0] y transposes_S50000x256_S256x50000_1_0) y

/-- A square table contracted with the transpose of a square matrix. -/
def timesT (g : FVec Ideal S256x256 .f32) (L : FVec Ideal S256x256 .f32) : FVec Ideal S256x256 .f32 :=
  Host.dotGeneral (F := Ideal) dot_S256x256_S256x256_S256x256_1_0_0_1_n_n none g
    (transpose S256x256 [1, 0] L transposes_S256x256_S256x256_1_0)

/-- The result as the operations compose it, stage by stage. -/
def refTerm (emb : FVec Ideal S50000x256 .f32) (W : FVec Ideal S256x256 .f32) (b : FVec Ideal S256 .f32)
    (L : FVec Ideal S256x256 .f32) (l : FVec Ideal S256 .f32) (ei : IVec S2x800000 32) : FVec Ideal S256x256 .f32 :=
  lreluC (addRowC (timesT (gram (lreluN (addRowN (scaleN (aggN ei (scaleE (aggE ei (xW emb W)) (invDegE ei))) (invDegN ei)) b))) L) l)

end Cert.ReferenceIdeal.RefTerm

end
-- ==== Proof.RefVals.lean ====
/-
  What each of the nine pieces of the straight line leaves in the buffers later pieces read, over any contents of
  the buffers when the piece begins.

  What a piece reads from earlier pieces is named by hypotheses, so that the right sides are the specification's
  own functions of the incidence list and the stage functions of the composed term. A helper's operations carry
  their operands through a change of the buffer type that is the identity; their result is first restated without
  it, as the plain selection, comparison and product of the operands.
-/
import proofs.«176856_j40638980555154_2_alg».proof.Proof.RefSegs
import proofs.«176856_j40638980555154_2_alg».proof.Proof.RefTerm

set_option maxRecDepth 16384

noncomputable section

namespace Cert.ReferenceIdeal.RefVals

open Cert.ReferenceIdeal Cert.ReferenceIdeal.Facts₀ Cert.ReferenceIdeal.RefOps Cert.ReferenceIdeal.RefSegs
open Cert.ReferenceIdeal.RefTerm Cert.Hyper
open Idealize.ShloMosaic Idealize.ShloMosaic.TcCoe Idealize.SL.Sem Idealize.ShloMosaic.StableHlo

attribute [local irreducible] Host.scatterAdd Host.gather Host.divf

variable (V : Valuation τ sig (Elt Ideal))

set_option quotPrecheck false in
local notation "⟪" b "⟫" => (Proc.devRef Proc.tc b : DevRef τ sig)

/-! ## The incidence words, the first product, the node degrees -/

/-- The node word of every incidence. -/
theorem A_v1 : after (sA (F := Ideal)) V ⟪main_v1⟫ = nodeW (V ⟪main_arg5⟫) := by
  after_results
  rfl

/-- The hyperedge word of every incidence. -/
theorem A_v3 : after (sA (F := Ideal)) V ⟪main_v3⟫ = edgeW (V ⟪main_arg5⟫) := by
  after_results
  rfl

/-- Every node row times the transposed weight. -/
theorem A_v5 : after (sA (F := Ideal)) V ⟪main_v5⟫ = xW (V ⟪main_arg0⟫) (V ⟪main_arg1⟫) := by
  after_results
  rfl

/-- One unit per incidence. -/
theorem A_v6 : after (sA (F := Ideal)) V ⟪main_v6⟫ = onesI := by
  after_results
  rfl

/-- Where a node's degree is positive. -/
theorem A_v11 : after (sA (F := Ideal)) V ⟪main_v11⟫ = cmpf .ogt (degN (V ⟪main_arg5⟫)) (broadcastInDim S50000 ![] bcast_S_S50000 (constant (F := Ideal) S_ .f32 0x00000000#32)) := by
  after_results
  rfl

/-- One over every node's degree. -/
theorem A_v13 : after (sA (F := Ideal)) V ⟪main_v13⟫ = Host.divf (F := Ideal) (broadcastInDim S50000 ![] bcast_S_S50000 (constant (F := Ideal) S_ .f32 0x3F800000#32)) (degN (V ⟪main_arg5⟫)) := by
  after_results
  rfl

/-- The zero the reciprocal falls back to. -/
theorem A_cst3 : after (sA (F := Ideal)) V ⟪main_cst_3⟫ = constant (F := Ideal) S_ .f32 0x00000000#32 := by
  after_results

/-! ## The reciprocal node degrees -/

/-- The reciprocal of a node's degree where it is positive, zero elsewhere. -/
theorem B_v14 (ei : IVec S2x800000 32)
    (h11 : V ⟪main_v11⟫ = cmpf .ogt (degN ei) (broadcastInDim S50000 ![] bcast_S_S50000 (constant (F := Ideal) S_ .f32 0x00000000#32)))
    (h13 : V ⟪main_v13⟫ = Host.divf (F := Ideal) (broadcastInDim S50000 ![] bcast_S_S50000 (constant (F := Ideal) S_ .f32 0x3F800000#32)) (degN ei))
    (hc : V ⟪main_cst_3⟫ = constant (F := Ideal) S_ .f32 0x00000000#32) :
    after (sB (F := Ideal)) V ⟪main_v14⟫ = invDegN ei := by
  after_results
  show select (V ⟪main_v11⟫) (V ⟪main_v13⟫) (broadcastInDim S50000 ![] bcast_S_S50000 (id (V ⟪main_cst_3⟫))) = _
  rw [h11, h13, hc]
  unfold invDegN
  rfl

/-! ## The hyperedge degrees -/

/-- Where a hyperedge's degree is positive. -/
theorem C_v19 (ei : IVec S2x800000 32) (h3 : V ⟪main_v3⟫ = edgeW ei) (h6 : V ⟪main_v6⟫ = onesI) :
    after (sC (F := Ideal)) V ⟪main_v19⟫ = cmpf .ogt (degE ei) (broadcastInDim S10000 ![] bcast_S_S10000 (constant (F := Ideal) S_ .f32 0x00000000#32)) := by
  after_results
  rw [h3, h6]
  rfl

/-- One over every hyperedge's degree. -/
theorem C_v21 (ei : IVec S2x800000 32) (h3 : V ⟪main_v3⟫ = edgeW ei) (h6 : V ⟪main_v6⟫ = onesI) :
    after (sC (F := Ideal)) V ⟪main_v21⟫ = Host.divf (F := Ideal) (broadcastInDim S10000 ![] bcast_S_S10000 (constant (F := Ideal) S_ .f32 0x3F800000#32)) (degE ei) := by
  after_results
  rw [h3, h6]
  rfl

/-- The zero the reciprocal falls back to. -/
theorem C_cst7 : after (sC (F := Ideal)) V ⟪main_cst_7⟫ = constant (F := Ideal) S_ .f32 0x00000000#32 := by
  after_results

/-! ## The reciprocal hyperedge degrees -/

/-- The reciprocal of a hyperedge's degree where it is positive, zero elsewhere. -/
theorem D_v22 (ei : IVec S2x800000 32)
    (h19 : V ⟪main_v19⟫ = cmpf .ogt (degE ei) (broadcastInDim S10000 ![] bcast_S_S10000 (constant (F := Ideal) S_ .f32 0x00000000#32)))
    (h21 : V ⟪main_v21⟫ = Host.divf (F := Ideal) (broadcastInDim S10000 ![] bcast_S_S10000 (constant (F := Ideal) S_ .f32 0x3F800000#32)) (degE ei))
    (hc : V ⟪main_cst_7⟫ = constant (F := Ideal) S_ .f32 0x00000000#32) :
    after (sD (F := Ideal)) V ⟪main_v22⟫ = invDegE ei := by
  after_results
  show select (V ⟪main_v19⟫) (V ⟪main_v21⟫) (broadcastInDim S10000 ![] bcast_S_S10000 (id (V ⟪main_cst_7⟫))) = _
  rw [h19, h21, hc]
  unfold invDegE
  rfl

/-! ## The two aggregations -/

set_option maxHeartbeats 1000000 in
/-- The node table aggregated to the hyperedges, scaled, aggregated back to the nodes, scaled. -/
theorem E_v48 (ei : IVec S2x800000 32) (x : FVec Ideal S50000x256 .f32) (dE : FVec Ideal S10000 .f32)
    (dN : FVec Ideal S50000 .f32)
    (h1 : V ⟪main_v1⟫ = nodeW ei) (h3 : V ⟪main_v3⟫ = edgeW ei) (h5 : V ⟪main_v5⟫ = x)
    (h22 : V ⟪main_v22⟫ = dE) (h14 : V ⟪main_v14⟫ = dN) :
    after (sE (F := Ideal)) V ⟪main_v48⟫ = scaleN (aggN ei (scaleE (aggE ei x) dE)) dN := by
  after_results_simp
  rw [h1, h3, h5, h22, h14]
  rfl

/-! ## The bias -/

/-- The scaled table plus the bias row. -/
theorem F_v51 (x : FVec Ideal S50000x256 .f32) (b : FVec Ideal S256 .f32)
    (h48 : V ⟪main_v48⟫ = x) (h2 : V ⟪main_arg2⟫ = b) :
    after (sF (F := Ideal)) V ⟪main_v51⟫ = addRowN x b := by
  after_results
  rw [h48, h2]
  rfl

/-- The slope of the rectifier. -/
theorem F_cst13 : after (sF (F := Ideal)) V ⟪main_cst_13⟫ = constant (F := Ideal) S_ .f32 0x3C23D70A#32 := by
  after_results

/-! ## The rectifier of the node table -/

/-- The node table rectified. -/
theorem G_v52 (x : FVec Ideal S50000x256 .f32) (h51 : V ⟪main_v51⟫ = x) (hc : V ⟪main_cst_13⟫ = constant (F := Ideal) S_ .f32 0x3C23D70A#32) :
    after (sG (F := Ideal)) V ⟪main_v52⟫ = lreluN x := by
  after_results
  show select
      (cmpf (F := Ideal) .oge (V ⟪main_v51⟫ : FVec Ideal S50000x256 .f32)
        (broadcastInDim S50000x256 ![] bcast_S_S50000x256 (constant (F := Ideal) S_ .f32 0x00000000#32)))
      (V ⟪main_v51⟫ : FVec Ideal S50000x256 .f32)
      (mulf (F := Ideal) (broadcastInDim S50000x256 ![] bcast_S_S50000x256 (id (V ⟪main_cst_13⟫ : FVec Ideal S_ .f32)))
        (V ⟪main_v51⟫ : FVec Ideal S50000x256 .f32)) = _
  rw [h51, hc]
  rfl

/-! ## The two last products and the last bias -/

/-- The product of the activation's transpose with the activation, times the transposed last matrix, plus the
    last bias row. -/
theorem H_v59 (y : FVec Ideal S50000x256 .f32) (L : FVec Ideal S256x256 .f32) (l : FVec Ideal S256 .f32)
    (h52 : V ⟪main_v52⟫ = y) (h3 : V ⟪main_arg3⟫ = L) (h4 : V ⟪main_arg4⟫ = l) :
    after (sH (F := Ideal)) V ⟪main_v59⟫ = addRowC (timesT (gram y) L) l := by
  after_results
  rw [h52, h3, h4]
  rfl

/-- The slope of the last rectifier. -/
theorem H_cst14 : after (sH (F := Ideal)) V ⟪main_cst_14⟫ = constant (F := Ideal) S_ .f32 0x3C23D70A#32 := by
  after_results

/-! ## The rectifier of the result -/

/-- The result rectified. -/
theorem I_v60 (x : FVec Ideal S256x256 .f32) (h59 : V ⟪main_v59⟫ = x) (hc : V ⟪main_cst_14⟫ = constant (F := Ideal) S_ .f32 0x3C23D70A#32) :
    after (sI (F := Ideal)) V ⟪main_v60⟫ = lreluC x := by
  after_results
  show select
      (cmpf (F := Ideal) .oge (V ⟪main_v59⟫ : FVec Ideal S256x256 .f32)
        (broadcastInDim S256x256 ![] bcast_S_S256x256 (constant (F := Ideal) S_ .f32 0x00000000#32)))
      (V ⟪main_v59⟫ : FVec Ideal S256x256 .f32)
      (mulf (F := Ideal) (broadcastInDim S256x256 ![] bcast_S_S256x256 (id (V ⟪main_cst_14⟫ : FVec Ideal S_ .f32)))
        (V ⟪main_v59⟫ : FVec Ideal S256x256 .f32)) = _
  rw [h59, hc]
  rfl

end Cert.ReferenceIdeal.RefVals

end
-- ==== Proof.RefFold.lean ====
/-
  The fold of the whole straight line at the result buffer and at the six argument buffers.

  The buffers after each of the nine pieces are followed from piece to piece: what a piece computes is read from
  the buffers the piece before left, and what it does not write is carried across it. After the last piece the
  result buffer holds the composed term of the six argument arrays, and no piece writes an argument buffer.
-/
import proofs.«176856_j40638980555154_2_alg».proof.Proof.RefVals

set_option maxRecDepth 16384

noncomputable section

namespace Cert.ReferenceIdeal.RefFold

open Cert.ReferenceIdeal Cert.ReferenceIdeal.Facts₀ Cert.ReferenceIdeal.RefOps Cert.ReferenceIdeal.RefSegs
open Cert.ReferenceIdeal.RefVals Cert.ReferenceIdeal.RefTerm Cert.Hyper
open Idealize.ShloMosaic Idealize.ShloMosaic.TcCoe Idealize.SL.Sem Idealize.ShloMosaic.StableHlo

attribute [local irreducible] Host.scatterAdd Host.gather Host.divf

variable (V : Valuation τ sig (Elt Ideal))

set_option quotPrecheck false in
local notation "⟪" b "⟫" => (Proc.devRef Proc.tc b : DevRef τ sig)

/-! ## The buffers after each piece -/

theorem f0_arg2 : V ⟪main_arg2⟫ = (V ⟪main_arg2⟫) := rfl
theorem f0_arg3 : V ⟪main_arg3⟫ = (V ⟪main_arg3⟫) := rfl
theorem f0_arg4 : V ⟪main_arg4⟫ = (V ⟪main_arg4⟫) := rfl

/-! ### After piece 1 -/

theorem f1_v1 : W1 V ⟪main_v1⟫ = nodeW (V ⟪main_arg5⟫) :=
  A_v1 V
theorem f1_v3 : W1 V ⟪main_v3⟫ = edgeW (V ⟪main_arg5⟫) :=
  A_v3 V
theorem f1_v5 : W1 V ⟪main_v5⟫ = xW (V ⟪main_arg0⟫) (V ⟪main_arg1⟫) :=
  A_v5 V
theorem f1_v6 : W1 V ⟪main_v6⟫ = onesI :=
  A_v6 V
theorem f1_v11 : W1 V ⟪main_v11⟫ = cmpf .ogt (degN (V ⟪main_arg5⟫)) (broadcastInDim S50000 ![] bcast_S_S50000 (constant (F := Ideal) S_ .f32 0x00000000#32)) :=
  A_v11 V
theorem f1_v13 : W1 V ⟪main_v13⟫ = Host.divf (F := Ideal) (broadcastInDim S50000 ![] bcast_S_S50000 (constant (F := Ideal) S_ .f32 0x3F800000#32)) (degN (V ⟪main_arg5⟫)) :=
  A_v13 V
theorem f1_cst_3 : W1 V ⟪main_cst_3⟫ = (constant (F := Ideal) S_ .f32 0x00000000#32) :=
  A_cst3 V
theorem f1_arg2 : W1 V ⟪main_arg2⟫ = (V ⟪main_arg2⟫) :=
  (keepA V (b := main_arg2) (by decide)).trans (f0_arg2 V)
theorem f1_arg3 : W1 V ⟪main_arg3⟫ = (V ⟪main_arg3⟫) :=
  (keepA V (b := main_arg3) (by decide)).trans (f0_arg3 V)
theorem f1_arg4 : W1 V ⟪main_arg4⟫ = (V ⟪main_arg4⟫) :=
  (keepA V (b := main_arg4) (by decide)).trans (f0_arg4 V)

/-! ### After piece 2 -/

theorem f2_v14 : W2 V ⟪main_v14⟫ = invDegN (V ⟪main_arg5⟫) :=
  B_v14 (W1 V) (V ⟪main_arg5⟫) (f1_v11 V) (f1_v13 V) (f1_cst_3 V)
theorem f2_v1 : W2 V ⟪main_v1⟫ = nodeW (V ⟪main_arg5⟫) :=
  (keepB (W1 V) (b := main_v1) (by decide)).trans (f1_v1 V)
theorem f2_v3 : W2 V ⟪main_v3⟫ = edgeW (V ⟪main_arg5⟫) :=
  (keepB (W1 V) (b := main_v3) (by decide)).trans (f1_v3 V)
theorem f2_v5 : W2 V ⟪main_v5⟫ = xW (V ⟪main_arg0⟫) (V ⟪main_arg1⟫) :=
  (keepB (W1 V) (b := main_v5) (by decide)).trans (f1_v5 V)
theorem f2_v6 : W2 V ⟪main_v6⟫ = onesI :=
  (keepB (W1 V) (b := main_v6) (by decide)).trans (f1_v6 V)
theorem f2_arg2 : W2 V ⟪main_arg2⟫ = (V ⟪main_arg2⟫) :=
  (keepB (W1 V) (b := main_arg2) (by decide)).trans (f1_arg2 V)
theorem f2_arg3 : W2 V ⟪main_arg3⟫ = (V ⟪main_arg3⟫) :=
  (keepB (W1 V) (b := main_arg3) (by decide)).trans (f1_arg3 V)
theorem f2_arg4 : W2 V ⟪main_arg4⟫ = (V ⟪main_arg4⟫) :=
  (keepB (W1 V) (b := main_arg4) (by decide)).trans (f1_arg4 V)

/-! ### After piece 3 -/

theorem f3_v19 : W3 V ⟪main_v19⟫ = cmpf .ogt (degE (V ⟪main_arg5⟫)) (broadcastInDim S10000 ![] bcast_S_S10000 (constant (F := Ideal) S_ .f32 0x00000000#32)) :=
  C_v19 (W2 V) (V ⟪main_arg5⟫) (f2_v3 V) (f2_v6 V)
theorem f3_v21 : W3 V ⟪main_v21⟫ = Host.divf (F := Ideal) (broadcastInDim S10000 ![] bcast_S_S10000 (constant (F := Ideal) S_ .f32 0x3F800000#32)) (degE (V ⟪main_arg5⟫)) :=
  C_v21 (W2 V) (V ⟪main_arg5⟫) (f2_v3 V) (f2_v6 V)
theorem f3_cst_7 : W3 V ⟪main_cst_7⟫ = (constant (F := Ideal) S_ .f32 0x00000000#32) :=
  C_cst7 (W2 V)
theorem f3_v1 : W3 V ⟪main_v1⟫ = nodeW (V ⟪main_arg5⟫) :=
  (keepC (W2 V) (b := main_v1) (by decide)).trans (f2_v1 V)
theorem f3_v3 : W3 V ⟪main_v3⟫ = edgeW (V ⟪main_arg5⟫) :=
  (keepC (W2 V) (b := main_v3) (by decide)).trans (f2_v3 V)
theorem f3_v5 : W3 V ⟪main_v5⟫ = xW (V ⟪main_arg0⟫) (V ⟪main_arg1⟫) :=
  (keepC (W2 V) (b := main_v5) (by decide)).trans (f2_v5 V)
theorem f3_v14 : W3 V ⟪main_v14⟫ = invDegN (V ⟪main_arg5⟫) :=
  (keepC (W2 V) (b := main_v14) (by decide)).trans (f2_v14 V)
theorem f3_arg2 : W3 V ⟪main_arg2⟫ = (V ⟪main_arg2⟫) :=
  (keepC (W2 V) (b := main_arg2) (by decide)).trans (f2_arg2 V)
theorem f3_arg3 : W3 V ⟪main_arg3⟫ = (V ⟪main_arg3⟫) :=
  (keepC (W2 V) (b := main_arg3) (by decide)).trans (f2_arg3 V)
theorem f3_arg4 : W3 V ⟪main_arg4⟫ = (V ⟪main_arg4⟫) :=
  (keepC (W2 V) (b := main_arg4) (by decide)).trans (f2_arg4 V)

/-! ### After piece 4 -/

theorem f4_v22 : W4 V ⟪main_v22⟫ = invDegE (V ⟪main_arg5⟫) :=
  D_v22 (W3 V) (V ⟪main_arg5⟫) (f3_v19 V) (f3_v21 V) (f3_cst_7 V)
theorem f4_v1 : W4 V ⟪main_v1⟫ = nodeW (V ⟪main_arg5⟫) :=
  (keepD (W3 V) (b := main_v1) (by decide)).trans (f3_v1 V)
theorem f4_v3 : W4 V ⟪main_v3⟫ = edgeW (V ⟪main_arg5⟫) :=
  (keepD (W3 V) (b := main_v3) (by decide)).trans (f3_v3 V)
theorem f4_v5 : W4 V ⟪main_v5⟫ = xW (V ⟪main_arg0⟫) (V ⟪main_arg1⟫) :=
  (keepD (W3 V) (b := main_v5) (by decide)).trans (f3_v5 V)
theorem f4_v14 : W4 V ⟪main_v14⟫ = invDegN (V ⟪main_arg5⟫) :=
  (keepD (W3 V) (b := main_v14) (by decide)).trans (f3_v14 V)
theorem f4_arg2 : W4 V ⟪main_arg2⟫ = (V ⟪main_arg2⟫) :=
  (keepD (W3 V) (b := main_arg2) (by decide)).trans (f3_arg2 V)
theorem f4_arg3 : W4 V ⟪main_arg3⟫ = (V ⟪main_arg3⟫) :=
  (keepD (W3 V) (b := main_arg3) (by decide)).trans (f3_arg3 V)
theorem f4_arg4 : W4 V ⟪main_arg4⟫ = (V ⟪main_arg4⟫) :=
  (keepD (W3 V) (b := main_arg4) (by decide)).trans (f3_arg4 V)

/-! ### After piece 5 -/

theorem f5_v48 : W5 V ⟪main_v48⟫ = scaleN (aggN (V ⟪main_arg5⟫) (scaleE (aggE (V ⟪main_arg5⟫) (xW (V ⟪main_arg0⟫) (V ⟪main_arg1⟫))) (invDegE (V ⟪main_arg5⟫)))) (invDegN (V ⟪main_arg5⟫)) :=
  E_v48 (W4 V) (V ⟪main_arg5⟫) _ _ _ (f4_v1 V) (f4_v3 V) (f4_v5 V) (f4_v22 V) (f4_v14 V)
theorem f5_arg2 : W5 V ⟪main_arg2⟫ = (V ⟪main_arg2⟫) :=
  (keepE (W4 V) (b := main_arg2) (by decide)).trans (f4_arg2 V)
theorem f5_arg3 : W5 V ⟪main_arg3⟫ = (V ⟪main_arg3⟫) :=
  (keepE (W4 V) (b := main_arg3) (by decide)).trans (f4_arg3 V)
theorem f5_arg4 : W5 V ⟪main_arg4⟫ = (V ⟪main_arg4⟫) :=
  (keepE (W4 V) (b := main_arg4) (by decide)).trans (f4_arg4 V)

/-! ### After piece 6 -/

theorem f6_v51 : W6 V ⟪main_v51⟫ = addRowN (scaleN (aggN (V ⟪main_arg5⟫) (scaleE (aggE (V ⟪main_arg5⟫) (xW (V ⟪main_arg0⟫) (V ⟪main_arg1⟫))) (invDegE (V ⟪main_arg5⟫)))) (invDegN (V ⟪main_arg5⟫))) (V ⟪main_arg2⟫) :=
  F_v51 (W5 V) _ _ (f5_v48 V) (f5_arg2 V)
theorem f6_cst_13 : W6 V ⟪main_cst_13⟫ = (constant (F := Ideal) S_ .f32 0x3C23D70A#32) :=
  F_cst13 (W5 V)
theorem f6_arg3 : W6 V ⟪main_arg3⟫ = (V ⟪main_arg3⟫) :=
  (keepF (W5 V) (b := main_arg3) (by decide)).trans (f5_arg3 V)
theorem f6_arg4 : W6 V ⟪main_arg4⟫ = (V ⟪main_arg4⟫) :=
  (keepF (W5 V) (b := main_arg4) (by decide)).trans (f5_arg4 V)

/-! ### After piece 7 -/

theorem f7_v52 : W7 V ⟪main_v52⟫ = lreluN (addRowN (scaleN (aggN (V ⟪main_arg5⟫) (scaleE (aggE (V ⟪main_arg5⟫) (xW (V ⟪main_arg0⟫) (V ⟪main_arg1⟫))) (invDegE (V ⟪main_arg5⟫)))) (invDegN (V ⟪main_arg5⟫))) (V ⟪main_arg2⟫)) :=
  G_v52 (W6 V) _ (f6_v51 V) (f6_cst_13 V)
theorem f7_arg3 : W7 V ⟪main_arg3⟫ = (V ⟪main_arg3⟫) :=
  (keepG (W6 V) (b := main_arg3) (by decide)).trans (f6_arg3 V)
theorem f7_arg4 : W7 V ⟪main_arg4⟫ = (V ⟪main_arg4⟫) :=
  (keepG (W6 V) (b := main_arg4) (by decide)).trans (f6_arg4 V)

/-! ### After piece 8 -/

theorem f8_v59 : W8 V ⟪main_v59⟫ = addRowC (timesT (gram (lreluN (addRowN (scaleN (aggN (V ⟪main_arg5⟫) (scaleE (aggE (V ⟪main_arg5⟫) (xW (V ⟪main_arg0⟫) (V ⟪main_arg1⟫))) (invDegE (V ⟪main_arg5⟫)))) (invDegN (V ⟪main_arg5⟫))) (V ⟪main_arg2⟫)))) (V ⟪main_arg3⟫)) (V ⟪main_arg4⟫) :=
  H_v59 (W7 V) _ _ _ (f7_v52 V) (f7_arg3 V) (f7_arg4 V)
theorem f8_cst_14 : W8 V ⟪main_cst_14⟫ = (constant (F := Ideal) S_ .f32 0x3C23D70A#32) :=
  H_cst14 (W7 V)

/-! ### After piece 9 -/

theorem f9_v60 : W9 V ⟪main_v60⟫ = lreluC (addRowC (timesT (gram (lreluN (addRowN (scaleN (aggN (V ⟪main_arg5⟫) (scaleE (aggE (V ⟪main_arg5⟫) (xW (V ⟪main_arg0⟫) (V ⟪main_arg1⟫))) (invDegE (V ⟪main_arg5⟫)))) (invDegN (V ⟪main_arg5⟫))) (V ⟪main_arg2⟫)))) (V ⟪main_arg3⟫)) (V ⟪main_arg4⟫)) :=
  I_v60 (W8 V) _ (f8_v59 V) (f8_cst_14 V)

/-! ## The whole line -/

/-- The fold of the whole line at the result buffer is the composed term of the argument buffers' contents. -/
theorem out_eq : after (ops (F := Ideal)) V ⟪main_v60⟫
    = refTerm (V ⟪main_arg0⟫) (V ⟪main_arg1⟫) (V ⟪main_arg2⟫) (V ⟪main_arg3⟫) (V ⟪main_arg4⟫) (V ⟪main_arg5⟫) := by
  rw [after_ops]
  exact f9_v60 V

theorem arg0_eq : after (ops (F := Ideal)) V ⟪main_arg0⟫ = V ⟪main_arg0⟫ := by
  rw [after_ops]
  exact (keepI (W8 V) (b := main_arg0) (by decide)).trans ((keepH (W7 V) (b := main_arg0) (by decide)).trans ((keepG (W6 V) (b := main_arg0) (by decide)).trans ((keepF (W5 V) (b := main_arg0) (by decide)).trans ((keepE (W4 V) (b := main_arg0) (by decide)).trans ((keepD (W3 V) (b := main_arg0) (by decide)).trans ((keepC (W2 V) (b := main_arg0) (by decide)).trans ((keepB (W1 V) (b := main_arg0) (by decide)).trans (keepA V (b := main_arg0) (by decide)))))))))

theorem arg1_eq : after (ops (F := Ideal)) V ⟪main_arg1⟫ = V ⟪main_arg1⟫ := by
  rw [after_ops]
  exact (keepI (W8 V) (b := main_arg1) (by decide)).trans ((keepH (W7 V) (b := main_arg1) (by decide)).trans ((keepG (W6 V) (b := main_arg1) (by decide)).trans ((keepF (W5 V) (b := main_arg1) (by decide)).trans ((keepE (W4 V) (b := main_arg1) (by decide)).trans ((keepD (W3 V) (b := main_arg1) (by decide)).trans ((keepC (W2 V) (b := main_arg1) (by decide)).trans ((keepB (W1 V) (b := main_arg1) (by decide)).trans (keepA V (b := main_arg1) (by decide)))))))))

theorem arg2_eq : after (ops (F := Ideal)) V ⟪main_arg2⟫ = V ⟪main_arg2⟫ := by
  rw [after_ops]
  exact (keepI (W8 V) (b := main_arg2) (by decide)).trans ((keepH (W7 V) (b := main_arg2) (by decide)).trans ((keepG (W6 V) (b := main_arg2) (by decide)).trans ((keepF (W5 V) (b := main_arg2) (by decide)).trans ((keepE (W4 V) (b := main_arg2) (by decide)).trans ((keepD (W3 V) (b := main_arg2) (by decide)).trans ((keepC (W2 V) (b := main_arg2) (by decide)).trans ((keepB (W1 V) (b := main_arg2) (by decide)).trans (keepA V (b := main_arg2) (by decide)))))))))

theorem arg3_eq : after (ops (F := Ideal)) V ⟪main_arg3⟫ = V ⟪main_arg3⟫ := by
  rw [after_ops]
  exact (keepI (W8 V) (b := main_arg3) (by decide)).trans ((keepH (W7 V) (b := main_arg3) (by decide)).trans ((keepG (W6 V) (b := main_arg3) (by decide)).trans ((keepF (W5 V) (b := main_arg3) (by decide)).trans ((keepE (W4 V) (b := main_arg3) (by decide)).trans ((keepD (W3 V) (b := main_arg3) (by decide)).trans ((keepC (W2 V) (b := main_arg3) (by decide)).trans ((keepB (W1 V) (b := main_arg3) (by decide)).trans (keepA V (b := main_arg3) (by decide)))))))))

theorem arg4_eq : after (ops (F := Ideal)) V ⟪main_arg4⟫ = V ⟪main_arg4⟫ := by
  rw [after_ops]
  exact (keepI (W8 V) (b := main_arg4) (by decide)).trans ((keepH (W7 V) (b := main_arg4) (by decide)).trans ((keepG (W6 V) (b := main_arg4) (by decide)).trans ((keepF (W5 V) (b := main_arg4) (by decide)).trans ((keepE (W4 V) (b := main_arg4) (by decide)).trans ((keepD (W3 V) (b := main_arg4) (by decide)).trans ((keepC (W2 V) (b := main_arg4) (by decide)).trans ((keepB (W1 V) (b := main_arg4) (by decide)).trans (keepA V (b := main_arg4) (by decide)))))))))

theorem arg5_eq : after (ops (F := Ideal)) V ⟪main_arg5⟫ = V ⟪main_arg5⟫ := by
  rw [after_ops]
  exact (keepI (W8 V) (b := main_arg5) (by decide)).trans ((keepH (W7 V) (b := main_arg5) (by decide)).trans ((keepG (W6 V) (b := main_arg5) (by decide)).trans ((keepF (W5 V) (b := main_arg5) (by decide)).trans ((keepE (W4 V) (b := main_arg5) (by decide)).trans ((keepD (W3 V) (b := main_arg5) (by decide)).trans ((keepC (W2 V) (b := main_arg5) (by decide)).trans ((keepB (W1 V) (b := main_arg5) (by decide)).trans (keepA V (b := main_arg5) (by decide)))))))))

end Cert.ReferenceIdeal.RefFold

end
-- ==== Proof.LibPointIdx.lean ====
/-
  The index computations shared by the two host programs, read at an index.

  A block of N points is an N×4 array of words: column 0 is the batch word, columns 1 … 3 the coordinates x, y, z.
  Both programs cut the coordinate columns out, test every coordinate against 0 ≤ · < 128 and combine the three
  tests of a point by a reduce-and, floor-divide the coordinates by the constant one, and replace the coordinates
  (and the batch word, and the features) of a point outside the grid by a constant through a select on the
  broadcast test bit. Every lemma here reads one of these compositions at an index, for any number of rows N, with
  the shape relations as hypotheses, so that it applies to either program's term.
-/
import Idealize.ShloMosaic.PureOps
import Idealize.ShloMosaic.PureOps.Ideal
import Idealize.ShloMosaic.PureOps.Reduce
import Idealize.ShloMosaic.Lib.ValueIdx
import Idealize.ShloMosaic.Lib.ValueLayout
import Idealize.ShloMosaic.Lib.Pipeline.Value
import Idealize.ShloMosaic.Lib.ReduceAll

noncomputable section

namespace Cert.PointIdx

open Idealize.ShloMosaic Idealize.ShloMosaic.ValueIdx

variable {α : Type}

/-! ## Columns cut out of a block of rows -/

/-- The last three of four columns: entry (e, k) of the cut is entry (e, k + 1) of the block. -/
theorem slice_cols_apply {N : Nat} (a0 : (⟨2, ![N, 4]⟩ : Shape).Idx → α)
    (hs : (⟨2, ![N, 4]⟩ : Shape).Slices ![0, 1] ⟨2, ![N, 3]⟩) (e : Fin N) (k : Fin 3) :
    extractStridedSlice ⟨2, ![N, 3]⟩ ![0, 1] a0 hs (ix2 e k) = a0 (ix2 e ⟨k.val + 1, by omega⟩) :=
  slice2_axis1_apply 1 a0 hs e k ⟨k.val + 1, by omega⟩ (by show k.val + 1 = 1 + k.val; omega)

/-- One column o of an N×M block, cut out as an N×1 block and cast to a vector of N entries: entry e is entry
    (e, o) of the block. -/
theorem col_apply {N M : Nat} (o : Nat) (ho : o < M) (v : (⟨2, ![N, M]⟩ : Shape).Idx → α)
    (hs : (⟨2, ![N, M]⟩ : Shape).Slices ![0, o] ⟨2, ![N, 1]⟩)
    (hc : (⟨2, ![N, 1]⟩ : Shape).ShapeCasts ⟨1, ![N]⟩) (e : Fin N) :
    shapeCast ⟨1, ![N]⟩ (extractStridedSlice ⟨2, ![N, 1]⟩ ![0, o] v hs) hc (ix1 e) = v (ix2 e ⟨o, ho⟩) := by
  refine (shapeCast_apply _ hc (ix1 e) (ix2 e (0 : Fin 1)) ?_).trans ?_
  · rw [Shape.rowMajor_val_two, Shape.rowMajor_val_one]
    show e.val * 1 + 0 = e.val
    omega
  · exact slice2_axis1_apply o v hs e (0 : Fin 1) ⟨o, ho⟩ rfl

/-! ## A vector laid out as a column, and a column spread over the rows' entries -/

/-- A vector of N entries laid out as an N×1 column reads, at (e, 0), the vector at e. -/
theorem col_bcast_apply {N : Nat} (h : (⟨1, ![N]⟩ : Shape).BroadcastsInDim ⟨2, ![N, 1]⟩ (![0] : Fin 1 → Fin 2))
    (v : (⟨1, ![N]⟩ : Shape).Idx → α) (e : Fin N) :
    broadcastInDim ⟨2, ![N, 1]⟩ (no_index ![0]) h v (ix2 e (0 : Fin 1)) = v (ix1 e) := by
  refine broadcastInDim_apply _ h v (ix2 e (0 : Fin 1)) (ix1 e) fun a => ?_
  match a with
  | ⟨0, _⟩ =>
    show e.val = if N = 1 then 0 else e.val
    split
    · have := e.isLt; omega
    · rfl

/-- An N×1 column spread over C columns reads, at (e, k), the column at (e, 0). -/
theorem row_bcast_apply {N C : Nat}
    (h : (⟨2, ![N, 1]⟩ : Shape).BroadcastsInDim ⟨2, ![N, C]⟩ (![0, 1] : Fin 2 → Fin 2))
    (v : (⟨2, ![N, 1]⟩ : Shape).Idx → α) (e : Fin N) (k : Fin C) :
    broadcastInDim ⟨2, ![N, C]⟩ (no_index ![0, 1]) h v (ix2 e k) = v (ix2 e (0 : Fin 1)) := by
  refine broadcastInDim_apply _ h v (ix2 e k) (ix2 e (0 : Fin 1)) fun a => ?_
  match a with
  | ⟨0, _⟩ =>
    show e.val = if N = 1 then 0 else e.val
    split
    · have := e.isLt; omega
    · rfl
  | ⟨1, _⟩ => rfl

/-- A scalar spread over any shape reads the scalar everywhere. -/
theorem scalar_bcast_apply {t : Shape} (h : (⟨0, ![]⟩ : Shape).BroadcastsInDim t (![] : Fin 0 → Fin t.rank))
    (c : (⟨0, ![]⟩ : Shape).Idx → α) (j : t.Idx) :
    broadcastInDim t (no_index ![]) h c j = c ix0 :=
  broadcastInDim_apply _ h c j ix0 fun a => a.elim0

/-! ## The selects on the broadcast test bit -/

/-- A point's bit, laid out as a column and spread over the C entries of its row, selects between the row's
    entry and a scalar spread over the block: entry (e, k) is the block's where the bit of e is 1, the scalar
    otherwise. The entries may be words or floats. -/
theorem where_rows_apply {N C : Nat}
    (h2 : (⟨2, ![N, 1]⟩ : Shape).BroadcastsInDim ⟨2, ![N, C]⟩ (![0, 1] : Fin 2 → Fin 2))
    (h1 : (⟨1, ![N]⟩ : Shape).BroadcastsInDim ⟨2, ![N, 1]⟩ (![0] : Fin 1 → Fin 2))
    (h0 : (⟨0, ![]⟩ : Shape).BroadcastsInDim ⟨2, ![N, C]⟩ (![] : Fin 0 → Fin 2))
    (mk : IVec ⟨1, ![N]⟩ 1) (v : (⟨2, ![N, C]⟩ : Shape).Idx → α) (c : (⟨0, ![]⟩ : Shape).Idx → α)
    (e : Fin N) (k : Fin C) :
    select (broadcastInDim ⟨2, ![N, C]⟩ (no_index ![0, 1]) h2 (broadcastInDim ⟨2, ![N, 1]⟩ (no_index ![0]) h1 mk)) v
        (broadcastInDim ⟨2, ![N, C]⟩ (no_index ![]) h0 c) (ix2 e k)
      = if mk (ix1 e) = 1#1 then v (ix2 e k) else c ix0 := by
  rw [select_apply, row_bcast_apply, col_bcast_apply, scalar_bcast_apply]
  rfl

/-- A vector of bits selects between a vector's entry and a scalar spread over the vector. -/
theorem where_vec_apply {N : Nat}
    (h0 : (⟨0, ![]⟩ : Shape).BroadcastsInDim ⟨1, ![N]⟩ (![] : Fin 0 → Fin 1))
    (mk : IVec ⟨1, ![N]⟩ 1) (v : (⟨1, ![N]⟩ : Shape).Idx → α) (c : (⟨0, ![]⟩ : Shape).Idx → α) (e : Fin N) :
    select mk v (broadcastInDim ⟨1, ![N]⟩ (no_index ![]) h0 c) (ix1 e)
      = if mk (ix1 e) = 1#1 then v (ix1 e) else c ix0 := by
  rw [select_apply, scalar_bcast_apply]
  rfl

/-! ## The in-grid test of a point -/

/-- A one-bit word is 0 or 1. -/
theorem bit_cases (a : BitVec 1) : a = 0#1 ∨ a = 1#1 := by
  by_cases h : a = 1#1
  · exact Or.inr h
  · exact Or.inl (eq_zero_of_ne_one h)

/-- The and of two bits is 1 exactly when both are. -/
theorem andi_eq_one_iff (a b : BitVec 1) : IntOp.andi a b = 1#1 ↔ a = 1#1 ∧ b = 1#1 := by
  rcases bit_cases a with rfl | rfl <;> rcases bit_cases b with rfl | rfl <;> decide

/-- The and of a family of bits, started from 1, is 1 exactly when every member is. -/
theorem fold_andi_eq_one_iff {ι : Type} [DecidableEq ι] (S : Finset ι) (g : ι → BitVec 1) :
    S.fold IntOp.andi 1#1 g = 1#1 ↔ ∀ i ∈ S, g i = 1#1 := by
  induction S using Finset.induction_on with
  | empty => simp
  | insert a S ha ih =>
    rw [Finset.fold_insert ha, andi_eq_one_iff, ih, Finset.forall_mem_insert]

/-- The two comparisons of one coordinate word against 0 and 128, combined: 1 exactly when the word, read
    signed, lies in [0, 128). -/
theorem inRange_bit_eq_one_iff (a : BitVec 32) :
    IntOp.andi (IntOp.cmpi .sge a 0#32) (IntOp.cmpi .slt a 128#32) = 1#1 ↔ 0 ≤ a.toInt ∧ a.toInt < 128 := by
  rw [andi_eq_one_iff]
  have h0 : IntOp.cmpi .sge a 0#32 = 1#1 ↔ 0 ≤ a.toInt := by
    show BitVec.ofBool ((0#32).sle a) = 1#1 ↔ _
    rw [BitVec.sle_eq_decide]
    by_cases h : (0#32).toInt ≤ a.toInt
    · rw [decide_eq_true h]; exact ⟨fun _ => h, fun _ => rfl⟩
    · rw [decide_eq_false h]; exact ⟨fun c => absurd c (by decide), fun c => absurd c h⟩
  have h1 : IntOp.cmpi .slt a 128#32 = 1#1 ↔ a.toInt < 128 := by
    show BitVec.ofBool (a.slt 128#32) = 1#1 ↔ _
    rw [BitVec.slt_eq_decide]
    by_cases h : a.toInt < (128#32).toInt
    · rw [decide_eq_true h]; exact ⟨fun _ => h, fun _ => rfl⟩
    · rw [decide_eq_false h]; exact ⟨fun c => absurd c (by decide), fun c => absurd c h⟩
  rw [h0, h1]

/-- A point's three coordinate words, read signed, all lie in [0, 128). -/
def inGridW {N : Nat} (x : IVec ⟨2, ![N, 3]⟩ 32) (e : Fin N) : Prop :=
  (0 ≤ (x (ix2 e 0)).toInt ∧ (x (ix2 e 0)).toInt < 128) ∧ (0 ≤ (x (ix2 e 1)).toInt ∧ (x (ix2 e 1)).toInt < 128)
    ∧ (0 ≤ (x (ix2 e 2)).toInt ∧ (x (ix2 e 2)).toInt < 128)

instance {N : Nat} (x : IVec ⟨2, ![N, 3]⟩ 32) (e : Fin N) : Decidable (inGridW x e) := by
  unfold inGridW; infer_instance

/-- The row index e of the reduced vector with column k put back is (e, k). -/
theorem lift_cols {N : Nat} (h : (⟨2, ![N, 3]⟩ : Shape).Reduces [1] ⟨1, ![N]⟩) (e : Fin N)
    (k : Fin ((⟨2, ![N, 3]⟩ : Shape).size 1)) : h.lift (ix1 e) k = ix2 e (⟨k.val, k.isLt⟩ : Fin 3) := by
  funext c; apply Fin.ext
  fin_cases c <;> rfl

/-- The in-grid bit of a point: every coordinate compared against 0 (at least) and against 128 (less than), the
    two bits of a coordinate combined, and the three coordinates' bits of a point reduced by and from 1. The result
    at point e is 1 when all three coordinates lie in [0, 128) and 0 otherwise. -/
theorem mask_apply {N : Nat}
    (hb0 : (⟨0, ![]⟩ : Shape).BroadcastsInDim ⟨2, ![N, 3]⟩ (![] : Fin 0 → Fin 2))
    (hb1 : (⟨1, ![3]⟩ : Shape).BroadcastsInDim ⟨2, ![1, 3]⟩ (![1] : Fin 1 → Fin 2))
    (hb2 : (⟨2, ![1, 3]⟩ : Shape).BroadcastsInDim ⟨2, ![N, 3]⟩ (![0, 1] : Fin 2 → Fin 2))
    (hred : (⟨2, ![N, 3]⟩ : Shape).ReducesTo [1] ⟨1, ![N]⟩) (hpos : 0 < (⟨0, ![]⟩ : Shape).numel)
    (x : IVec ⟨2, ![N, 3]⟩ 32) (e : Fin N) :
    Host.reduce IntOp.andi
        (andi (cmpi .sge x (broadcastInDim ⟨2, ![N, 3]⟩ (no_index ![]) hb0 (constantI ⟨0, ![]⟩ 32 0#32)))
          (cmpi .slt x (broadcastInDim ⟨2, ![N, 3]⟩ (no_index ![0, 1]) hb2
            (broadcastInDim ⟨2, ![1, 3]⟩ (no_index ![1]) hb1 (constantI ⟨1, ![3]⟩ 32 128#32)))))
        (constantI ⟨0, ![]⟩ 1 1#1) hred hpos (ix1 e)
      = if inGridW x e then 1#1 else 0#1 := by
  have h : (⟨2, ![N, 3]⟩ : Shape).Reduces [1] ⟨1, ![N]⟩ := ⟨hred.1, Nat.one_pos, hred.2⟩
  rw [Host.reduce_eq_fold_single IntOp.andi _ _ hred h hpos]
  have key : ∀ k : Fin 3,
      (andi (cmpi .sge x (broadcastInDim ⟨2, ![N, 3]⟩ ![] hb0 (constantI ⟨0, ![]⟩ 32 0#32)))
          (cmpi .slt x (broadcastInDim ⟨2, ![N, 3]⟩ ![0, 1] hb2
            (broadcastInDim ⟨2, ![1, 3]⟩ ![1] hb1 (constantI ⟨1, ![3]⟩ 32 128#32))))) (ix2 e k) = 1#1
        ↔ 0 ≤ (x (ix2 e k)).toInt ∧ (x (ix2 e k)).toInt < 128 := fun k =>
    inRange_bit_eq_one_iff (x (ix2 e k))
  have all : (Finset.univ : Finset (Fin ((⟨2, ![N, 3]⟩ : Shape).size 1))).fold IntOp.andi
        (constantI ⟨0, ![]⟩ 1 1#1 (Shape.Idx.first hpos))
        ((andi (cmpi .sge x (broadcastInDim ⟨2, ![N, 3]⟩ ![] hb0 (constantI ⟨0, ![]⟩ 32 0#32)))
          (cmpi .slt x (broadcastInDim ⟨2, ![N, 3]⟩ ![0, 1] hb2
            (broadcastInDim ⟨2, ![1, 3]⟩ ![1] hb1 (constantI ⟨1, ![3]⟩ 32 128#32))))) ∘ h.lift (ix1 e)) = 1#1
      ↔ inGridW x e := by
    refine (fold_andi_eq_one_iff (Finset.univ : Finset (Fin ((⟨2, ![N, 3]⟩ : Shape).size 1))) _).trans ?_
    have rd : ∀ k : Fin ((⟨2, ![N, 3]⟩ : Shape).size 1),
        ((andi (cmpi .sge x (broadcastInDim ⟨2, ![N, 3]⟩ ![] hb0 (constantI ⟨0, ![]⟩ 32 0#32)))
          (cmpi .slt x (broadcastInDim ⟨2, ![N, 3]⟩ ![0, 1] hb2
            (broadcastInDim ⟨2, ![1, 3]⟩ ![1] hb1 (constantI ⟨1, ![3]⟩ 32 128#32))))) ∘ h.lift (ix1 e)) k = 1#1
          ↔ 0 ≤ (x (ix2 e (⟨k.val, k.isLt⟩ : Fin 3))).toInt ∧ (x (ix2 e (⟨k.val, k.isLt⟩ : Fin 3))).toInt < 128 := by
      intro k
      rw [Function.comp_apply, lift_cols]
      exact key _
    constructor
    · intro hall
      exact ⟨(rd ⟨0, (by show 0 < 3; omega)⟩).1 (hall _ (Finset.mem_univ _)), (rd ⟨1, (by show 1 < 3; omega)⟩).1 (hall _ (Finset.mem_univ _)),
        (rd ⟨2, (by show 2 < 3; omega)⟩).1 (hall _ (Finset.mem_univ _))⟩
    · intro hg k _
      refine (rd k).2 ?_
      match k with
      | ⟨0, _⟩ => exact hg.1
      | ⟨1, _⟩ => exact hg.2.1
      | ⟨2, _⟩ => exact hg.2.2
  by_cases hg : inGridW x e
  · rw [if_pos hg]; exact all.2 hg
  · rw [if_neg hg]; exact eq_zero_of_ne_one fun h1 => hg (all.1 h1)

/-! ## Floor division by the constant one -/

/-- The host's signed division of a word by 1 is the word: 1 is neither zero nor −1, so the division is the
    rounding-toward-zero quotient, which for the divisor 1 is the dividend. -/
theorem host_divsi_one (a : BitVec 32) : IntOp.divsi .host a 1#32 = a := by
  unfold IntOp.divsi
  rw [if_neg (fun h : IntOp.SDivCorner a 1#32 => h.elim (by decide) fun h' => absurd h'.2 (by decide))]
  exact BitVec.sdiv_one

/-- The host's signed remainder of a word by 1 is zero. -/
theorem host_remsi_one (a : BitVec 32) : IntOp.remsi .host a 1#32 = 0#32 := by
  unfold IntOp.remsi
  rw [if_neg (fun h : IntOp.SDivCorner a 1#32 => h.elim (by decide) fun h' => absurd h'.2 (by decide))]
  exact BitVec.srem_one

/-- Floor division of a block of coordinate words by a scalar whose word is 1, as the host computes it: the
    quotient toward zero, less one where the signs of dividend and divisor differ and the remainder is not zero.
    The remainder by 1 is zero, so the correction is never taken, and the quotient by 1 is the dividend: every
    entry is unchanged. -/
theorem floorDiv_one_apply {N : Nat} (hb : (⟨0, ![]⟩ : Shape).BroadcastsInDim ⟨2, ![N, 3]⟩ (![] : Fin 0 → Fin 2))
    (x : IVec ⟨2, ![N, 3]⟩ 32) (d : IVec ⟨0, ![]⟩ 32) (i : (⟨2, ![N, 3]⟩ : Shape).Idx) (hd : d ix0 = 1#32) :
    select
        (andi (cmpi .ne (signi x) (broadcastInDim ⟨2, ![N, 3]⟩ (no_index ![]) hb (signi d)))
          (cmpi .ne (Host.remsi x (broadcastInDim ⟨2, ![N, 3]⟩ (no_index ![]) hb d))
            (broadcastInDim ⟨2, ![N, 3]⟩ (no_index ![]) hb (constantI ⟨0, ![]⟩ 32 0#32))))
        (subi (Host.divsi x (broadcastInDim ⟨2, ![N, 3]⟩ (no_index ![]) hb d))
          (broadcastInDim ⟨2, ![N, 3]⟩ (no_index ![]) hb (constantI ⟨0, ![]⟩ 32 1#32)))
        (Host.divsi x (broadcastInDim ⟨2, ![N, 3]⟩ (no_index ![]) hb d)) i
      = x i := by
  have hbd : broadcastInDim ⟨2, ![N, 3]⟩ ![] hb d i = 1#32 := (scalar_bcast_apply hb d i).trans hd
  have hdiv : Host.divsi x (broadcastInDim ⟨2, ![N, 3]⟩ ![] hb d) i = x i := by
    show IntOp.divsi .host (x i) (broadcastInDim ⟨2, ![N, 3]⟩ ![] hb d i) = x i
    rw [hbd, host_divsi_one]
  have hrem : Host.remsi x (broadcastInDim ⟨2, ![N, 3]⟩ ![] hb d) i = 0#32 := by
    show IntOp.remsi .host (x i) (broadcastInDim ⟨2, ![N, 3]⟩ ![] hb d i) = 0#32
    rw [hbd, host_remsi_one]
  have hbit : andi (cmpi .ne (signi x) (broadcastInDim ⟨2, ![N, 3]⟩ ![] hb (signi d)))
      (cmpi .ne (Host.remsi x (broadcastInDim ⟨2, ![N, 3]⟩ ![] hb d))
        (broadcastInDim ⟨2, ![N, 3]⟩ ![] hb (constantI ⟨0, ![]⟩ 32 0#32))) i = 0#1 := by
    show IntOp.andi _ (IntOp.cmpi .ne (Host.remsi x (broadcastInDim ⟨2, ![N, 3]⟩ ![] hb d) i) 0#32) = 0#1
    rw [hrem]
    exact BitVec.and_zero
  rw [select_apply, hbit, select_zero, hdiv]

/-- The same as one equation of blocks: floor division by a scalar whose word is 1 returns the block. -/
theorem floorDiv_one {N : Nat} (hb : (⟨0, ![]⟩ : Shape).BroadcastsInDim ⟨2, ![N, 3]⟩ (![] : Fin 0 → Fin 2))
    (x : IVec ⟨2, ![N, 3]⟩ 32) (d : IVec ⟨0, ![]⟩ 32) (hd : d ix0 = 1#32) :
    select
        (andi (cmpi .ne (signi x) (broadcastInDim ⟨2, ![N, 3]⟩ (no_index ![]) hb (signi d)))
          (cmpi .ne (Host.remsi x (broadcastInDim ⟨2, ![N, 3]⟩ (no_index ![]) hb d))
            (broadcastInDim ⟨2, ![N, 3]⟩ (no_index ![]) hb (constantI ⟨0, ![]⟩ 32 0#32))))
        (subi (Host.divsi x (broadcastInDim ⟨2, ![N, 3]⟩ (no_index ![]) hb d))
          (broadcastInDim ⟨2, ![N, 3]⟩ (no_index ![]) hb (constantI ⟨0, ![]⟩ 32 1#32)))
        (Host.divsi x (broadcastInDim ⟨2, ![N, 3]⟩ (no_index ![]) hb d))
      = x :=
  funext fun i => floorDiv_one_apply hb x d i hd

/-- Floor division by the scalar constant 1, passed through the identity conversion of its element type: the
    block is unchanged. -/
theorem floorDiv_const_one {N : Nat} (hb : (⟨0, ![]⟩ : Shape).BroadcastsInDim ⟨2, ![N, 3]⟩ (![] : Fin 0 → Fin 2))
    (x : IVec ⟨2, ![N, 3]⟩ 32) :
    select
        (andi (cmpi .ne (signi x) (broadcastInDim ⟨2, ![N, 3]⟩ (no_index ![]) hb (signi (id (constantI ⟨0, ![]⟩ 32 1#32)))))
          (cmpi .ne (Host.remsi x (broadcastInDim ⟨2, ![N, 3]⟩ (no_index ![]) hb (id (constantI ⟨0, ![]⟩ 32 1#32))))
            (broadcastInDim ⟨2, ![N, 3]⟩ (no_index ![]) hb (constantI ⟨0, ![]⟩ 32 0#32))))
        (subi (Host.divsi x (broadcastInDim ⟨2, ![N, 3]⟩ (no_index ![]) hb (id (constantI ⟨0, ![]⟩ 32 1#32))))
          (broadcastInDim ⟨2, ![N, 3]⟩ (no_index ![]) hb (constantI ⟨0, ![]⟩ 32 1#32)))
        (Host.divsi x (broadcastInDim ⟨2, ![N, 3]⟩ (no_index ![]) hb (id (constantI ⟨0, ![]⟩ 32 1#32))))
      = x :=
  floorDiv_one hb x (id (constantI ⟨0, ![]⟩ 32 1#32)) rfl

end Cert.PointIdx

end
-- ==== Proof.RefRead.lean ====
/-
  The composed term of the reference program read index by index: it is the layer the specification states.

  Each stage is read at an entry (i, c). A product with a transposed matrix is the sum over the contracted
  coordinate k of the left entry (i, k) times the matrix entry (c, k). A vector laid out as a column and spread
  along the rows contributes its i-th entry to (i, c); laid out as a row and spread down the columns, its c-th
  entry. The program's rectifier at an entry is the leaky rectifier of the entry. The product of a table's
  transpose with the table is, at (r, c), the sum over the rows v of entry (v, r) times entry (v, c).
-/
import proofs.«176856_j40638980555154_2_alg».proof.Proof.RefTerm
import proofs.«176856_j40638980555154_2_alg».proof.Proof.LibPointIdx
import Idealize.ShloMosaic.Lib.StackMember
import Idealize.ShloMosaic.Lib.ValueLayout

noncomputable section

open scoped BigOperators

namespace Cert.ReferenceIdeal.RefRead

open Cert.ReferenceIdeal Cert.ReferenceIdeal.Facts₀ Cert.ReferenceIdeal.RefTerm Cert.Hyper
open Idealize.ShloMosaic Idealize.ShloMosaic.ValueIdx

/-! ## A vector as a row, spread down the columns -/

/-- A vector of C entries laid out as a 1×C row and spread over N rows reads, at (e, k), the vector at k. -/
theorem rowvec_bcast_apply {α : Type} {N C : Nat}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (v : (⟨1, ![C]⟩ : Shape).Idx → α) (e : Fin N) (k : Fin C) :
    broadcastInDim ⟨2, ![N, C]⟩ (no_index ![0, 1]) h2 (broadcastInDim ⟨2, ![1, C]⟩ (no_index ![1]) h1 v) (ix2 e k)
      = v (ix1 k) := by
  refine (broadcastInDim_apply _ h2 _ (ix2 e k) (ix2 (0 : Fin 1) k) fun a => ?_).trans ?_
  · match a with
    | ⟨0, _⟩ => rfl
    | ⟨1, _⟩ =>
      show k.val = if C = 1 then 0 else k.val
      split
      · have := k.isLt; omega
      · rfl
  · refine broadcastInDim_apply _ h1 v (ix2 (0 : Fin 1) k) (ix1 k) fun a => ?_
    match a with
    | ⟨0, _⟩ =>
      show k.val = if C = 1 then 0 else k.val
      split
      · have := k.isLt; omega
      · rfl

/-! ## The rectifier at an entry -/

/-- The program's rectifier (the comparison with the zero table, the slope table times the operand, the selection)
    at an entry is the leaky rectifier of the operand's entry. -/
theorem lrelu_apply {s : Shape} (h : S_.BroadcastsInDim s (![] : Fin 0 → Fin s.rank)) (x : FVec Ideal s .f32) (j : s.Idx) :
    select (cmpf .oge x (broadcastInDim s ![] h (constant (F := Ideal) S_ .f32 0x00000000#32))) x
        (mulf (broadcastInDim s ![] h (id (constant (F := Ideal) S_ .f32 0x3C23D70A#32))) x) j
      = leaky (x j) := by
  rw [select_apply, cmpf_apply, mulf_apply, Cert.PointIdx.scalar_bcast_apply, Cert.PointIdx.scalar_bcast_apply]
  rfl

/-! ## The stages -/

/-- The node table contracted with the weight's transpose is every node row times the transposed weight. -/
theorem xW_eq (emb : FVec Ideal S50000x256 .f32) (W : FVec Ideal S256x256 .f32) : xW emb W = project emb W := by
  funext j
  obtain ⟨a, b, rfl⟩ : ∃ (a : Fin 50000) (b : Fin 256), j = ix2 a b := ⟨j 0, j 1, eq_ix2 j⟩
  unfold xW project
  refine (StackMember.dotGeneral_plain_apply (m := 50000) (n := 256) (k := 256) none emb _ a b).trans ?_
  refine Finset.sum_congr rfl fun k _ => ?_
  rw [transpose_ix2_apply]

/-- Scaling a hyperedge table by a vector spread along the rows multiplies every row by its entry of the vector. -/
theorem scaleE_eq (t : FVec Ideal S10000x256 .f32) (d : FVec Ideal S10000 .f32) : scaleE t d = scaleRows t d := by
  funext j
  obtain ⟨a, b, rfl⟩ : ∃ (a : Fin 10000) (b : Fin 256), j = ix2 a b := ⟨j 0, j 1, eq_ix2 j⟩
  unfold scaleE scaleRows
  rw [mulf_apply, Cert.PointIdx.row_bcast_apply, Cert.PointIdx.col_bcast_apply]

/-- The same over the node table. -/
theorem scaleN_eq (t : FVec Ideal S50000x256 .f32) (d : FVec Ideal S50000 .f32) : scaleN t d = scaleRows t d := by
  funext j
  obtain ⟨a, b, rfl⟩ : ∃ (a : Fin 50000) (b : Fin 256), j = ix2 a b := ⟨j 0, j 1, eq_ix2 j⟩
  unfold scaleN scaleRows
  rw [mulf_apply, Cert.PointIdx.row_bcast_apply, Cert.PointIdx.col_bcast_apply]

/-- The rectifier of a node table plus a vector spread down the columns: at (i, c), the leaky rectifier of the
    table's entry plus the vector's c-th entry. -/
theorem act_eq (t : FVec Ideal S50000x256 .f32) (b : FVec Ideal S256 .f32) :
    lreluN (addRowN t b) = fun j => leaky (t j + b (ix1 (j 1))) := by
  funext j
  obtain ⟨a, c, rfl⟩ : ∃ (a : Fin 50000) (c : Fin 256), j = ix2 a c := ⟨j 0, j 1, eq_ix2 j⟩
  unfold lreluN
  rw [lrelu_apply]
  unfold addRowN
  rw [addf_apply, rowvec_bcast_apply]

/-- The transpose of a node table contracted with the table is the sum over the nodes of the products of the
    two columns' entries. -/
theorem gram_eq (y : FVec Ideal S50000x256 .f32) : gram y = gramFull y := by
  funext j
  obtain ⟨r, c, rfl⟩ : ∃ (r : Fin 256) (c : Fin 256), j = ix2 r c := ⟨j 0, j 1, eq_ix2 j⟩
  unfold gram gramFull
  refine (StackMember.dotGeneral_plain_apply (m := 256) (n := 256) (k := 50000) none _ y r c).trans ?_
  refine Finset.sum_congr rfl fun v _ => ?_
  rw [transpose_ix2_apply]

/-- The last layer: the product with the transposed matrix plus the vector spread down the columns, rectified. -/
theorem dense_eq (g L : FVec Ideal S256x256 .f32) (l : FVec Ideal S256 .f32) :
    lreluC (addRowC (timesT g L) l) = dense g L l := by
  funext j
  obtain ⟨r, c, rfl⟩ : ∃ (r : Fin 256) (c : Fin 256), j = ix2 r c := ⟨j 0, j 1, eq_ix2 j⟩
  unfold lreluC
  rw [lrelu_apply]
  unfold addRowC dense
  rw [addf_apply, rowvec_bcast_apply]
  unfold timesT
  refine congrArg leaky (congrArg (· + l (ix1 c)) ?_)
  refine (StackMember.dotGeneral_plain_apply (m := 256) (n := 256) (k := 256) none g _ r c).trans ?_
  refine Finset.sum_congr rfl fun k _ => ?_
  rw [transpose_ix2_apply]

/-- The composed term is the layer as the specification states it. -/
theorem refTerm_eq (emb : FVec Ideal S50000x256 .f32) (W : FVec Ideal S256x256 .f32) (b : FVec Ideal S256 .f32)
    (L : FVec Ideal S256x256 .f32) (l : FVec Ideal S256 .f32) (ei : IVec S2x800000 32) :
    refTerm emb W b L l ei = refMath emb W b L l ei := by
  unfold refTerm refMath
  rw [dense_eq, gram_eq, act_eq, scaleN_eq, scaleE_eq, xW_eq]

end Cert.ReferenceIdeal.RefRead

end
-- ==== Proof.RefRun.lean ====
/-
  The run of the reference program read back as one function of its six argument arrays.

  From any memory with zero counters every weakly fair execution of the entry function terminates; the result
  buffer then holds the hypergraph layer of the six argument arrays as the specification states it, and the
  argument buffers are unchanged.
-/
import proofs.«176856_j40638980555154_2_alg».proof.Proof.RefFold
import proofs.«176856_j40638980555154_2_alg».proof.Proof.RefRead

noncomputable section
namespace Cert.ReferenceIdeal.RefRun
open Cert.ReferenceIdeal Cert.ReferenceIdeal.Gen Idealize.ShloMosaic Idealize.ShloMosaic.TcCoe Idealize.SL.Sem Idealize.ShloMosaic.StableHlo

/-- Every weakly fair execution of the reference program terminates with the result buffer at the layer of the
    argument arrays and the argument buffers unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60)
        = Cert.Hyper.refMath (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v60).trans ((RefFold.out_eq (launchContents m c)).trans (RefRead.refTerm_eq _ _ _ _ _ _)),
        (h c main_arg0).trans (RefFold.arg0_eq (launchContents m c)),
        (h c main_arg1).trans (RefFold.arg1_eq (launchContents m c)),
        (h c main_arg2).trans (RefFold.arg2_eq (launchContents m c)),
        (h c main_arg3).trans (RefFold.arg3_eq (launchContents m c)),
        (h c main_arg4).trans (RefFold.arg4_eq (launchContents m c)),
        (h c main_arg5).trans (RefFold.arg5_eq (launchContents m c))⟩)
    (RefOps.run_main m ρ)

end Cert.ReferenceIdeal.RefRun
end
-- ==== Proof.SumLaws.lean ====
/-
  Three laws of finite sums used to join the two arrangements of the layer.

  (1) The embedding of the reals in the extended reals commutes with finite sums.
  (2) Exchange: for REAL data x(e, k) and w(k) and any selection p of the index e,
        ∑ₖ (∑ₑ [p e] x(e, k)) · w(k)  =  ∑ₑ [p e] (∑ₖ x(e, k) · w(k)),
      read in the extended reals with a leading 0 on both sides (the empty table a sum starts from). Moving the
      factor w(k) inside the sum over e is distributivity, which the extended reals have only away from the
      infinities: this is where the inputs have to be finite.
  (3) Regrouping: a sum over 50000 rows is the sum over two halves, each the sum over five blocks of 5000 rows,
      row ((5 p + k) · 5000 + r) being row r of block k of half p. Only commutativity and associativity of
      addition are used, so this holds for extended reals as they are.
-/
import proofs.«176856_j40638980555154_2_alg».proof.Proof.Spec

noncomputable section

open scoped BigOperators

namespace Cert.Hyper

/-- The embedding of ℝ in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A selected real entry, embedded. -/
theorem coe_ite (p : Prop) [Decidable p] (a : ℝ) :
    (if p then (a : EReal) else 0) = ((if p then a else 0 : ℝ) : EReal) := by
  split_ifs <;> simp

/-- Exchange of the sum over selected rows with the contraction against a real vector. -/
theorem sum_exchange {ι κ : Type*} [Fintype ι] [Fintype κ] (p : ι → Prop) [DecidablePred p]
    (x : ι → κ → ℝ) (w : κ → ℝ) :
    ∑ k, ((0 : EReal) + ∑ e, if p e then (x e k : EReal) else 0) * (w k : EReal)
      = 0 + ∑ e, if p e then ∑ k, (x e k : EReal) * (w k : EReal) else 0 := by
  have h1 : ∀ k, ((0 : EReal) + ∑ e, if p e then (x e k : EReal) else 0)
      = ((∑ e, if p e then x e k else 0 : ℝ) : EReal) := by
    intro k
    rw [zero_add, coe_sum]
    exact Finset.sum_congr rfl fun e _ => coe_ite _ _
  have h2 : ∀ e, (if p e then ∑ k, (x e k : EReal) * (w k : EReal) else 0)
      = ((if p e then ∑ k, x e k * w k else 0 : ℝ) : EReal) := by
    intro e
    rw [← coe_ite, coe_sum]
    refine if_congr Iff.rfl (Finset.sum_congr rfl fun k _ => (EReal.coe_mul _ _).symm) rfl
  simp only [h1, h2, zero_add]
  simp only [← EReal.coe_mul, ← coe_sum]
  rw [EReal.coe_eq_coe_iff]
  simp only [Finset.sum_mul]
  rw [Finset.sum_comm]
  refine Finset.sum_congr rfl fun e _ => ?_
  by_cases h : p e
  · simp [h]
  · simp [h]

/-- The 50000 rows as two halves of five blocks of 5000 rows. -/
def rowEquiv : Fin 2 × Fin 5 × Fin 5000 ≃ Fin 50000 where
  toFun x := blockRow x.1 x.2.1 x.2.2
  invFun v := (⟨v.val / 25000, by have := v.isLt; omega⟩, ⟨v.val % 25000 / 5000, by have := v.isLt; omega⟩,
    ⟨v.val % 5000, by omega⟩)
  left_inv := by
    rintro ⟨p, k, r⟩
    have hp := p.isLt; have hk := k.isLt; have hr := r.isLt
    refine Prod.ext (Fin.ext ?_) (Prod.ext (Fin.ext ?_) (Fin.ext ?_))
    · show ((p.val * 5 + k.val) * 5000 + r.val) / 25000 = p.val
      omega
    · show ((p.val * 5 + k.val) * 5000 + r.val) % 25000 / 5000 = k.val
      omega
    · show ((p.val * 5 + k.val) * 5000 + r.val) % 5000 = r.val
      omega
  right_inv := by
    intro v
    have hv := v.isLt
    refine Fin.ext ?_
    show (v.val / 25000 * 5 + v.val % 25000 / 5000) * 5000 + v.val % 5000 = v.val
    omega

/-- A sum over the 50000 rows, regrouped by half, block and row of the block. -/
theorem sum_rows_blocks {M : Type*} [AddCommMonoid M] (f : Fin 50000 → M) :
    ∑ v, f v = ∑ p : Fin 2, ∑ k : Fin 5, ∑ r : Fin 5000, f (blockRow p k r) := by
  rw [← rowEquiv.sum_comp f, Fintype.sum_prod_type]
  refine Finset.sum_congr rfl fun p _ => ?_
  rw [Fintype.sum_prod_type]
  rfl

end Cert.Hyper

end
-- ==== Proof.LibGatherRows.lean ====
/-
  Two shape operations of a table of rows, read at an index.

  A table has N rows of C columns. Gathering its rows at R start indices (one per result row, stored as an
  R×1 array of words) gives an R×C array whose row e is the table's row at the e-th start index, the index
  read as a signed integer and clamped into [0, N − 1]. Scatter-adding R update rows onto the table at R
  start indices adds to every table entry the update entries of the same column whose row's start index,
  read as a signed integer and NOT clamped, is the entry's row; an update row whose index is outside
  [0, N) lands nowhere.
-/
import Idealize.ShloMosaic.PureOps.Ideal
import Idealize.ShloMosaic.Lib.ValueIdx

noncomputable section

open scoped BigOperators

namespace Cert.GatherRows

open Idealize.ShloMosaic Idealize.ShloMosaic.ValueIdx

variable {α : Type}

/-! ## Gathering rows -/

/-- The dimension numbers of a row gather: operand N×C, start indices R×1 (the index vector on axis 1),
    result R×C; the operand's row axis is collapsed and indexed, the column axis is the one offset axis,
    a slice is one whole row. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry (e, c) of a row gather is the table's entry in column c of the row named by the e-th start index,
    read signed and clamped into [0, N − 1]. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowsDims N R C wf) x idx (ix2 e c)
      = x (ix2 ⟨min (idx (ix2 e 0)).toInt.toNat (N - 1), by omega⟩ c) := by
  unfold Host.gather
  congr 1
  funext a
  refine Fin.ext ?_
  show (rowsDims N R C wf).start (ix2 e c) idx a + (rowsDims N R C wf).batchCoord (ix2 e c) a
      + (rowsDims N R C wf).offCoord (ix2 e c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (rowsDims N R C wf).startIndexMap from List.mem_singleton.mpr rfl)]
    have hsi : (rowsDims N R C wf).siIdx (ix2 e c) ⟨List.idxOf (⟨0, by decide⟩ : Fin 2) (rowsDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have h01 : (1 : Fin 2) ∉ ([0] : List (Fin 2)) := by decide
    have hs : (rowsDims N R C wf).start (ix2 e c) idx (1 : Fin 2) = 0 := by
      unfold GatherDims.start; rw [dif_neg h01]
    have hk : (1 : Fin 2) ∈ (rowsDims N R C wf).sKept :=
      (GatherDims.mem_sKept _ _).mpr ⟨h01, List.not_mem_nil⟩
    have ho : (rowsDims N R C wf).offCoord (ix2 e c) (1 : Fin 2) = c.val := by
      unfold GatherDims.offCoord; rw [dif_pos hk]; rfl
    show (rowsDims N R C wf).start (ix2 e c) idx (1 : Fin 2) + 0 + (rowsDims N R C wf).offCoord (ix2 e c) (1 : Fin 2) = c.val
    rw [hs, ho]; omega

/-! ## Scatter-adding rows -/

/-- The dimension numbers of a row scatter: operand N×C, scatter indices R×1 (the index vector on axis 1),
    updates R×C; the operand's row axis is the inserted, indexed one, the column axis is the one window axis. -/
abbrev rowsScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Scatter

variable {N R C w : Nat} (wf : ScatterDims.WF ⟨2, ![N, C]⟩ ⟨2, ![R, 1]⟩ ⟨2, ![R, C]⟩ [1] [0] [0] 1)
  (idx : IVec ⟨2, ![R, 1]⟩ w) (e : Fin R) (c' : Fin C)

/-- On the row axis an update entry starts at its row's index word, read signed. -/
theorem rows_start_row :
    (rowsScatterDims N R C wf).start (ix2 e c') idx (0 : Fin 2) = (idx (ix2 e 0)).toInt := by
  unfold ScatterDims.start
  rw [dif_pos (show (0 : Fin 2) ∈ (rowsScatterDims N R C wf).scatterDimsToOperandDims from List.mem_singleton.mpr rfl)]
  congr 2
  funext b; refine Fin.ext ?_
  match b with
  | ⟨0, _⟩ => rfl
  | ⟨1, _⟩ => rfl

/-- On the column axis it starts at 0. -/
theorem rows_start_col : (rowsScatterDims N R C wf).start (ix2 e c') idx (1 : Fin 2) = 0 := by
  have h01 : (1 : Fin 2) ∉ ([0] : List (Fin 2)) := by decide
  unfold ScatterDims.start; rw [dif_neg h01]

/-- The row axis carries no window coordinate. -/
theorem rows_window_row : (rowsScatterDims N R C wf).window (ix2 e c') (0 : Fin 2) = 0 := by
  have h : (0 : Fin 2) ∉ (rowsScatterDims N R C wf).sKept := by
    simp [ScatterDims.sKept, Shape.kept]
  unfold ScatterDims.window; rw [dif_neg h]

/-- The column axis's window coordinate is the update entry's column. -/
theorem rows_window_col : (rowsScatterDims N R C wf).window (ix2 e c') (1 : Fin 2) = c'.val := by
  have h : (1 : Fin 2) ∈ (rowsScatterDims N R C wf).sKept := by
    simp [ScatterDims.sKept, Shape.kept]
  unfold ScatterDims.window; rw [dif_pos h]; rfl

/-- Update entry (e, c') lands on table entry (n, c) exactly when its row's index word, read signed, is n and
    the columns agree. -/
theorem resultIdx_rows_iff (n : Fin N) (c : Fin C) :
    (rowsScatterDims N R C wf).resultIdx? (ix2 e c') idx = some (ix2 n c)
      ↔ (idx (ix2 e 0)).toInt = (n.val : Int) ∧ c' = c := by
  have hs0 := rows_start_row wf idx e c'
  have hs1 := rows_start_col wf idx e c'
  have hw0 := rows_window_row (N := N) (R := R) wf e c'
  have hw1 := rows_window_col (N := N) (R := R) wf e c'
  unfold ScatterDims.resultIdx?
  split
  · rename_i h
    rw [Option.some.injEq]
    constructor
    · intro hf
      have h0 := congrArg (fun f : (⟨2, ![N, C]⟩ : Shape).Idx => (f (0 : Fin 2)).val) hf
      have h1 := congrArg (fun f : (⟨2, ![N, C]⟩ : Shape).Idx => (f (1 : Fin 2)).val) hf
      have hp := (h (0 : Fin 2)).1
      simp only [hs0, hs1, hw0, hw1] at h0 h1 hp
      refine ⟨?_, Fin.ext ?_⟩
      · show _ = ((ix2 n c (0 : Fin 2)).val : Int)
        rw [← h0]; omega
      · show _ = (ix2 n c (1 : Fin 2)).val
        rw [← h1]; omega
    · rintro ⟨h0, rfl⟩
      funext a; refine Fin.ext ?_
      match a with
      | ⟨0, _⟩ =>
        show ((rowsScatterDims N R C wf).start (ix2 e c') idx (0 : Fin 2) + ((rowsScatterDims N R C wf).window (ix2 e c') (0 : Fin 2) : Int)).toNat = n.val
        rw [hs0, hw0, h0]; omega
      | ⟨1, _⟩ =>
        show ((rowsScatterDims N R C wf).start (ix2 e c') idx (1 : Fin 2) + ((rowsScatterDims N R C wf).window (ix2 e c') (1 : Fin 2) : Int)).toNat = c'.val
        rw [hs1, hw1]; omega
  · rename_i h
    refine iff_of_false (fun hh => nomatch hh) ?_
    rintro ⟨h0, -⟩
    refine h fun a => ?_
    match a with
    | ⟨0, _⟩ =>
      show 0 ≤ (rowsScatterDims N R C wf).start (ix2 e c') idx (0 : Fin 2) + ((rowsScatterDims N R C wf).window (ix2 e c') (0 : Fin 2) : Int) ∧
        (rowsScatterDims N R C wf).start (ix2 e c') idx (0 : Fin 2) + ((rowsScatterDims N R C wf).window (ix2 e c') (0 : Fin 2) : Int) < (N : Int)
      rw [hs0, hw0, h0]; have := n.isLt; omega
    | ⟨1, _⟩ =>
      show 0 ≤ (rowsScatterDims N R C wf).start (ix2 e c') idx (1 : Fin 2) + ((rowsScatterDims N R C wf).window (ix2 e c') (1 : Fin 2) : Int) ∧
        (rowsScatterDims N R C wf).start (ix2 e c') idx (1 : Fin 2) + ((rowsScatterDims N R C wf).window (ix2 e c') (1 : Fin 2) : Int) < (C : Int)
      rw [hs1, hw1]; have := c'.isLt; omega

end Scatter

/-- Entry (n, c) of a row scatter-add is the table's entry plus the sum, over the update rows whose index
    word read as a signed integer is n, of the update's entry in column c. The sum is written over all
    update rows with the others contributing 0. -/
theorem scatterAdd_rows_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowsScatterDims N R C wf) x idx upd (ix2 n c)
      = x (ix2 n c) + ∑ e : Fin R, if (idx (ix2 e 0)).toInt = (n.val : Int) then upd (ix2 e c) else 0 := by
  unfold Ideal.hostScatterAdd
  congr 1
  rw [Finset.sum_filter, sum_idx2]
  refine Finset.sum_congr rfl fun e _ => ?_
  simp only [resultIdx_rows_iff]
  by_cases hP : (idx (ix2 e 0)).toInt = (n.val : Int)
  · simp only [hP, true_and, if_true]
    rw [Finset.sum_ite_eq' Finset.univ c (fun c' => upd (ix2 e c'))]
    simp
  · simp [hP]

end Cert.GatherRows

end
-- ==== Proof.EdgeAlgebra.lean ====
/-
  Aggregating the node rows over the incidences of a hyperedge commutes with a linear map of the rows.

  Row h of aggE T is the sum, over the incidences e whose hyperedge word is h, of row nodeRow e of T (the
  node word of e, counted from the end when negative, clamped into the table). If every row of T is replaced
  by its image under Wᵀ — entry c of the image is ∑ₖ T(row, k) · W(c, k) — the aggregated row is the image of
  the aggregated row: ∑ₖ (∑ₑ T(nodeRow e, k)) · W(c, k) = ∑ₑ ∑ₖ T(nodeRow e, k) · W(c, k). This moves the
  factor W(c, k) across the sum over incidences, so it is stated for tables and matrices of real numbers.
-/
import proofs.«176856_j40638980555154_2_alg».proof.Proof.SumLaws
import proofs.«176856_j40638980555154_2_alg».proof.Proof.LibGatherRows
import proofs.«176856_j40638980555154_2_alg».proof.Proof.LibPointIdx
import Idealize.ShloMosaic.PureOps.Ideal.Laws

noncomputable section

open scoped BigOperators

namespace Cert.Hyper

open Idealize.ShloMosaic Idealize.ShloMosaic.ValueIdx
open Cert.ReferenceIdeal Cert.ReferenceIdeal.Facts₀ Cert.GatherRows

/-- The node row incidence e reads: its node word, counted from the end when negative, clamped into [0, 49999]. -/
def nodeRow (ei : IVec S2x800000 32) (e : Fin 800000) : Fin 50000 :=
  ⟨min (col (wrap 50000#32 (nodeW ei)) (ix2 e 0)).toInt.toNat (50000 - 1), by omega⟩

/-- Incidence e belongs to hyperedge h: its hyperedge word, read signed, is h. -/
def onEdge (ei : IVec S2x800000 32) (h : Fin 10000) (e : Fin 800000) : Prop :=
  (col (edgeW ei) (ix2 e 0)).toInt = (h.val : Int)

instance (ei : IVec S2x800000 32) (h : Fin 10000) : DecidablePred (onEdge ei h) :=
  fun _ => inferInstanceAs (Decidable (_ = _))

/-- At the ideal instance the host's accumulating scatter is the exact sum. -/
theorem scatterAdd_ideal {s si u : Shape} {w : Nat} {φ : FTy} (d : ScatterDims s si u) (x : FVec Ideal s φ)
    (idx : IVec si w) (upd : FVec Ideal u φ) :
    Host.scatterAdd (F := Ideal) d x idx upd = Ideal.hostScatterAdd d x idx upd := rfl

/-- Entry (h, c) of the aggregated table: the empty table's 0 plus, over the incidences of h, the table's entry
    in column c of the incidence's node row. -/
theorem aggE_apply (ei : IVec S2x800000 32) (tbl : S50000x256.Idx → EReal) (h : Fin 10000) (c : Fin 256) :
    aggE ei tbl (ix2 h c) = 0 + ∑ e : Fin 800000, if onEdge ei h e then tbl (ix2 (nodeRow ei e) c) else 0 := by
  have hd : scatter_S10000x256_S800000x1_S800000x256_1_0_0_1
      = rowsScatterDims 10000 800000 256 scatter_S10000x256_S800000x1_S800000x256_1_0_0_1_wf := rfl
  have hg : gather_S50000x256_S800000x1_S800000x256_1_0_n_n_0_1_1256
      = rowsDims 50000 800000 256 gather_S50000x256_S800000x1_S800000x256_1_0_n_n_0_1_1256_wf := rfl
  unfold aggE
  rw [scatterAdd_ideal, hd, scatterAdd_rows_apply]
  refine congrArg₂ (· + ·) ?_ ?_
  · rw [Cert.PointIdx.scalar_bcast_apply, constant_apply, Ideal.ofBits_zero_f32]
  · refine Finset.sum_congr rfl fun e _ => ?_
    refine if_congr Iff.rfl ?_ rfl
    rw [hg, gather_rows_apply (by decide)]
    rfl

/-- Aggregating first and applying Wᵀ to the 10000 aggregated rows gives what applying Wᵀ to the 50000 node rows
    and aggregating gives, entry by entry, for real data. -/
theorem aggE_linear (emb : S50000x256.Idx → EReal) (W : S256x256.Idx → EReal)
    (hE : ∀ i, ∃ r : ℝ, emb i = (r : EReal)) (hW : ∀ i, ∃ r : ℝ, W i = (r : EReal))
    (ei : IVec S2x800000 32) (h : Fin 10000) (c : Fin 256) :
    ∑ k : Fin 256, aggE ei emb (ix2 h k) * W (ix2 c k) = aggE ei (project emb W) (ix2 h c) := by
  choose E hE using hE
  choose Wr hW using hW
  rw [aggE_apply]
  simp only [aggE_apply]
  show ∑ k : Fin 256, ((0 : EReal) + ∑ e : Fin 800000, if onEdge ei h e then emb (ix2 (nodeRow ei e) k) else 0) * W (ix2 c k)
      = 0 + ∑ e : Fin 800000, if onEdge ei h e then ∑ k : Fin 256, emb (ix2 (nodeRow ei e) k) * W (ix2 c k) else 0
  simp only [hE, hW]
  exact sum_exchange (onEdge ei h) (fun e k => E (ix2 (nodeRow ei e) k)) (fun k => Wr (ix2 c k))

/-- The first kernel's value on the aggregated raw rows is the reference's scaled aggregation of the projected
    rows. -/
theorem edgeProject_eq (emb : S50000x256.Idx → EReal) (W : S256x256.Idx → EReal)
    (hE : ∀ i, ∃ r : ℝ, emb i = (r : EReal)) (hW : ∀ i, ∃ r : ℝ, W i = (r : EReal)) (ei : IVec S2x800000 32) :
    edgeProject (aggE ei emb) W (asCol (invDegE ei)) = scaleRows (aggE ei (project emb W)) (invDegE ei) := by
  funext j
  obtain ⟨h, c, rfl⟩ : ∃ (h : Fin 10000) (c : Fin 256), j = ix2 h c := ⟨j 0, j 1, eq_ix2 j⟩
  show (∑ k : Fin 256, aggE ei emb (ix2 h k) * W (ix2 c k)) * invDegE ei (ix1 h)
      = aggE ei (project emb W) (ix2 h c) * invDegE ei (ix1 h)
  rw [aggE_linear emb W hE hW ei h c]

end Cert.Hyper

end
-- ==== Proof.LayerAlgebra.lean ====
/-
  The two arrangements of the layer agree on real inputs.

  After the first aggregation the two arrangements apply the same operations to the same hyperedge table
  (EdgeAlgebra), so the node table n and the activation y = leaky (n · d + b) are the same. The Gram matrix
  ∑ᵥ y(v, a) · y(v, k) over the 50000 nodes is the sum of its two halves, each accumulated over five blocks of
  5000 rows (SumLaws), and the last layer is applied to it entry by entry in the same way.
-/
import proofs.«176856_j40638980555154_2_alg».proof.Proof.EdgeAlgebra

noncomputable section

open scoped BigOperators

namespace Cert.Hyper

open Idealize.ShloMosaic Idealize.ShloMosaic.ValueIdx
open Cert.ReferenceIdeal Cert.ReferenceIdeal.Facts₀

/-- The activation with the degree column and the bias row is the reference's: leaky (n · d + b). -/
theorem act_eq (n : S50000x256.Idx → EReal) (d : S50000.Idx → EReal) (b : S256.Idx → EReal) :
    act n (asCol d) (asRow b) = fun j => leaky (scaleRows n d j + b (ix1 (j 1))) := rfl

/-- The two half Gram matrices add up to the whole one. -/
theorem gramHalves_add (y : S50000x256.Idx → EReal) (a k : Fin 256) :
    (∑ k' : Fin 5, ∑ r : Fin 5000, y (ix2 (blockRow 0 k' r) a) * y (ix2 (blockRow 0 k' r) k))
      + (∑ k' : Fin 5, ∑ r : Fin 5000, y (ix2 (blockRow 1 k' r) a) * y (ix2 (blockRow 1 k' r) k))
      = ∑ v : Fin 50000, y (ix2 v a) * y (ix2 v k) := by
  rw [sum_rows_blocks (fun v => y (ix2 v a) * y (ix2 v k)), Fin.sum_univ_two]

/-- The layer as the three kernels compute it is the layer as the reference computes it, when the node table and
    the projection matrix hold real numbers. -/
theorem kerMath_eq_refMath (emb : S50000x256.Idx → EReal) (W : S256x256.Idx → EReal) (b : S256.Idx → EReal)
    (L : S256x256.Idx → EReal) (l : S256.Idx → EReal) (ei : IVec S2x800000 32)
    (hE : ∀ i, ∃ r : ℝ, emb i = (r : EReal)) (hW : ∀ i, ∃ r : ℝ, W i = (r : EReal)) :
    kerMath emb W b L l ei = refMath emb W b L l ei := by
  unfold kerMath refMath
  rw [edgeProject_eq emb W hE hW ei, ← act_eq]
  funext j
  obtain ⟨a, c, rfl⟩ : ∃ (a c : Fin 256), j = ix2 a c := ⟨j 0, j 1, eq_ix2 j⟩
  refine congrArg leaky (congrArg₂ (· + ·) (Finset.sum_congr rfl fun k _ => congrArg (· * L (ix2 c k)) ?_) rfl)
  exact gramHalves_add _ a k

end Cert.Hyper

end
-- ==== Proof.Finite.lean ====
/-
  From the precondition to real numbers.

  The precondition is one bit: the conjunction, over the five float inputs, of "every entry x of the input has
  |x| < +∞", each conjunct computed as a reduction by "and" of the entrywise comparison bits over the whole array,
  starting from 1. If the bit is 1 then every conjunct is 1, so every comparison bit is 1, so every entry has
  |x| = max x (−x) below +∞; an extended real with that property is neither +∞ nor −∞, that is, it is a real number.
  Only the first two inputs are read off here.
-/
import proofs.«176856_j40638980555154_2_alg».proof.Proof.Gen.Pre_finite_inputs
import Idealize.ShloMosaic.PureOps.Ideal.Laws
import Idealize.ShloMosaic.Lib.ReduceAll
import Idealize.ShloMosaic.Lib.ValueIdx
noncomputable section
namespace Cert.Hyper.Finite
open Idealize.ShloMosaic Idealize.ShloMosaic.ValueIdx

/-- The shape with no axes has one index. -/
instance : Subsingleton Cert.Pre_finite_inputs.S_.Idx := ⟨fun a b => funext fun d => d.elim0⟩

/-- The word 0x7F800000 is +∞. -/
theorem inf_word : Ideal.ofBits .f32 0x7F800000#32 = (⊤ : EReal) := by simp [Ideal.ofBits, Ideal.ieee]

/-- An extended real whose absolute value max x (−x) is below +∞ is a real number: at +∞ and at −∞ the maximum is +∞. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- An entry whose comparison bit |x| < +∞ is 1 is a real number. -/
theorem real_of_bit (x : EReal)
    (h : FloatOps.cmpf (F := Ideal) (φ := .f32) .olt (FloatOps.absf (F := Ideal) (φ := .f32) x) (Ideal.ofBits .f32 0x7F800000#32) = 1#1) :
    ∃ r : ℝ, x = (r : EReal) := by
  rw [Ideal.cmpf_def, Ideal.absf_def, inf_word] at h
  refine real_of_abs_lt_top x ?_
  by_contra hlt
  have : Ideal.cmp .olt (max x (-x)) (⊤ : EReal) = 0#1 := by
    show BitVec.ofBool (decide (max x (-x) < (⊤ : EReal))) = 0#1
    rw [decide_eq_false hlt]; rfl
  rw [this] at h
  exact absurd h (by decide)

/-- Two bits whose conjunction is 1, taken at an index of a vector of bits, are both 1. -/
theorem both_of_andi {s : Shape} (x y : IVec s 1) (i : s.Idx) (h : andi x y i = 1#1) : x i = 1#1 ∧ y i = 1#1 :=
  IntOp.andi_eq_one.1 h

/-- If the reduction by "and" of the comparison bits |x| < +∞ over a whole array is 1, every entry of the array is a
    real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf .olt (Host.absf x)
          (broadcastInDim s ![] hb (constant (F := Ideal) Cert.Pre_finite_inputs.S_ .f32 0x7F800000#32)))
        (constantI Cert.Pre_finite_inputs.S_ 1 1#1) hr hu ix0 = 1#1) :
    ∀ i : s.Idx, ∃ r : ℝ, x i = (r : EReal) := fun i =>
  real_of_bit (x i) (Host.reduce_andi_all _ _ hr hu ix0 h i)

/-- Under the precondition every entry of the first two inputs is a real number. -/
theorem real_of_pre (a0 : FVec Ideal Cert.Pre_finite_inputs.S50000x256 .f32) (a1 : FVec Ideal Cert.Pre_finite_inputs.S256x256 .f32)
    (a2 : FVec Ideal Cert.Pre_finite_inputs.S256 .f32) (a3 : FVec Ideal Cert.Pre_finite_inputs.S256x256 .f32)
    (a4 : FVec Ideal Cert.Pre_finite_inputs.S256 .f32) (a5 : IVec Cert.Pre_finite_inputs.S2x800000 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) := by
  have h0 := congrFun h ix0
  dsimp only [Cert.Pre_finite_inputs.fn, Cert.Pre_finite_inputs.fn_part1] at h0
  have h1 := (both_of_andi _ _ _ h0).1
  have h2 := (both_of_andi _ _ _ h1).1
  have h3 := (both_of_andi _ _ _ h2).1
  obtain ⟨h4, h5⟩ := both_of_andi _ _ _ h3
  exact ⟨all_real a0 _ _ _ h4, all_real a1 _ _ _ h5⟩

end Cert.Hyper.Finite
end
-- ==== Proof.lean ====
/-
  A hypergraph convolution layer, a Gram matrix and a dense layer: three kernels against a plain reference.

  The reference projects every node row by Wᵀ, aggregates the projected rows over the incidences of every
  hyperedge, scales by the reciprocal hyperedge degrees, aggregates back over the incidences of every node,
  scales by the reciprocal node degrees, adds a bias and applies a leaky rectifier; it then takes the Gram
  matrix of the 50000 activated rows and applies a last dense layer with the same rectifier. The kernel program
  aggregates the RAW node rows first and projects the 10000 aggregated rows in its first kernel; its second
  kernel applies the node scaling, bias and rectifier and accumulates the Gram matrix in two halves of five
  blocks of 5000 rows; its third kernel adds the halves and applies the dense layer.

  On the extended reals the two agree entry by entry when the node table and the projection matrix hold real
  numbers (the precondition): projecting commutes with the aggregation because a finite real sum distributes
  over the product with a real factor, and the Gram matrix is regrouped using only commutativity and
  associativity of addition. Every other operation is applied in the same way to the same values.

  The kernel program's frame is the generated one; its value is read off the frame's boundary contents
  (KerRun, KerHost with the three region values EdgeValue, GramValue, DenseValue); the reference's run is read
  back operation by operation (RefRun); the two values are joined by LayerAlgebra.
-/
import proofs.«176856_j40638980555154_2_alg».proof.Defs
import proofs.«176856_j40638980555154_2_alg».proof.Proof.Gen.Kernel
import proofs.«176856_j40638980555154_2_alg».proof.Proof.Gen.Kernel.Frame
import proofs.«176856_j40638980555154_2_alg».proof.Proof.Gen.KernelIdeal
import proofs.«176856_j40638980555154_2_alg».proof.Proof.Gen.KernelIdeal.Frame
import proofs.«176856_j40638980555154_2_alg».proof.Proof.Gen.ReferenceIdeal
import proofs.«176856_j40638980555154_2_alg».proof.Proof.Gen.Pre_finite_inputs
import proofs.«176856_j40638980555154_2_alg».proof.Proof.KerRun
import proofs.«176856_j40638980555154_2_alg».proof.Proof.KerHost
import proofs.«176856_j40638980555154_2_alg».proof.Proof.RefRun
import proofs.«176856_j40638980555154_2_alg».proof.Proof.LayerAlgebra
import proofs.«176856_j40638980555154_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefRun.run m ρ)

/-- The ideal pass rewrote nothing: the idealized kernel program is the program's own text read at the ideal
    instance. -/
theorem preserves : Cert.preserves_Kernel_KernelIdeal := trivial

/-- Both programs end with the layer's value: the kernel program with kerMath of its arguments, the reference
    with refMath of arguments that agree with them, and the two are one function of real node rows and a real
    projection matrix. -/
theorem algebraic : Cert.algebraic_KernelIdeal_ReferenceIdeal := by
  intro m ρ m' ρ' hpre hagree
  refine ⟨fun c => Cert.Hyper.kerMath (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KerHost.kernel_value m ρ c), (h c).2⟩) (Cert.KernelIdeal.KerRun.run_final m ρ)
  · refine (θ_run Cert.ReferenceIdeal.defs _ _).mono (fun r h c => ⟨(h c).1.trans ?_, (h c).2⟩) (Cert.ReferenceIdeal.RefRun.run m' ρ')
    obtain ⟨hE, hW⟩ := Cert.Hyper.Finite.real_of_pre _ _ _ _ _ _ (hpre c)
    rw [(hagree c).1, (hagree c).2.1, (hagree c).2.2.1, (hagree c).2.2.2.1, (hagree c).2.2.2.2.1, (hagree c).2.2.2.2.2]
    exact (Cert.Hyper.kerMath_eq_refMath _ _ _ _ _ _ hE hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
